-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.sign_bit.Statement Cert.KernelIdeal.S5000x128 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v72_1)) (v2 : (c : Dev Cert.KernelIdeal.nD) → Buf (Elt Ideal) ((c.tc : Thread Cert.KernelIdeal.nD Cert.KernelIdeal.τ).loc Cert.KernelIdeal.main_v72_0)) (v3 : (c : Dev Cert.KernelIdeal.nD) → Buf (Elt Ideal) ((c.tc : Thread Cert.KernelIdeal.nD Cert.KernelIdeal.τ).loc Cert.KernelIdeal.main_v119)) (v4 : (c : Dev Cert.KernelIdeal.nD) → Buf (Elt Ideal) ((c.tc : Thread Cert.KernelIdeal.nD Cert.KernelIdeal.τ).loc Cert.KernelIdeal.main_v142_1)) (v5 : (c : Dev Cert.KernelIdeal.nD) → Buf (Elt Ideal) ((c.tc : Thread Cert.KernelIdeal.nD Cert.KernelIdeal.τ).loc Cert.KernelIdeal.main_v142_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v72_1) = v1 c
          ∧ r.2.mem ((c.tc : Thread Cert.KernelIdeal.nD Cert.KernelIdeal.τ).loc Cert.KernelIdeal.main_v72_0) = v2 c
          ∧ r.2.mem ((c.tc : Thread Cert.KernelIdeal.nD Cert.KernelIdeal.τ).loc Cert.KernelIdeal.main_v119) = v3 c
          ∧ r.2.mem ((c.tc : Thread Cert.KernelIdeal.nD Cert.KernelIdeal.τ).loc Cert.KernelIdeal.main_v142_1) = v4 c
          ∧ r.2.mem ((c.tc : Thread Cert.KernelIdeal.nD Cert.KernelIdeal.τ).loc Cert.KernelIdeal.main_v142_0) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_v151) = v3 c
          ∧ r.2.mem ((c.tc : Thread Cert.ReferenceIdeal.nD Cert.ReferenceIdeal.τ).loc Cert.ReferenceIdeal.main_v178) = v4 c
          ∧ r.2.mem ((c.tc : Thread Cert.ReferenceIdeal.nD Cert.ReferenceIdeal.τ).loc Cert.ReferenceIdeal.main_v177) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S47x128 : Shape := ⟨2, ![47, 128]⟩
abbrev S47 : Shape := ⟨1, ![47]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S47x128 : S_.BroadcastsInDim S47x128 (![] : Fin 0 → Fin S47x128.rank)
  reducesTo_S47x128_S_d0_1 : S47x128.ReducesTo [0, 1] S_
  bcast_S_S47 : S_.BroadcastsInDim S47 (![] : Fin 0 → Fin S47.rank)
  reducesTo_S47_S_d0 : S47.ReducesTo [0] S_

variable [Facts]

def fn_part3 {F : FTy → Type} [FloatOps F] (main_v48 : IVec S_ 1) (main_v49 : FVec F S47x128 .f32) (main_v50 : FVec F S47x128 .f32) : IVec S_ 1 :=
  let main_v51 : IVec S47x128 1 := cmpf .olt main_v49 main_v50
  let main_c_19 : IVec S_ 1 := constantI S_ 1 1#1
  let main_v52 : IVec S_ 1 := (fun x v => Host.reduce IntOp.andi x v reducesTo_S47x128_S_d0_1 h_S_) main_v51 main_c_19
  let main_v53 : IVec S_ 1 := andi main_v48 main_v52
  main_v53

def fn_part2 {F : FTy → Type} [FloatOps F] (main_arg8 : FVec F S128x128 .f32) (main_arg9 : FVec F S47x128 .f32) (main_arg10 : FVec F S47 .f32) (main_arg11 : FVec F S47x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S47x128 .f32 := Host.absf main_arg9
  let main_cst_14 : FVec F S_ .f32 := constant S_ .f32 0x7F800000#32
  let main_v40 : FVec F S47x128 .f32 := broadcastInDim S47x128 ![] bcast_S_S47x128 main_cst_14
  let main_v41 : IVec S47x128 1 := cmpf .olt main_v39 main_v40
  let main_c_15 : IVec S_ 1 := constantI S_ 1 1#1
  let main_v42 : IVec S_ 1 := (fun x v => Host.reduce IntOp.andi x v reducesTo_S47x128_S_d0_1 h_S_) main_v41 main_c_15
  let main_v43 : IVec S_ 1 := andi main_v38 main_v42
  let main_v44 : FVec F S47 .f32 := Host.absf main_arg10
  let main_cst_16 : FVec F S_ .f32 := constant S_ .f32 0x7F800000#32
  let main_v45 : FVec F S47 .f32 := broadcastInDim S47 ![] bcast_S_S47 main_cst_16
  let main_v46 : IVec S47 1 := cmpf .olt main_v44 main_v45
  let main_c_17 : IVec S_ 1 := constantI S_ 1 1#1
  let main_v47 : IVec S_ 1 := (fun x v => Host.reduce IntOp.andi x v reducesTo_S47_S_d0 h_S_) main_v46 main_c_17
  let main_v48 : IVec S_ 1 := andi main_v43 main_v47
  let main_v49 : FVec F S47x128 .f32 := Host.absf main_arg11
  let main_cst_18 : FVec F S_ .f32 := constant S_ .f32 0x7F800000#32
  let main_v50 : FVec F S47x128 .f32 := broadcastInDim S47x128 ![] bcast_S_S47x128 main_cst_18
  fn_part3 (F := F) main_v48 main_v49 main_v50

def fn_part1 {F : FTy → Type} [FloatOps F] (main_arg5 : FVec F S128x128 .f32) (main_arg6 : FVec F S128x128 .f32) (main_arg7 : FVec F S128 .f32) (main_arg8 : FVec F S128x128 .f32) (main_arg9 : FVec F S47x128 .f32) (main_arg10 : FVec F S47 .f32) (main_arg11 : FVec F S47x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S50000x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S47x128 .f32) (main_arg10 : FVec F S47 .f32) (main_arg11 : FVec F S47x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg2
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S47x128 : Shape := ⟨2, ![47, 128]⟩
abbrev S47 : Shape := ⟨1, ![47]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S1x47 : Shape := ⟨2, ![1, 47]⟩
abbrev S50000x47 : Shape := ⟨2, ![50000, 47]⟩
abbrev S5000x47 : Shape := ⟨2, ![5000, 47]⟩
abbrev S128x47 : Shape := ⟨2, ![128, 47]⟩
abbrev S5000 : Shape := ⟨1, ![5000]⟩
abbrev S5000x1 : Shape := ⟨2, ![5000, 1]⟩

abbrev nBuf : Space → Nat
  | .hbm => 193
  | .vmem => 64
  | .smem => 0
  | _ => 0

abbrev hbmTy0_0 (i : Nat) : BufTy := match i % 128 with
  | 0 => ⟨S50000x128, .f32⟩
  | 1 => ⟨S2x800000, .i32⟩
  | 2 => ⟨S50000x128, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S47x128, .f32⟩
  | 10 => ⟨S47, .f32⟩
  | 11 => ⟨S47x128, .f32⟩
  | 12 => ⟨S1x800000, .i32⟩
  | 13 => ⟨S800000, .i32⟩
  | 14 => ⟨S1x800000, .i32⟩
  | 15 => ⟨S800000, .i32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S_, .f32⟩
  | 30 => ⟨S800000, .f32⟩
  | 31 => ⟨S_, .f32⟩
  | 32 => ⟨S50000, .f32⟩
  | 33 => ⟨S800000x1, .i32⟩
  | 34 => ⟨S50000, .f32⟩
  | 35 => ⟨S_, .f32⟩
  | 36 => ⟨S50000, .f32⟩
  | 37 => ⟨S50000, .f32⟩
  | 38 => ⟨S50000x1, .f32⟩
  | 39 => ⟨S50000x128, .f32⟩
  | 40 => ⟨S50000x128, .f32⟩
  | 41 => ⟨S128x128, .bf16⟩
  | 42 => ⟨S128x128, .bf16⟩
  | 43 => ⟨S1x128, .f32⟩
  | 44 => ⟨S50000x128, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x128, .f32⟩
  | 54 => ⟨S_, .f32⟩
  | 55 => ⟨S50000x128, .f32⟩
  | 56 => ⟨S800000x1, .i32⟩
  | 57 => ⟨S50000x128, .f32⟩
  | 58 => ⟨S_, .f32⟩
  | 59 => ⟨S800000, .f32⟩
  | 60 => ⟨S_, .f32⟩
  | 61 => ⟨S50000, .f32⟩
  | 62 => ⟨S800000x1, .i32⟩
  | 63 => ⟨S50000, .f32⟩
  | 64 => ⟨S_, .f32⟩
  | 65 => ⟨S50000, .f32⟩
  | 66 => ⟨S50000, .f32⟩
  | 67 => ⟨S50000x1, .f32⟩
  | 68 => ⟨S50000x128, .f32⟩
  | 69 => ⟨S50000x128, .f32⟩
  | 70 => ⟨S128x128, .bf16⟩
  | 71 => ⟨S128x128, .bf16⟩
  | 72 => ⟨S1x128, .f32⟩
  | 73 => ⟨S50000x128, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x128, .f32⟩
  | 83 => ⟨S_, .f32⟩
  | 84 => ⟨S50000x128, .f32⟩
  | 85 => ⟨S800000x1, .i32⟩
  | 86 => ⟨S50000x128, .f32⟩
  | 87 => ⟨S_, .f32⟩
  | 88 => ⟨S800000, .f32⟩
  | 89 => ⟨S_, .f32⟩
  | 90 => ⟨S50000, .f32⟩
  | 91 => ⟨S800000x1, .i32⟩
  | 92 => ⟨S50000, .f32⟩
  | 93 => ⟨S_, .f32⟩
  | 94 => ⟨S50000, .f32⟩
  | 95 => ⟨S50000, .f32⟩
  | 96 => ⟨S50000x1, .f32⟩
  | 97 => ⟨S50000x128, .f32⟩
  | 98 => ⟨S50000x128, .f32⟩
  | 99 => ⟨S47x128, .bf16⟩
  | 100 => ⟨S47x128, .bf16⟩
  | 101 => ⟨S1x47, .f32⟩
  | 102 => ⟨S50000x47, .f32⟩
  | 103 => ⟨S50000x47, .f32⟩
  | 104 => ⟨S50000x128, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x128, .f32⟩
  | 114 => ⟨S_, .f32⟩
  | 115 => ⟨S50000x128, .f32⟩
  | 116 => ⟨S800000x1, .i32⟩
  | 117 => ⟨S50000x128, .f32⟩
  | 118 => ⟨S_, .f32⟩
  | 119 => ⟨S800000, .f32⟩
  | 120 => ⟨S_, .f32⟩
  | 121 => ⟨S50000, .f32⟩
  | 122 => ⟨S800000x1, .i32⟩
  | 123 => ⟨S50000, .f32⟩
  | 124 => ⟨S_, .f32⟩
  | 125 => ⟨S50000, .f32⟩
  | 126 => ⟨S50000, .f32⟩
  | 127 => ⟨S50000x1, .f32⟩
  | _ => ⟨S50000x128, .f32⟩

abbrev hbmTy0_1 (i : Nat) : BufTy := match i % 128 with
  | 0 => ⟨S50000x128, .f32⟩
  | 1 => ⟨S50000x128, .f32⟩
  | 2 => ⟨S128x128, .bf16⟩
  | 3 => ⟨S128x128, .bf16⟩
  | 4 => ⟨S1x128, .f32⟩
  | 5 => ⟨S50000x128, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x128, .f32⟩
  | 15 => ⟨S_, .f32⟩
  | 16 => ⟨S50000x128, .f32⟩
  | 17 => ⟨S800000x1, .i32⟩
  | 18 => ⟨S50000x128, .f32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S50000x1, .f32⟩
  | 29 => ⟨S50000x128, .f32⟩
  | 30 => ⟨S50000x128, .f32⟩
  | 31 => ⟨S128x128, .bf16⟩
  | 32 => ⟨S128x128, .bf16⟩
  | 33 => ⟨S1x128, .f32⟩
  | 34 => ⟨S50000x128, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x128, .f32⟩
  | 44 => ⟨S_, .f32⟩
  | 45 => ⟨S50000x128, .f32⟩
  | 46 => ⟨S800000x1, .i32⟩
  | 47 => ⟨S50000x128, .f32⟩
  | 48 => ⟨S_, .f32⟩
  | 49 => ⟨S800000, .f32⟩
  | 50 => ⟨S_, .f32⟩
  | 51 => ⟨S50000, .f32⟩
  | 52 => ⟨S800000x1, .i32⟩
  | 53 => ⟨S50000, .f32⟩
  | 54 => ⟨S_, .f32⟩
  | 55 => ⟨S50000, .f32⟩
  | 56 => ⟨S50000, .f32⟩
  | 57 => ⟨S50000x1, .f32⟩
  | 58 => ⟨S50000x128, .f32⟩
  | 59 => ⟨S50000x128, .f32⟩
  | 60 => ⟨S47x128, .bf16⟩
  | 61 => ⟨S47x128, .bf16⟩
  | 62 => ⟨S1x47, .f32⟩
  | 63 => ⟨S50000x47, .f32⟩
  | 64 => ⟨S50000x47, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .bf16⟩
  | .local _ .vmem, ⟨14, _⟩ => ⟨S1x128, .f32⟩
  | .local _ .vmem, ⟨15, _⟩ => ⟨S128x128, .bf16⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S47x128, .bf16⟩
  | .local _ .vmem, ⟨23, _⟩ => ⟨S1x47, .f32⟩
  | .local _ .vmem, ⟨24, _⟩ => ⟨S47x128, .bf16⟩
  | .local _ .vmem, ⟨25, _⟩ => ⟨S5000x47, .f32⟩
  | .local _ .vmem, ⟨26, _⟩ => ⟨S5000x47, .f32⟩
  | .local _ .vmem, ⟨27, _⟩ => ⟨S5000x47, .f32⟩
  | .local _ .vmem, ⟨28, _⟩ => ⟨S5000x47, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S128x128, .bf16⟩
  | .local _ .vmem, ⟨40, _⟩ => ⟨S1x128, .f32⟩
  | .local _ .vmem, ⟨41, _⟩ => ⟨S128x128, .bf16⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S128x128, .bf16⟩
  | .local _ .vmem, ⟨49, _⟩ => ⟨S1x128, .f32⟩
  | .local _ .vmem, ⟨50, _⟩ => ⟨S128x128, .bf16⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S47x128, .bf16⟩
  | .local _ .vmem, ⟨58, _⟩ => ⟨S1x47, .f32⟩
  | .local _ .vmem, ⟨59, _⟩ => ⟨S47x128, .bf16⟩
  | .local _ .vmem, ⟨60, _⟩ => ⟨S5000x47, .f32⟩
  | .local _ .vmem, ⟨61, _⟩ => ⟨S5000x47, .f32⟩
  | .local _ .vmem, ⟨62, _⟩ => ⟨S5000x47, .f32⟩
  | .local _ .vmem, ⟨63, _⟩ => ⟨S5000x47, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_12 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_v60 : Ref sig .tc := ⟨.hbm, 88, rfl⟩
abbrev main_cst_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_15 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72_0 : Ref sig .tc := ⟨.hbm, 102, rfl⟩
abbrev main_v72_1 : Ref sig .tc := ⟨.hbm, 103, rfl⟩
abbrev main_v73 : Ref sig .tc := ⟨.hbm, 104, rfl⟩
abbrev main_c_16 : Ref sig .tc := ⟨.hbm, 105, rfl⟩
abbrev main_v74 : Ref sig .tc := ⟨.hbm, 106, rfl⟩
abbrev main_v75 : Ref sig .tc := ⟨.hbm, 107, rfl⟩
abbrev main_c_17 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_19 : Ref sig .tc := ⟨.hbm, 118, rfl⟩
abbrev main_v84 : Ref sig .tc := ⟨.hbm, 119, rfl⟩
abbrev main_cst_20 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_21 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_c_22 : Ref sig .tc := ⟨.hbm, 134, rfl⟩
abbrev main_v97 : Ref sig .tc := ⟨.hbm, 135, rfl⟩
abbrev main_v98 : Ref sig .tc := ⟨.hbm, 136, rfl⟩
abbrev main_c_23 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_24 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_25 : Ref sig .tc := ⟨.hbm, 147, rfl⟩
abbrev main_v107 : Ref sig .tc := ⟨.hbm, 148, rfl⟩
abbrev main_cst_26 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_cst_27 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_c_28 : Ref sig .tc := ⟨.hbm, 163, rfl⟩
abbrev main_v120 : Ref sig .tc := ⟨.hbm, 164, rfl⟩
abbrev main_v121 : Ref sig .tc := ⟨.hbm, 165, rfl⟩
abbrev main_c_29 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_cst_30 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_cst_31 : Ref sig .tc := ⟨.hbm, 176, rfl⟩
abbrev main_v130 : Ref sig .tc := ⟨.hbm, 177, rfl⟩
abbrev main_cst_32 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_cst_33 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142_0 : Ref sig .tc := ⟨.hbm, 191, rfl⟩
abbrev main_v142_1 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_stg6_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg5_0 : Ref sig .tc := ⟨.vmem, 51, rfl⟩
abbrev cc5_stg5_1 : Ref sig .tc := ⟨.vmem, 52, rfl⟩
abbrev cc6_stg0_0 : Ref sig .tc := ⟨.vmem, 53, rfl⟩
abbrev cc6_stg0_1 : Ref sig .tc := ⟨.vmem, 54, rfl⟩
abbrev cc6_stg1_0 : Ref sig .tc := ⟨.vmem, 55, rfl⟩
abbrev cc6_stg1_1 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg4_0 : Ref sig .tc := ⟨.vmem, 59, rfl⟩
abbrev cc6_stg5_0 : Ref sig .tc := ⟨.vmem, 60, rfl⟩
abbrev cc6_stg5_1 : Ref sig .tc := ⟨.vmem, 61, rfl⟩
abbrev cc6_stg6_0 : Ref sig .tc := ⟨.vmem, 62, rfl⟩
abbrev cc6_stg6_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc2_sem6_0 : DmaSem sig := 27
abbrev cc2_sem6_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem3_0 : DmaSem sig := 49
abbrev cc5_sem4_0 : DmaSem sig := 50
abbrev cc5_sem5_0 : DmaSem sig := 51
abbrev cc5_sem5_1 : DmaSem sig := 52
abbrev cc6_sem0_0 : DmaSem sig := 53
abbrev cc6_sem0_1 : DmaSem sig := 54
abbrev cc6_sem1_0 : DmaSem sig := 55
abbrev cc6_sem1_1 : DmaSem sig := 56
abbrev cc6_sem2_0 : DmaSem sig := 57
abbrev cc6_sem3_0 : DmaSem sig := 58
abbrev cc6_sem4_0 : DmaSem sig := 59
abbrev cc6_sem5_0 : DmaSem sig := 60
abbrev cc6_sem5_1 : DmaSem sig := 61
abbrev cc6_sem6_0 : DmaSem sig := 62
abbrev cc6_sem6_1 : DmaSem sig := 63

abbrev nD : Nat := 1
abbrev τ : Topo := Topo.v7x

variable {F : FTy → Type} [BitOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S47x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S47x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x47 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x47 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S47x128 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x47 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S47x128 .bf16 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x47 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S5000x47 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  transposes_S128x128_p1_0_S128x128 : S128x128.Transposes [1, 0] S128x128
  broadcasts_S1x128_S5000x128 : S1x128.Broadcasts S5000x128
  shapeCasts_S47_S1x47 : S47.ShapeCasts S1x47
  inb_S47x128_S47x128_0_0 : ∀ a, (![0, 0] : Fin 2 → Nat) a + S47x128.size a ≤ S47x128.size a
  h_S47x128 : 0 < S47x128.numel
  shapeCasts_S47x128_S47x128 : S47x128.ShapeCasts S47x128
  inb_S1x47_S1x47_0_0 : ∀ a, (![0, 0] : Fin 2 → Nat) a + S1x47.size a ≤ S1x47.size a
  h_S1x47 : 0 < S1x47.numel
  shapeCasts_S1x47_S1x47 : S1x47.ShapeCasts S1x47
  transposes_S47x128_p1_0_S128x47 : S47x128.Transposes [1, 0] S128x47
  broadcasts_S1x47_S5000x47 : S1x47.Broadcasts S5000x47
  inb_S5000x47_S5000x47_0_0 : ∀ a, (![0, 0] : Fin 2 → Nat) a + S5000x47.size a ≤ S5000x47.size a
  h_S5000x47 : 0 < S5000x47.numel
  reduces_S5000x47_S5000 : S5000x47.Reduces [1] S5000
  shapeCasts_S5000_S5000x1 : S5000.ShapeCasts S5000x1
  broadcasts_S5000x1_S5000x47 : S5000x1.Broadcasts S5000x47
  reduces_S5000x128_S5000 : S5000x128.Reduces [1] S5000
  broadcasts_S5000x1_S5000x128 : S5000x1.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  dot_S5000x128_S128x47_S5000x47_1_0_0_1_n_n_wf : DotDims.WF S5000x128 S128x47 S5000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S47x128.size a ≤ S47x128.size a
  hwx2_2 : ∀ i : grid2.Coords, EltTy.bits .bf16 = 32 ∨ (Rect.block (s := S47x128) S47x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x47.size a ≤ S1x47.size a
  hwx2_3 : ∀ i : grid2.Coords, EltTy.bits .f32 = 32 ∨ (Rect.block (s := S1x47) S1x47.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S47x128.size a ≤ S47x128.size a
  hwx2_4 : ∀ i : grid2.Coords, EltTy.bits .bf16 = 32 ∨ (Rect.block (s := S47x128) S47x128.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x47.size a ≤ S50000x47.size a
  hwx2_5 : ∀ i : grid2.Coords, EltTy.bits .f32 = 32 ∨ (Rect.block (s := S50000x47) S5000x47.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x47.size a ≤ S50000x47.size a
  hwx2_6 : ∀ i : grid2.Coords, EltTy.bits .f32 = 32 ∨ (Rect.block (s := S50000x47) S5000x47.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .bf16 = 32 ∨ (Rect.block (s := S128x128) S128x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .bf16 = 32 ∨ (Rect.block (s := S128x128) S128x128.size (cc4_transform_4 i) (hinb4_4 i)).WholeWords (EltTy.packing .bf16)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .bf16 = 32 ∨ (Rect.block (s := S128x128) S128x128.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .bf16 = 32 ∨ (Rect.block (s := S128x128) S128x128.size (cc5_transform_4 i) (hinb5_4 i)).WholeWords (EltTy.packing .bf16)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S47x128.size a ≤ S47x128.size a
  hwx6_2 : ∀ i : grid6.Coords, EltTy.bits .bf16 = 32 ∨ (Rect.block (s := S47x128) S47x128.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x47.size a ≤ S1x47.size a
  hwx6_3 : ∀ i : grid6.Coords, EltTy.bits .f32 = 32 ∨ (Rect.block (s := S1x47) S1x47.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S47x128.size a ≤ S47x128.size a
  hwx6_4 : ∀ i : grid6.Coords, EltTy.bits .bf16 = 32 ∨ (Rect.block (s := S47x128) S47x128.size (cc6_transform_4 i) (hinb6_4 i)).WholeWords (EltTy.packing .bf16)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x47.size a ≤ S50000x47.size a
  hwx6_5 : ∀ i : grid6.Coords, EltTy.bits .f32 = 32 ∨ (Rect.block (s := S50000x47) S5000x47.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x47.size a ≤ S50000x47.size a
  hwx6_6 : ∀ i : grid6.Coords, EltTy.bits .f32 = 32 ∨ (Rect.block (s := S50000x47) S5000x47.size (cc6_transform_6 i) (hinb6_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x47_S5000x47_1_0_0_1_n_n : DotDims S5000x128 S128x47 S5000x47 where
  lhsContracting := [1]
  rhsContracting := [0]
  lhsNonContracting := [0]
  rhsNonContracting := [1]
  lhsBatch := []
  rhsBatch := []
  wf := dot_S5000x128_S128x47_S5000x47_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v68) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v69) S47x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S1x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S47x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72_0) S5000x47.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v72_1) S5000x47.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_arg0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v73) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v92) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v73) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v93) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v95) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v94) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v96) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v115) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v96) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v116) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v118) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v117) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v119) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v138) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v119) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v139) S47x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v141) S1x47.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v140) S47x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v142_0) S5000x47.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v142_1) S5000x47.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S47x128 : Shape := ⟨2, ![47, 128]⟩
abbrev S47 : Shape := ⟨1, ![47]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S128x47 : Shape := ⟨2, ![128, 47]⟩
abbrev S50000x47 : Shape := ⟨2, ![50000, 47]⟩
abbrev S1x47 : Shape := ⟨2, ![1, 47]⟩
abbrev S50000 : Shape := ⟨1, ![50000]⟩

abbrev nBuf : Space → Nat
  | .hbm => 266
  | .vmem => 0
  | .smem => 0
  | _ => 0

abbrev hbmTy0_0 (i : Nat) : BufTy := match i % 128 with
  | 0 => ⟨S50000x128, .f32⟩
  | 1 => ⟨S2x800000, .i32⟩
  | 2 => ⟨S50000x128, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S47x128, .f32⟩
  | 10 => ⟨S47, .f32⟩
  | 11 => ⟨S47x128, .f32⟩
  | 12 => ⟨S1x800000, .i32⟩
  | 13 => ⟨S800000, .i32⟩
  | 14 => ⟨S1x800000, .i32⟩
  | 15 => ⟨S800000, .i32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S_, .f32⟩
  | 30 => ⟨S800000x1, .f32⟩
  | 31 => ⟨S_, .f32⟩
  | 32 => ⟨S50000x1, .f32⟩
  | 33 => ⟨S800000x1, .i32⟩
  | 34 => ⟨S50000x1, .f32⟩
  | 35 => ⟨S_, .f32⟩
  | 36 => ⟨S50000x1, .f32⟩
  | 37 => ⟨S50000x1, .f32⟩
  | 38 => ⟨S50000x128, .f32⟩
  | 39 => ⟨S50000x128, .f32⟩
  | 40 => ⟨S128x128, .f32⟩
  | 41 => ⟨S50000x128, .f32⟩
  | 42 => ⟨S1x128, .f32⟩
  | 43 => ⟨S50000x128, .f32⟩
  | 44 => ⟨S50000x128, .f32⟩
  | 45 => ⟨S128x128, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S_, .f32⟩
  | 65 => ⟨S800000x1, .f32⟩
  | 66 => ⟨S_, .f32⟩
  | 67 => ⟨S50000x1, .f32⟩
  | 68 => ⟨S800000x1, .i32⟩
  | 69 => ⟨S50000x1, .f32⟩
  | 70 => ⟨S_, .f32⟩
  | 71 => ⟨S50000x1, .f32⟩
  | 72 => ⟨S50000x1, .f32⟩
  | 73 => ⟨S50000x128, .f32⟩
  | 74 => ⟨S50000x128, .f32⟩
  | 75 => ⟨S128x128, .f32⟩
  | 76 => ⟨S50000x128, .f32⟩
  | 77 => ⟨S1x128, .f32⟩
  | 78 => ⟨S50000x128, .f32⟩
  | 79 => ⟨S50000x128, .f32⟩
  | 80 => ⟨S128x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x128, .f32⟩
  | 95 => ⟨S_, .f32⟩
  | 96 => ⟨S50000x128, .f32⟩
  | 97 => ⟨S800000x1, .i32⟩
  | 98 => ⟨S50000x128, .f32⟩
  | 99 => ⟨S_, .f32⟩
  | 100 => ⟨S800000x1, .f32⟩
  | 101 => ⟨S_, .f32⟩
  | 102 => ⟨S50000x1, .f32⟩
  | 103 => ⟨S800000x1, .i32⟩
  | 104 => ⟨S50000x1, .f32⟩
  | 105 => ⟨S_, .f32⟩
  | 106 => ⟨S50000x1, .f32⟩
  | 107 => ⟨S50000x1, .f32⟩
  | 108 => ⟨S50000x128, .f32⟩
  | 109 => ⟨S50000x128, .f32⟩
  | 110 => ⟨S128x47, .f32⟩
  | 111 => ⟨S50000x47, .f32⟩
  | 112 => ⟨S1x47, .f32⟩
  | 113 => ⟨S50000x47, .f32⟩
  | 114 => ⟨S50000x47, .f32⟩
  | 115 => ⟨S128x47, .f32⟩
  | 116 => ⟨S50000x47, .f32⟩
  | 117 => ⟨S50000x47, .f32⟩
  | 118 => ⟨S_, .f32⟩
  | 119 => ⟨S50000, .f32⟩
  | 120 => ⟨S_, .f32⟩
  | 121 => ⟨S50000, .f32⟩
  | 122 => ⟨S50000, .f32⟩
  | 123 => ⟨S50000x1, .f32⟩
  | 124 => ⟨S50000x47, .f32⟩
  | 125 => ⟨S50000x47, .f32⟩
  | 126 => ⟨S50000x47, .f32⟩
  | 127 => ⟨S_, .f32⟩
  | _ => ⟨S50000x128, .f32⟩

abbrev hbmTy0_1 (i : Nat) : BufTy := match i % 128 with
  | 0 => ⟨S50000, .f32⟩
  | 1 => ⟨S50000x1, .f32⟩
  | 2 => ⟨S50000x1, .f32⟩
  | 3 => ⟨S50000x47, .f32⟩
  | 4 => ⟨S50000x47, .f32⟩
  | 5 => ⟨S50000x128, .f32⟩
  | 6 => ⟨S_, .f32⟩
  | 7 => ⟨S50000, .f32⟩
  | 8 => ⟨S50000x1, .f32⟩
  | 9 => ⟨S50000x1, .f32⟩
  | 10 => ⟨S_, .f32⟩
  | 11 => ⟨S50000x1, .f32⟩
  | 12 => ⟨S50000x1, .f32⟩
  | 13 => ⟨S50000x128, .f32⟩
  | 14 => ⟨S50000x128, .f32⟩
  | 15 => ⟨S50000x128, .f32⟩
  | 16 => ⟨S50000x128, .f32⟩
  | 17 => ⟨S_, .f32⟩
  | 18 => ⟨S50000x128, .f32⟩
  | 19 => ⟨S50000x128, .f32⟩
  | 20 => ⟨S50000x128, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S_, .f32⟩
  | 35 => ⟨S800000x1, .f32⟩
  | 36 => ⟨S_, .f32⟩
  | 37 => ⟨S50000x1, .f32⟩
  | 38 => ⟨S800000x1, .i32⟩
  | 39 => ⟨S50000x1, .f32⟩
  | 40 => ⟨S_, .f32⟩
  | 41 => ⟨S50000x1, .f32⟩
  | 42 => ⟨S50000x1, .f32⟩
  | 43 => ⟨S50000x128, .f32⟩
  | 44 => ⟨S50000x128, .f32⟩
  | 45 => ⟨S128x128, .f32⟩
  | 46 => ⟨S50000x128, .f32⟩
  | 47 => ⟨S1x128, .f32⟩
  | 48 => ⟨S50000x128, .f32⟩
  | 49 => ⟨S50000x128, .f32⟩
  | 50 => ⟨S128x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S_, .f32⟩
  | 70 => ⟨S800000x1, .f32⟩
  | 71 => ⟨S_, .f32⟩
  | 72 => ⟨S50000x1, .f32⟩
  | 73 => ⟨S800000x1, .i32⟩
  | 74 => ⟨S50000x1, .f32⟩
  | 75 => ⟨S_, .f32⟩
  | 76 => ⟨S50000x1, .f32⟩
  | 77 => ⟨S50000x1, .f32⟩
  | 78 => ⟨S50000x128, .f32⟩
  | 79 => ⟨S50000x128, .f32⟩
  | 80 => ⟨S128x128, .f32⟩
  | 81 => ⟨S50000x128, .f32⟩
  | 82 => ⟨S1x128, .f32⟩
  | 83 => ⟨S50000x128, .f32⟩
  | 84 => ⟨S50000x128, .f32⟩
  | 85 => ⟨S128x128, .f32⟩
  | 86 => ⟨S50000x128, .f32⟩
  | 87 => ⟨S50000x128, .f32⟩
  | 88 => ⟨S_, .f32⟩
  | 89 => ⟨S50000x128, .f32⟩
  | 90 => ⟨S50000x128, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x128, .f32⟩
  | 100 => ⟨S_, .f32⟩
  | 101 => ⟨S50000x128, .f32⟩
  | 102 => ⟨S800000x1, .i32⟩
  | 103 => ⟨S50000x128, .f32⟩
  | 104 => ⟨S_, .f32⟩
  | 105 => ⟨S800000x1, .f32⟩
  | 106 => ⟨S_, .f32⟩
  | 107 => ⟨S50000x1, .f32⟩
  | 108 => ⟨S800000x1, .i32⟩
  | 109 => ⟨S50000x1, .f32⟩
  | 110 => ⟨S_, .f32⟩
  | 111 => ⟨S50000x1, .f32⟩
  | 112 => ⟨S50000x1, .f32⟩
  | 113 => ⟨S50000x128, .f32⟩
  | 114 => ⟨S50000x128, .f32⟩
  | 115 => ⟨S128x47, .f32⟩
  | 116 => ⟨S50000x47, .f32⟩
  | 117 => ⟨S1x47, .f32⟩
  | 118 => ⟨S50000x47, .f32⟩
  | 119 => ⟨S50000x47, .f32⟩
  | 120 => ⟨S128x47, .f32⟩
  | 121 => ⟨S50000x47, .f32⟩
  | 122 => ⟨S50000x47, .f32⟩
  | 123 => ⟨S_, .f32⟩
  | 124 => ⟨S50000, .f32⟩
  | 125 => ⟨S_, .f32⟩
  | 126 => ⟨S50000, .f32⟩
  | 127 => ⟨S50000, .f32⟩
  | _ => ⟨S50000x128, .f32⟩

abbrev hbmTy0_2 (i : Nat) : BufTy := match i % 128 with
  | 0 => ⟨S50000x1, .f32⟩
  | 1 => ⟨S50000x47, .f32⟩
  | 2 => ⟨S50000x47, .f32⟩
  | 3 => ⟨S50000x47, .f32⟩
  | 4 => ⟨S_, .f32⟩
  | 5 => ⟨S50000, .f32⟩
  | 6 => ⟨S50000x1, .f32⟩
  | 7 => ⟨S50000x1, .f32⟩
  | 8 => ⟨S50000x47, .f32⟩
  | 9 => ⟨S50000x47, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call0_cst : Ref sig .tc := ⟨.hbm, 48, rfl⟩
abbrev main_call0_v0 : Ref sig .tc := ⟨.hbm, 49, rfl⟩
abbrev main_v30 : Ref sig .tc := ⟨.hbm, 50, rfl⟩
abbrev main_c_4 : Ref sig .tc := ⟨.hbm, 51, rfl⟩
abbrev main_v31 : Ref sig .tc := ⟨.hbm, 52, rfl⟩
abbrev main_v32 : Ref sig .tc := ⟨.hbm, 53, rfl⟩
abbrev main_c_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call1_cst : Ref sig .tc := ⟨.hbm, 83, rfl⟩
abbrev main_call1_v0 : Ref sig .tc := ⟨.hbm, 84, rfl⟩
abbrev main_v57 : Ref sig .tc := ⟨.hbm, 85, rfl⟩
abbrev main_c_10 : Ref sig .tc := ⟨.hbm, 86, rfl⟩
abbrev main_v58 : Ref sig .tc := ⟨.hbm, 87, rfl⟩
abbrev main_v59 : Ref sig .tc := ⟨.hbm, 88, rfl⟩
abbrev main_c_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_12 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_13 : Ref sig .tc := ⟨.hbm, 99, rfl⟩
abbrev main_v68 : Ref sig .tc := ⟨.hbm, 100, rfl⟩
abbrev main_cst_14 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_15 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_call2_cst : Ref sig .tc := ⟨.hbm, 118, rfl⟩
abbrev main_call2_v0 : Ref sig .tc := ⟨.hbm, 119, rfl⟩
abbrev main_call2_cst_0 : Ref sig .tc := ⟨.hbm, 120, rfl⟩
abbrev main_call2_v1 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_call2_v5 : Ref sig .tc := ⟨.hbm, 125, rfl⟩
abbrev main_call2_v6 : Ref sig .tc := ⟨.hbm, 126, rfl⟩
abbrev main_call2_cst_1 : Ref sig .tc := ⟨.hbm, 127, rfl⟩
abbrev main_call2_v7 : Ref sig .tc := ⟨.hbm, 128, rfl⟩
abbrev main_call2_v8 : Ref sig .tc := ⟨.hbm, 129, rfl⟩
abbrev main_call2_v9 : Ref sig .tc := ⟨.hbm, 130, rfl⟩
abbrev main_call2_v10 : Ref sig .tc := ⟨.hbm, 131, rfl⟩
abbrev main_v84 : Ref sig .tc := ⟨.hbm, 132, rfl⟩
abbrev main_v85 : Ref sig .tc := ⟨.hbm, 133, rfl⟩
abbrev main_cst_16 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_17 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_cst_18 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_c_19 : Ref sig .tc := ⟨.hbm, 149, rfl⟩
abbrev main_v98 : Ref sig .tc := ⟨.hbm, 150, rfl⟩
abbrev main_v99 : Ref sig .tc := ⟨.hbm, 151, rfl⟩
abbrev main_c_20 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_cst_21 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_cst_22 : Ref sig .tc := ⟨.hbm, 162, rfl⟩
abbrev main_v108 : Ref sig .tc := ⟨.hbm, 163, rfl⟩
abbrev main_cst_23 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_cst_24 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_call3_cst : Ref sig .tc := ⟨.hbm, 181, rfl⟩
abbrev main_call3_v0 : Ref sig .tc := ⟨.hbm, 182, rfl⟩
abbrev main_v124 : Ref sig .tc := ⟨.hbm, 183, rfl⟩
abbrev main_c_25 : Ref sig .tc := ⟨.hbm, 184, rfl⟩
abbrev main_v125 : Ref sig .tc := ⟨.hbm, 185, rfl⟩
abbrev main_v126 : Ref sig .tc := ⟨.hbm, 186, rfl⟩
abbrev main_c_26 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_cst_27 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_cst_28 : Ref sig .tc := ⟨.hbm, 197, rfl⟩
abbrev main_v135 : Ref sig .tc := ⟨.hbm, 198, rfl⟩
abbrev main_cst_29 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_cst_30 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_call4_cst : Ref sig .tc := ⟨.hbm, 216, rfl⟩
abbrev main_call4_v0 : Ref sig .tc := ⟨.hbm, 217, rfl⟩
abbrev main_v151 : Ref sig .tc := ⟨.hbm, 218, rfl⟩
abbrev main_c_31 : Ref sig .tc := ⟨.hbm, 219, rfl⟩
abbrev main_v152 : Ref sig .tc := ⟨.hbm, 220, rfl⟩
abbrev main_v153 : Ref sig .tc := ⟨.hbm, 221, rfl⟩
abbrev main_c_32 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_cst_33 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_cst_34 : Ref sig .tc := ⟨.hbm, 232, rfl⟩
abbrev main_v162 : Ref sig .tc := ⟨.hbm, 233, rfl⟩
abbrev main_cst_35 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_cst_36 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_call5_cst : Ref sig .tc := ⟨.hbm, 251, rfl⟩
abbrev main_call5_v0 : Ref sig .tc := ⟨.hbm, 252, rfl⟩
abbrev main_call5_cst_0 : Ref sig .tc := ⟨.hbm, 253, rfl⟩
abbrev main_call5_v1 : Ref sig .tc := ⟨.hbm, 254, rfl⟩
abbrev main_call5_v2 : Ref sig .tc := ⟨.hbm, 255, rfl⟩
abbrev main_call5_v3 : Ref sig .tc := ⟨.hbm, 256, rfl⟩
abbrev main_call5_v4 : Ref sig .tc := ⟨.hbm, 257, rfl⟩
abbrev main_call5_v5 : Ref sig .tc := ⟨.hbm, 258, rfl⟩
abbrev main_call5_v6 : Ref sig .tc := ⟨.hbm, 259, rfl⟩
abbrev main_call5_cst_1 : Ref sig .tc := ⟨.hbm, 260, rfl⟩
abbrev main_call5_v7 : Ref sig .tc := ⟨.hbm, 261, rfl⟩
abbrev main_call5_v8 : Ref sig .tc := ⟨.hbm, 262, rfl⟩
abbrev main_call5_v9 : Ref sig .tc := ⟨.hbm, 263, rfl⟩
abbrev main_call5_v10 : Ref sig .tc := ⟨.hbm, 264, rfl⟩
abbrev main_v178 : Ref sig .tc := ⟨.hbm, 265, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S47x128_S128x47_1_0 : S47x128.Transposes [1, 0] S128x47
  bcast_S47_S1x47_1 : S47.BroadcastsInDim S1x47 (![1] : Fin 1 → Fin S1x47.rank)
  bcast_S1x47_S50000x47_0_1 : S1x47.BroadcastsInDim S50000x47 (![0, 1] : Fin 2 → Fin S50000x47.rank)
  reducesTo_S50000x47_S50000_d1 : S50000x47.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x47_0_1 : S50000x1.BroadcastsInDim S50000x47 (![0, 1] : Fin 2 → Fin S50000x47.rank)
  reducesTo_S50000x128_S50000_d1 : S50000x128.ReducesTo [1] S50000
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x128_S50000x128_1_0_0_1_n_n_wf : DotDims.WF S50000x128 S128x128 S50000x128 [1] [0] [0] [1] [] []
  dot_S50000x128_S128x47_S50000x47_1_0_0_1_n_n_wf : DotDims.WF S50000x128 S128x47 S50000x47 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x47_S50000x47_1_0_0_1_n_n : DotDims S50000x128 S128x47 S50000x47 where
  lhsContracting := [1]
  rhsContracting := [0]
  lhsNonContracting := [0]
  rhsNonContracting := [1]
  lhsBatch := []
  rhsBatch := []
  wf := dot_S50000x128_S128x47_S50000x47_1_0_0_1_n_n_wf

class Facts : Prop extends Facts₀ where

variable [Facts]
-- ==== Proof.KRun.lean ====
/-
  The idealized kernel program's run with its six results named.

  The program is thirteen segments: host stretches (the neighbourhood gathers and scatter-adds, the weight casts)
  alternating with the seven kernel launches. Every weakly fair execution ends with each buffer that outlives its
  segment holding the last boundary's contents `W13` — the fold of the segments' effects over the launch memory —,
  so in particular the six result arrays end at `W13` read at their buffers, and the twelve arguments end as launched.
  What those six contents are, as functions of the arguments, is the business of the modules that read the fold back.
-/
import proofs.«146821_j20100446946148_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the six results at the last
    boundary's contents and the arguments unchanged. -/
theorem run_named : θ_run defs (onTc (τ := τ) (main (F := F))) ⟨m, fun _ => 0, ρ⟩ (fun r => ∀ c : Dev nD,
      r.2.mem ((c.tc : Thread nD τ).loc main_v49) = W13 m ρ c (Proc.devRef .tc main_v49)
      ∧ r.2.mem ((c.tc : Thread nD τ).loc main_v72_1) = W13 m ρ c (Proc.devRef .tc main_v72_1)
      ∧ r.2.mem ((c.tc : Thread nD τ).loc main_v72_0) = W13 m ρ c (Proc.devRef .tc main_v72_0)
      ∧ r.2.mem ((c.tc : Thread nD τ).loc main_v119) = W13 m ρ c (Proc.devRef .tc main_v119)
      ∧ r.2.mem ((c.tc : Thread nD τ).loc main_v142_1) = W13 m ρ c (Proc.devRef .tc main_v142_1)
      ∧ r.2.mem ((c.tc : Thread nD τ).loc main_v142_0) = W13 m ρ c (Proc.devRef .tc main_v142_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v49 (by decide)),
       h c _ (mem_uc main_v72_1 (by decide)),
       h c _ (mem_uc main_v72_0 (by decide)),
       h c _ (mem_uc main_v119 (by decide)),
       h c _ (mem_uc main_v142_1 (by decide)),
       h c _ (mem_uc main_v142_0 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c)⟩)

end Cert.KernelIdeal.KRun

end
-- ==== Proof.KHost.lean ====
/-
  The host stretches of the idealized kernel program, read back.

  Before each hidden or last layer's launch the host forms the layer's neighbourhood mean: for every edge it gathers
  the source node's feature row (a negative source index wraps around by the node count), adds it into the target
  node's row, counts the edges into each target the same way, floors the count at one and divides. The same stretch
  casts the layer's two weight matrices (the identity on the extended reals) and reshapes the bias to one row.
  `aggK` is that mean as one function of the features and the two endpoint columns; each lemma below says what a
  stretch leaves in one of the buffers the next launch reads, in terms of the contents the stretch started from.
-/
import proofs.«146821_j20100446946148_1_alg».proof.Proof.Gen.KernelIdeal.Frame
import Idealize.ShloMosaic.PureOps.Ideal

set_option maxRecDepth 16384

noncomputable section

namespace Cert.KernelIdeal.KFold

open Cert.KernelIdeal Cert.KernelIdeal.Gen
open Idealize.ShloMosaic Idealize.ShloMosaic.TcCoe Idealize.ShloMosaic.Tactic
open Idealize.SL Idealize.SL.Sem

/-- The edges' source endpoints: row 0 of the edge list. -/
def srcK (ei : IVec S2x800000 32) : IVec S800000 32 :=
  shapeCast _ (extractStridedSlice S1x800000 ![0, 0] ei slices_S2x800000_S1x800000_0_0) shapeCasts_S1x800000_S800000

/-- The edges' target endpoints: row 1 of the edge list. -/
def dstK (ei : IVec S2x800000 32) : IVec S800000 32 :=
  shapeCast _ (extractStridedSlice S1x800000 ![1, 0] ei slices_S2x800000_S1x800000_1_0) shapeCasts_S1x800000_S800000

/-- The neighbourhood mean of the feature rows `x` over the edges `src → dst`: the scatter-added gathered rows
    divided by the edge count floored at one, the count taken as a vector and then laid along the rows. -/
def aggK (x : FVec Ideal S50000x128 .f32) (src dst : IVec S800000 32) : FVec Ideal S50000x128 .f32 :=
  Host.divf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (Host.gather gather_S50000x128_S800000x1_S800000x128_1_0_n_n_0_1_1128 x
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1
      (broadcastInDim S50000x1 ![0] bcast_S50000_S50000x1_0
        (maximumf
          (Host.scatterAdd (F := Ideal) scatter_S50000_S800000x1_S800000_n_0_0_1
            (broadcastInDim S50000 ![] bcast_S_S50000 (constant (F := Ideal) S_ .f32 0x00000000#32))
            (broadcastInDim S800000x1 ![0] bcast_S800000_S800000x1_0 dst)
            (broadcastInDim S800000 ![] bcast_S_S800000 (constant (F := Ideal) S_ .f32 0x3F800000#32)))
          (broadcastInDim S50000 ![] bcast_S_S50000 (constant (F := Ideal) S_ .f32 0x3F800000#32)))))

variable (m : (ℓ : Loc nD τ sig) → Buf (Elt Ideal) ℓ) (ρ : Dev nD → PrngReg)

/-! ## The first stretch: it also cuts the two endpoint columns out of the edge list -/

theorem host0_src (c : Dev nD) :
    W1 m ρ c (Proc.devRef .tc main_v1) = srcK (W0 m ρ c (Proc.devRef .tc main_arg1)) := by
  show StableHlo.after hostOps0 (W0 m ρ c) (Proc.devRef .tc main_v1) = _
  after_results <;> rfl

theorem host0_dst (c : Dev nD) :
    W1 m ρ c (Proc.devRef .tc main_v3) = dstK (W0 m ρ c (Proc.devRef .tc main_arg1)) := by
  show StableHlo.after hostOps0 (W0 m ρ c) (Proc.devRef .tc main_v3) = _
  after_results <;> rfl

set_option maxHeartbeats 4000000 in
theorem host0_agg (c : Dev nD) :
    W1 m ρ c (Proc.devRef .tc main_v22) = aggK (W0 m ρ c (Proc.devRef .tc main_arg0)) (srcK (W0 m ρ c (Proc.devRef .tc main_arg1))) (dstK (W0 m ρ c (Proc.devRef .tc main_arg1))) := by
  show StableHlo.after hostOps0 (W0 m ρ c) (Proc.devRef .tc main_v22) = _
  after_results_simp <;> rfl

theorem host0_wl (c : Dev nD) :
    W1 m ρ c (Proc.devRef .tc main_v23) = (truncf .bf16 (W0 m ρ c (Proc.devRef .tc main_arg3) : FVec Ideal S128x128 .f32) bitsLt_bf16_f32 : FVec Ideal S128x128 .bf16) := by
  show StableHlo.after hostOps0 (W0 m ρ c) (Proc.devRef .tc main_v23) = _
  after_results <;> rfl

theorem host0_wr (c : Dev nD) :
    W1 m ρ c (Proc.devRef .tc main_v24) = (truncf .bf16 (W0 m ρ c (Proc.devRef .tc main_arg5) : FVec Ideal S128x128 .f32) bitsLt_bf16_f32 : FVec Ideal S128x128 .bf16) := by
  show StableHlo.after hostOps0 (W0 m ρ c) (Proc.devRef .tc main_v24) = _
  after_results <;> rfl

theorem host0_b (c : Dev nD) :
    W1 m ρ c (Proc.devRef .tc main_v25) = (shapeCast S1x128 (W0 m ρ c (Proc.devRef .tc main_arg4) : FVec Ideal S128 .f32) shapeCasts_S128_S1x128 : FVec Ideal S1x128 .f32) := by
  show StableHlo.after hostOps0 (W0 m ρ c) (Proc.devRef .tc main_v25) = _
  after_results <;> rfl

/-! ## The stretch before launch 1 -/

set_option maxHeartbeats 4000000 in
theorem host1_agg (c : Dev nD) :
    W3 m ρ c (Proc.devRef .tc main_v45) = aggK (W2 m ρ c (Proc.devRef .tc main_v26)) (W2 m ρ c (Proc.devRef .tc main_v1)) (W2 m ρ c (Proc.devRef .tc main_v3)) := by
  show StableHlo.after hostOps1 (W2 m ρ c) (Proc.devRef .tc main_v45) = _
  after_results_simp <;> rfl

theorem host1_wl (c : Dev nD) :
    W3 m ρ c (Proc.devRef .tc main_v46) = (truncf .bf16 (W2 m ρ c (Proc.devRef .tc main_arg6) : FVec Ideal S128x128 .f32) bitsLt_bf16_f32 : FVec Ideal S128x128 .bf16) := by
  show StableHlo.after hostOps1 (W2 m ρ c) (Proc.devRef .tc main_v46) = _
  after_results <;> rfl

theorem host1_wr (c : Dev nD) :
    W3 m ρ c (Proc.devRef .tc main_v47) = (truncf .bf16 (W2 m ρ c (Proc.devRef .tc main_arg8) : FVec Ideal S128x128 .f32) bitsLt_bf16_f32 : FVec Ideal S128x128 .bf16) := by
  show StableHlo.after hostOps1 (W2 m ρ c) (Proc.devRef .tc main_v47) = _
  after_results <;> rfl

theorem host1_b (c : Dev nD) :
    W3 m ρ c (Proc.devRef .tc main_v48) = (shapeCast S1x128 (W2 m ρ c (Proc.devRef .tc main_arg7) : FVec Ideal S128 .f32) shapeCasts_S128_S1x128 : FVec Ideal S1x128 .f32) := by
  show StableHlo.after hostOps1 (W2 m ρ c) (Proc.devRef .tc main_v48) = _
  after_results <;> rfl

/-! ## The stretch before launch 2 -/

set_option maxHeartbeats 4000000 in
theorem host2_agg (c : Dev nD) :
    W5 m ρ c (Proc.devRef .tc main_v68) = aggK (W4 m ρ c (Proc.devRef .tc main_v49)) (W4 m ρ c (Proc.devRef .tc main_v1)) (W4 m ρ c (Proc.devRef .tc main_v3)) := by
  show StableHlo.after hostOps2 (W4 m ρ c) (Proc.devRef .tc main_v68) = _
  after_results_simp <;> rfl

theorem host2_wl (c : Dev nD) :
    W5 m ρ c (Proc.devRef .tc main_v69) = (truncf .bf16 (W4 m ρ c (Proc.devRef .tc main_arg9) : FVec Ideal S47x128 .f32) bitsLt_bf16_f32 : FVec Ideal S47x128 .bf16) := by
  show StableHlo.after hostOps2 (W4 m ρ c) (Proc.devRef .tc main_v69) = _
  after_results <;> rfl

theorem host2_wr (c : Dev nD) :
    W5 m ρ c (Proc.devRef .tc main_v70) = (truncf .bf16 (W4 m ρ c (Proc.devRef .tc main_arg11) : FVec Ideal S47x128 .f32) bitsLt_bf16_f32 : FVec Ideal S47x128 .bf16) := by
  show StableHlo.after hostOps2 (W4 m ρ c) (Proc.devRef .tc main_v70) = _
  after_results <;> rfl

theorem host2_b (c : Dev nD) :
    W5 m ρ c (Proc.devRef .tc main_v71) = (shapeCast S1x47 (W4 m ρ c (Proc.devRef .tc main_arg10) : FVec Ideal S47 .f32) shapeCasts_S47_S1x47 : FVec Ideal S1x47 .f32) := by
  show StableHlo.after hostOps2 (W4 m ρ c) (Proc.devRef .tc main_v71) = _
  after_results <;> rfl

/-! ## The stretch before launch 4 -/

set_option maxHeartbeats 4000000 in
theorem host4_agg (c : Dev nD) :
    W8 m ρ c (Proc.devRef .tc main_v92) = aggK (W7 m ρ c (Proc.devRef .tc main_v73)) (W7 m ρ c (Proc.devRef .tc main_v1)) (W7 m ρ c (Proc.devRef .tc main_v3)) := by
  show StableHlo.after hostOps4 (W7 m ρ c) (Proc.devRef .tc main_v92) = _
  after_results_simp <;> rfl

theorem host4_wl (c : Dev nD) :
    W8 m ρ c (Proc.devRef .tc main_v93) = (truncf .bf16 (W7 m ρ c (Proc.devRef .tc main_arg3) : FVec Ideal S128x128 .f32) bitsLt_bf16_f32 : FVec Ideal S128x128 .bf16) := by
  show StableHlo.after hostOps4 (W7 m ρ c) (Proc.devRef .tc main_v93) = _
  after_results <;> rfl

theorem host4_wr (c : Dev nD) :
    W8 m ρ c (Proc.devRef .tc main_v94) = (truncf .bf16 (W7 m ρ c (Proc.devRef .tc main_arg5) : FVec Ideal S128x128 .f32) bitsLt_bf16_f32 : FVec Ideal S128x128 .bf16) := by
  show StableHlo.after hostOps4 (W7 m ρ c) (Proc.devRef .tc main_v94) = _
  after_results <;> rfl

theorem host4_b (c : Dev nD) :
    W8 m ρ c (Proc.devRef .tc main_v95) = (shapeCast S1x128 (W7 m ρ c (Proc.devRef .tc main_arg4) : FVec Ideal S128 .f32) shapeCasts_S128_S1x128 : FVec Ideal S1x128 .f32) := by
  show StableHlo.after hostOps4 (W7 m ρ c) (Proc.devRef .tc main_v95) = _
  after_results <;> rfl

/-! ## The stretch before launch 5 -/

set_option maxHeartbeats 4000000 in
theorem host5_agg (c : Dev nD) :
    W10 m ρ c (Proc.devRef .tc main_v115) = aggK (W9 m ρ c (Proc.devRef .tc main_v96)) (W9 m ρ c (Proc.devRef .tc main_v1)) (W9 m ρ c (Proc.devRef .tc main_v3)) := by
  show StableHlo.after hostOps5 (W9 m ρ c) (Proc.devRef .tc main_v115) = _
  after_results_simp <;> rfl

theorem host5_wl (c : Dev nD) :
    W10 m ρ c (Proc.devRef .tc main_v116) = (truncf .bf16 (W9 m ρ c (Proc.devRef .tc main_arg6) : FVec Ideal S128x128 .f32) bitsLt_bf16_f32 : FVec Ideal S128x128 .bf16) := by
  show StableHlo.after hostOps5 (W9 m ρ c) (Proc.devRef .tc main_v116) = _
  after_results <;> rfl

theorem host5_wr (c : Dev nD) :
    W10 m ρ c (Proc.devRef .tc main_v117) = (truncf .bf16 (W9 m ρ c (Proc.devRef .tc main_arg8) : FVec Ideal S128x128 .f32) bitsLt_bf16_f32 : FVec Ideal S128x128 .bf16) := by
  show StableHlo.after hostOps5 (W9 m ρ c) (Proc.devRef .tc main_v117) = _
  after_results <;> rfl

theorem host5_b (c : Dev nD) :
    W10 m ρ c (Proc.devRef .tc main_v118) = (shapeCast S1x128 (W9 m ρ c (Proc.devRef .tc main_arg7) : FVec Ideal S128 .f32) shapeCasts_S128_S1x128 : FVec Ideal S1x128 .f32) := by
  show StableHlo.after hostOps5 (W9 m ρ c) (Proc.devRef .tc main_v118) = _
  after_results <;> rfl

/-! ## The stretch before launch 6 -/

set_option maxHeartbeats 4000000 in
theorem host6_agg (c : Dev nD) :
    W12 m ρ c (Proc.devRef .tc main_v138) = aggK (W11 m ρ c (Proc.devRef .tc main_v119)) (W11 m ρ c (Proc.devRef .tc main_v1)) (W11 m ρ c (Proc.devRef .tc main_v3)) := by
  show StableHlo.after hostOps6 (W11 m ρ c) (Proc.devRef .tc main_v138) = _
  after_results_simp <;> rfl

theorem host6_wl (c : Dev nD) :
    W12 m ρ c (Proc.devRef .tc main_v139) = (truncf .bf16 (W11 m ρ c (Proc.devRef .tc main_arg9) : FVec Ideal S47x128 .f32) bitsLt_bf16_f32 : FVec Ideal S47x128 .bf16) := by
  show StableHlo.after hostOps6 (W11 m ρ c) (Proc.devRef .tc main_v139) = _
  after_results <;> rfl

theorem host6_wr (c : Dev nD) :
    W12 m ρ c (Proc.devRef .tc main_v140) = (truncf .bf16 (W11 m ρ c (Proc.devRef .tc main_arg11) : FVec Ideal S47x128 .f32) bitsLt_bf16_f32 : FVec Ideal S47x128 .bf16) := by
  show StableHlo.after hostOps6 (W11 m ρ c) (Proc.devRef .tc main_v140) = _
  after_results <;> rfl

theorem host6_b (c : Dev nD) :
    W12 m ρ c (Proc.devRef .tc main_v141) = (shapeCast S1x47 (W11 m ρ c (Proc.devRef .tc main_arg10) : FVec Ideal S47 .f32) shapeCasts_S47_S1x47 : FVec Ideal S1x47 .f32) := by
  show StableHlo.after hostOps6 (W11 m ρ c) (Proc.devRef .tc main_v141) = _
  after_results <;> rfl

end Cert.KernelIdeal.KFold

end
-- ==== Proof.Spec.lean ====
/-
  The mathematics both programs compute, element by element, on the extended reals.

  A layer of the network takes the node features `x` (50000 rows of 128) and their neighbourhood means `agg`
  (same shape) and forms, at row `r` and output column `q`,
      (∑ₖ agg[r,k] · Wl[q,k]) + (∑ₖ x[r,k] · Wr[q,k]) + b[q].
  The hidden layers clamp this below at zero; the last layer (47 columns) keeps it (`z`) and also returns its
  row-wise log-softmax, taken after subtracting the row's maximum. The perturbed branch starts from
      x + sign(x) · noise / max(‖noise row‖₂, ε) · ρ.
  Float literals stay as the words the programs carry: the same word stands on both sides and is never evaluated.
-/
import Idealize.ShloMosaic.PureOps.Ideal
import Idealize.ShloMosaic.Lib.ValueIdx

noncomputable section

namespace Cert.Sage

open Idealize.ShloMosaic Idealize.ShloMosaic.ValueIdx

/-- A matrix of extended reals with `a` rows and `b` columns. -/
abbrev Arr (a b : Nat) : Type := (⟨2, ![a, b]⟩ : Shape).Idx → EReal
/-- A vector of extended reals of length `a`. -/
abbrev Row (a : Nat) : Type := (⟨1, ![a]⟩ : Shape).Idx → EReal

/-- A matrix given entry by entry. -/
def arr2 {a b : Nat} (f : Fin a → Fin b → EReal) : Arr a b := fun i => f (i 0) (i 1)

/-- A one-row matrix read as a vector (the bias reaches the kernels as a `[1, n]` array). -/
def rowOf {n : Nat} (b2 : Arr 1 n) : Row n := fun j => b2 (ix2 (0 : Fin 1) (j 0))

theorem rowOf_ix1 {n : Nat} (b2 : Arr 1 n) (q : Fin n) : rowOf b2 (ix1 q) = b2 (ix2 (0 : Fin 1) q) := rfl

theorem arr2_ix2 {a b : Nat} (f : Fin a → Fin b → EReal) (r : Fin a) (q : Fin b) : arr2 f (ix2 r q) = f r q := rfl

/-- The affine part of a hidden layer at row `r`, column `q`: the two row-by-row products and the bias. -/
def lin128 (agg x : Arr 50000 128) (Wl Wr : Arr 128 128) (b : Row 128) (r : Fin 50000) (q : Fin 128) : EReal :=
  (∑ k : Fin 128, agg (ix2 r k) * Wl (ix2 q k)) + (∑ k : Fin 128, x (ix2 r k) * Wr (ix2 q k)) + b (ix1 q)

/-- A hidden layer's output: the affine part clamped below at zero. -/
def hid128 (agg x : Arr 50000 128) (Wl Wr : Arr 128 128) (b : Row 128) (r : Fin 50000) (q : Fin 128) : EReal :=
  max (lin128 agg x Wl Wr b r q) (Ideal.ofBits .f32 0x00000000#32)

/-- The last layer's affine part (47 output columns): the logits `z`. -/
def lin47 (agg x : Arr 50000 128) (Wl Wr : Arr 47 128) (b : Row 47) (r : Fin 50000) (q : Fin 47) : EReal :=
  (∑ k : Fin 128, agg (ix2 r k) * Wl (ix2 q k)) + (∑ k : Fin 128, x (ix2 r k) * Wr (ix2 q k)) + b (ix1 q)

/-- The maximum of a row of 47 entries, folded from -∞. -/
def rowMax47 (z : Fin 47 → EReal) : EReal :=
  (Finset.univ : Finset (Fin 47)).fold max (Ideal.ofBits .f32 0xFF800000#32) z

/-- Log-softmax of a row of 47 entries at column `q`: shift by the row maximum, then subtract the log of the
    sum of the exponentials of the shifted row. -/
def logSoftmax47 (z : Fin 47 → EReal) (q : Fin 47) : EReal :=
  (z q - rowMax47 z) - Ideal.log (∑ k : Fin 47, Ideal.exp (z k - rowMax47 z))

/-- The perturbed input at row `r`, column `q`: `x` moved along its own sign by the noise row scaled to unit
    length (the length floored at ε), times the rate. -/
def noisy (x nz : Arr 50000 128) (r : Fin 50000) (q : Fin 128) : EReal :=
  x (ix2 r q) + (Ideal.sign (x (ix2 r q)) * Ideal.div (nz (ix2 r q))
      (max (Ideal.sqrt (∑ k : Fin 128, nz (ix2 r k) * nz (ix2 r k))) (Ideal.ofBits .f32 0x2B8CBCCC#32)))
    * Ideal.ofBits .f32 0x3DCCCCCD#32

end Cert.Sage

end
-- ==== Proof.KStages.lean ====
/-
  The idealized kernel program's stages as functions of the launch contents.

  A hidden layer takes the current features, the edges' endpoint columns and the layer's weights and bias, forms the
  neighbourhood mean on the host and the clamped affine combination in the launch; the last layer returns the affine
  combination (the logits) and its row-wise log-softmax. The clean branch runs the three layers on the input; the
  perturbed branch runs them on the input moved along its sign by the normalised noise. Casting a weight matrix to a
  shorter float format is the identity on the extended reals, so the casts appear here only as spelling.
-/
import proofs.«146821_j20100446946148_1_alg».proof.Proof.KHost
import proofs.«146821_j20100446946148_1_alg».proof.Proof.Spec

set_option maxRecDepth 16384

noncomputable section

namespace Cert.KernelIdeal.KFold

open Cert.KernelIdeal Cert.KernelIdeal.Gen
open Idealize.ShloMosaic Idealize.ShloMosaic.TcCoe Idealize.ShloMosaic.Tactic
open Idealize.SL Idealize.SL.Sem
open Cert.Sage

/-- A hidden layer: the clamped affine combination of the neighbourhood means and the features. -/
def layerK (x : FVec Ideal S50000x128 .f32) (src dst : IVec S800000 32) (Wl : FVec Ideal S128x128 .f32)
    (bl : FVec Ideal S128 .f32) (Wr : FVec Ideal S128x128 .f32) : FVec Ideal S50000x128 .f32 :=
  arr2 (hid128 (aggK x src dst) x (truncf .bf16 Wl bitsLt_bf16_f32 : FVec Ideal S128x128 .bf16)
    (truncf .bf16 Wr bitsLt_bf16_f32 : FVec Ideal S128x128 .bf16) (rowOf (shapeCast S1x128 bl shapeCasts_S128_S1x128 : FVec Ideal S1x128 .f32)))

/-- The last layer's logits. -/
def logitsK (x : FVec Ideal S50000x128 .f32) (src dst : IVec S800000 32) (Wl : FVec Ideal S47x128 .f32)
    (bl : FVec Ideal S47 .f32) (Wr : FVec Ideal S47x128 .f32) : FVec Ideal S50000x47 .f32 :=
  arr2 (lin47 (aggK x src dst) x (truncf .bf16 Wl bitsLt_bf16_f32 : FVec Ideal S47x128 .bf16)
    (truncf .bf16 Wr bitsLt_bf16_f32 : FVec Ideal S47x128 .bf16) (rowOf (shapeCast S1x47 bl shapeCasts_S47_S1x47 : FVec Ideal S1x47 .f32)))

/-- The last layer's row-wise log-softmax of the logits. -/
def logprobK (x : FVec Ideal S50000x128 .f32) (src dst : IVec S800000 32) (Wl : FVec Ideal S47x128 .f32)
    (bl : FVec Ideal S47 .f32) (Wr : FVec Ideal S47x128 .f32) : FVec Ideal S50000x47 .f32 :=
  arr2 (fun r q => logSoftmax47 (fun k => lin47 (aggK x src dst) x (truncf .bf16 Wl bitsLt_bf16_f32 : FVec Ideal S47x128 .bf16)
    (truncf .bf16 Wr bitsLt_bf16_f32 : FVec Ideal S47x128 .bf16) (rowOf (shapeCast S1x47 bl shapeCasts_S47_S1x47 : FVec Ideal S1x47 .f32)) r k) q)

/-- The perturbed input. -/
def noisyK (x nz : FVec Ideal S50000x128 .f32) : FVec Ideal S50000x128 .f32 := arr2 (noisy x nz)

variable (m : (ℓ : Loc nD τ sig) → Buf (Elt Ideal) ℓ) (ρ : Dev nD → PrngReg)

/-- Argument `k`'s launch contents on core `c`. -/
abbrev a0 (c : Dev nD) := W0 m ρ c (Proc.devRef .tc main_arg0)
abbrev a1 (c : Dev nD) := W0 m ρ c (Proc.devRef .tc main_arg1)
abbrev a2 (c : Dev nD) := W0 m ρ c (Proc.devRef .tc main_arg2)
abbrev a3 (c : Dev nD) := W0 m ρ c (Proc.devRef .tc main_arg3)
abbrev a4 (c : Dev nD) := W0 m ρ c (Proc.devRef .tc main_arg4)
abbrev a5 (c : Dev nD) := W0 m ρ c (Proc.devRef .tc main_arg5)
abbrev a6 (c : Dev nD) := W0 m ρ c (Proc.devRef .tc main_arg6)
abbrev a7 (c : Dev nD) := W0 m ρ c (Proc.devRef .tc main_arg7)
abbrev a8 (c : Dev nD) := W0 m ρ c (Proc.devRef .tc main_arg8)
abbrev a9 (c : Dev nD) := W0 m ρ c (Proc.devRef .tc main_arg9)
abbrev a10 (c : Dev nD) := W0 m ρ c (Proc.devRef .tc main_arg10)
abbrev a11 (c : Dev nD) := W0 m ρ c (Proc.devRef .tc main_arg11)

/-- The edges' endpoint columns. -/
def srcV (c : Dev nD) : IVec S800000 32 := srcK (a1 m ρ c)
def dstV (c : Dev nD) : IVec S800000 32 := dstK (a1 m ρ c)

/-! The clean branch. -/
def h1 (c : Dev nD) : FVec Ideal S50000x128 .f32 := layerK (a0 m ρ c) (srcV m ρ c) (dstV m ρ c) (a3 m ρ c) (a4 m ρ c) (a5 m ρ c)
def h2 (c : Dev nD) : FVec Ideal S50000x128 .f32 := layerK (h1 m ρ c) (srcV m ρ c) (dstV m ρ c) (a6 m ρ c) (a7 m ρ c) (a8 m ρ c)
def zP (c : Dev nD) : FVec Ideal S50000x47 .f32 := logitsK (h2 m ρ c) (srcV m ρ c) (dstV m ρ c) (a9 m ρ c) (a10 m ρ c) (a11 m ρ c)
def yP (c : Dev nD) : FVec Ideal S50000x47 .f32 := logprobK (h2 m ρ c) (srcV m ρ c) (dstV m ρ c) (a9 m ρ c) (a10 m ρ c) (a11 m ρ c)

/-! The perturbed branch. -/
def xN (c : Dev nD) : FVec Ideal S50000x128 .f32 := noisyK (a0 m ρ c) (a2 m ρ c)
def h1N (c : Dev nD) : FVec Ideal S50000x128 .f32 := layerK (xN m ρ c) (srcV m ρ c) (dstV m ρ c) (a3 m ρ c) (a4 m ρ c) (a5 m ρ c)
def h2N (c : Dev nD) : FVec Ideal S50000x128 .f32 := layerK (h1N m ρ c) (srcV m ρ c) (dstV m ρ c) (a6 m ρ c) (a7 m ρ c) (a8 m ρ c)
def zN (c : Dev nD) : FVec Ideal S50000x47 .f32 := logitsK (h2N m ρ c) (srcV m ρ c) (dstV m ρ c) (a9 m ρ c) (a10 m ρ c) (a11 m ρ c)
def yN (c : Dev nD) : FVec Ideal S50000x47 .f32 := logprobK (h2N m ρ c) (srcV m ρ c) (dstV m ρ c) (a9 m ρ c) (a10 m ρ c) (a11 m ρ c)

end Cert.KernelIdeal.KFold

end
-- ==== Proof.BridgeCast.lean ====
/-
  The bias reaches the kernels reshaped to one row; read back as a vector it is the bias again.
-/
import proofs.«146821_j20100446946148_1_alg».proof.Proof.KStages
import Idealize.ShloMosaic.Lib.Pipeline.Value
import Idealize.ShloMosaic.Lib.ValueIdx

set_option maxRecDepth 16384

noncomputable section

namespace Cert.Bridge

open Idealize.ShloMosaic Idealize.ShloMosaic.ValueIdx Cert.Sage

/-- A vector reshaped to one row and read back as a vector is itself (128 entries). -/
theorem rowOf_cast128 (b : FVec Ideal Cert.KernelIdeal.S128 .f32) :
    rowOf (shapeCast Cert.KernelIdeal.S1x128 b Cert.KernelIdeal.Gen.shapeCasts_S128_S1x128 : FVec Ideal Cert.KernelIdeal.S1x128 .f32) = b := by
  funext j
  obtain ⟨q, rfl⟩ : ∃ q : Fin 128, j = ix1 q := ⟨j 0, eq_ix1 j⟩
  rw [rowOf_ix1]
  refine (shapeCast_addUnit_apply ![128] b Cert.KernelIdeal.Gen.shapeCasts_S128_S1x128 (ix2 (0 : Fin 1) q)).trans ?_
  exact congrArg b (funext fun a => match a with | ⟨0, _⟩ => rfl)

/-- The same for 47 entries. -/
theorem rowOf_cast47 (b : FVec Ideal Cert.KernelIdeal.S47 .f32) :
    rowOf (shapeCast Cert.KernelIdeal.S1x47 b Cert.KernelIdeal.Gen.shapeCasts_S47_S1x47 : FVec Ideal Cert.KernelIdeal.S1x47 .f32) = b := by
  funext j
  obtain ⟨q, rfl⟩ : ∃ q : Fin 47, j = ix1 q := ⟨j 0, eq_ix1 j⟩
  rw [rowOf_ix1]
  refine (shapeCast_addUnit_apply ![47] b Cert.KernelIdeal.Gen.shapeCasts_S47_S1x47 (ix2 (0 : Fin 1) q)).trans ?_
  exact congrArg b (funext fun a => match a with | ⟨0, _⟩ => rfl)

end Cert.Bridge

end
-- ==== Proof.RefAgg.lean ====
/-
  The reference program's neighbourhood mean as one function of the features and the two endpoint columns.

  As in the kernel program: gather the source rows (a negative index wraps around by the node count), scatter-add
  them into the target rows, divide by the edge count floored at one. The reference counts into a one-column matrix
  and lays that column along the rows.
-/
import proofs.«146821_j20100446946148_1_alg».proof.Proof.Gen.ReferenceIdeal
import Idealize.ShloMosaic.PureOps.Ideal

noncomputable section

namespace Cert.ReferenceIdeal.RefVal

open Cert.ReferenceIdeal Cert.ReferenceIdeal.Gen Idealize.ShloMosaic Idealize.ShloMosaic.TcCoe Idealize.SL.Sem

/-- The edges' source endpoints: row 0 of the edge list. -/
def srcR (ei : IVec S2x800000 32) : IVec S800000 32 :=
  shapeCast _ (extractStridedSlice S1x800000 ![0, 0] ei slices_S2x800000_S1x800000_0_0) shapeCasts_S1x800000_S800000

/-- The edges' target endpoints: row 1 of the edge list. -/
def dstR (ei : IVec S2x800000 32) : IVec S800000 32 :=
  shapeCast _ (extractStridedSlice S1x800000 ![1, 0] ei slices_S2x800000_S1x800000_1_0) shapeCasts_S1x800000_S800000

/-- The summed neighbour rows: each source row (negative indices wrapped) added into its target's row. -/
def sumR (x : FVec Ideal S50000x128 .f32) (src dst : IVec S800000 32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The edge count into each target, floored at one, as a one-column matrix. -/
def cntR (dst : IVec S800000 32) : FVec Ideal S50000x1 .f32 :=
  maximumf
    (Host.scatterAdd (F := Ideal) scatter_S50000x1_S800000x1_S800000x1_1_0_0_1
      (broadcastInDim S50000x1 ![] bcast_S_S50000x1 (constant (F := Ideal) S_ .f32 0x00000000#32))
      (broadcastInDim S800000x1 ![0] bcast_S800000_S800000x1_0 dst)
      (broadcastInDim S800000x1 ![] bcast_S_S800000x1 (constant (F := Ideal) S_ .f32 0x3F800000#32)))
    (broadcastInDim S50000x1 ![] bcast_S_S50000x1 (constant (F := Ideal) S_ .f32 0x3F800000#32))

/-- The neighbourhood mean. -/
def aggR (x : FVec Ideal S50000x128 .f32) (src dst : IVec S800000 32) : FVec Ideal S50000x128 .f32 :=
  Host.divf (F := Ideal) (sumR x src dst) (broadcastInDim S50000x128 ![0, 1] bcast_S50000x1_S50000x128_0_1 (cntR dst))

end Cert.ReferenceIdeal.RefVal

end
-- ==== Proof.LibScatterIdx.lean ====
/-
  When does a scatter's update land on a given element?

  An update index `j` lands on the operand element whose coordinate on every axis is the window's start on that axis
  (read off the scatter indices) plus `j`'s window coordinate, provided that sum is inside the operand on every axis;
  otherwise the update is dropped. So the update lands on the element `i` exactly when, on every axis, start plus
  window coordinate equals `i`'s coordinate — the bounds test is then implied, `i` being an element of the operand.
-/
import Idealize.ShloMosaic.PureOps.Dims

namespace Idealize.ShloMosaic.ScatterDims

variable {s si u : Shape} (d : ScatterDims s si u)

/-- An update index lands on the element `i` iff on every operand axis its start plus its window coordinate is
    `i`'s coordinate. -/
theorem resultIdx?_eq_some_iff {w : Nat} (j : u.Idx) (idx : IVec si w) (i : s.Idx) :
    d.resultIdx? j idx = some i ↔ ∀ a, d.start j idx a + (d.window j a : Int) = ((i a).val : Int) := by
  unfold resultIdx?
  by_cases h : ∀ a, 0 ≤ d.start j idx a + d.window j a ∧ d.start j idx a + d.window j a < s.size a
  · rw [dif_pos h]
    constructor
    · intro e a
      have e' := congrFun (Option.some.inj e) a
      have hv : (d.start j idx a + (d.window j a : Int)).toNat = (i a).val := congrArg Fin.val e'
      have := (h a).1
      omega
    · intro hall
      refine congrArg some (funext fun a => Fin.ext ?_)
      show (d.start j idx a + (d.window j a : Int)).toNat = (i a).val
      rw [hall a]
      exact Int.toNat_natCast _
  · rw [dif_neg h]
    constructor
    · intro e
      exact absurd e (by simp)
    · intro hall
      exfalso
      refine h fun a => ?_
      rw [hall a]
      exact ⟨Int.natCast_nonneg _, by exact_mod_cast (i a).isLt⟩

end Idealize.ShloMosaic.ScatterDims
-- ==== Proof.AggBridge.lean ====
/-
  The two programs' neighbourhood means are one function.

  They differ only in how the edge count is shaped: the kernel program scatter-adds a vector of ones into a vector of
  node counts, then lays it out as a column and along the rows; the reference scatter-adds a one-column matrix of ones
  into a one-column matrix. An edge `e` lands on node `r` in the first exactly when it lands on `(r, 0)` in the second
  — in both, when the target index of `e`, read signed, is `r` — so, re-indexing the edges' vector by the edges'
  column, the two counts are the same sum of ones.
-/
import proofs.«146821_j20100446946148_1_alg».proof.Proof.KHost
import proofs.«146821_j20100446946148_1_alg».proof.Proof.RefAgg
import proofs.«146821_j20100446946148_1_alg».proof.Proof.LibScatterIdx
import Idealize.ShloMosaic.Lib.Pipeline.Value
import Idealize.ShloMosaic.Lib.ValueIdx

set_option maxRecDepth 16384

noncomputable section

namespace Cert.AggBridge

open Idealize.ShloMosaic Idealize.ShloMosaic.ValueIdx

/-- The kernel program's count scatter: ones along the edges into a vector over the nodes. -/
abbrev d1 := Cert.KernelIdeal.scatter_S50000_S800000x1_S800000_n_0_0_1
/-- The reference's count scatter: a column of ones over the edges into a column over the nodes. -/
abbrev d2 := Cert.ReferenceIdeal.scatter_S50000x1_S800000x1_S800000x1_1_0_0_1

/-- The edges as a vector's indices and as a one-column matrix's indices. -/
def colEquiv : (⟨1, ![800000]⟩ : Shape).Idx ≃ (⟨2, ![800000, 1]⟩ : Shape).Idx where
  toFun j := ix2 (j 0) (0 : Fin 1)
  invFun i := ix1 (i 0)
  left_inv j := (eq_ix1 j).symm
  right_inv i := funext fun a => match a with
    | ⟨0, _⟩ => rfl
    | ⟨1, h⟩ => Fin.ext (by
        have h1 : (i ⟨1, h⟩).val < 1 := (i ⟨1, h⟩).isLt
        show 0 = (i ⟨1, h⟩).val
        omega)

theorem d1_start (idx : IVec Cert.KernelIdeal.S800000x1 32) (e : Fin 800000) :
    d1.start (ix1 e) idx 0 = (idx (ix2 e (0 : Fin 1))).toInt := by
  unfold ScatterDims.start
  rw [dif_pos (by decide)]
  refine congrArg (fun k => (idx k).toInt) ?_
  funext b
  refine Fin.ext ?_
  match b with
  | ⟨0, _⟩ => rfl
  | ⟨1, _⟩ => rfl

theorem d1_window (e : Fin 800000) : d1.window (ix1 e) 0 = 0 := by
  unfold ScatterDims.window
  rw [dif_neg (by decide)]

theorem d2_start0 (idx : IVec Cert.ReferenceIdeal.S800000x1 32) (e : Fin 800000) :
    d2.start (ix2 e (0 : Fin 1)) idx 0 = (idx (ix2 e (0 : Fin 1))).toInt := by
  unfold ScatterDims.start
  rw [dif_pos (by decide)]
  refine congrArg (fun k => (idx k).toInt) ?_
  funext b
  refine Fin.ext ?_
  match b with
  | ⟨0, _⟩ => rfl
  | ⟨1, _⟩ => rfl

theorem d2_window0 (e : Fin 800000) : d2.window (ix2 e (0 : Fin 1)) 0 = 0 := by
  unfold ScatterDims.window
  rw [dif_neg (by decide)]

theorem d2_start1 (idx : IVec Cert.ReferenceIdeal.S800000x1 32) (e : Fin 800000) :
    d2.start (ix2 e (0 : Fin 1)) idx 1 = 0 := by
  unfold ScatterDims.start
  rw [dif_neg (by decide)]

theorem d2_window1 (e : Fin 800000) : d2.window (ix2 e (0 : Fin 1)) 1 = 0 := by
  unfold ScatterDims.window
  rw [dif_pos (by decide)]
  rfl

/-- Edge `e` is counted at node `r` by the vector scatter iff its target index, read signed, is `r`. -/
theorem lands1 (idx : IVec Cert.KernelIdeal.S800000x1 32) (e : Fin 800000) (r : Fin 50000) :
    d1.resultIdx? (ix1 e) idx = some (ix1 r) ↔ (idx (ix2 e (0 : Fin 1))).toInt = (r.val : Int) := by
  rw [ScatterDims.resultIdx?_eq_some_iff]
  constructor
  · intro h
    have h0 := h 0
    rw [d1_start, d1_window, Nat.cast_zero, add_zero] at h0
    exact h0
  · intro h a
    match a with
    | ⟨0, _⟩ =>
      show d1.start (ix1 e) idx 0 + (d1.window (ix1 e) 0 : Int) = (r.val : Int)
      rw [d1_start, d1_window, Nat.cast_zero, add_zero]
      exact h

/-- … and by the column scatter at `(r, 0)` under the same condition. -/
theorem lands2 (idx : IVec Cert.ReferenceIdeal.S800000x1 32) (e : Fin 800000) (r : Fin 50000) :
    d2.resultIdx? (ix2 e (0 : Fin 1)) idx = some (ix2 r (0 : Fin 1)) ↔ (idx (ix2 e (0 : Fin 1))).toInt = (r.val : Int) := by
  rw [ScatterDims.resultIdx?_eq_some_iff]
  constructor
  · intro h
    have h0 := h 0
    rw [d2_start0, d2_window0, Nat.cast_zero, add_zero] at h0
    exact h0
  · intro h a
    match a with
    | ⟨0, _⟩ =>
      show d2.start (ix2 e (0 : Fin 1)) idx 0 + (d2.window (ix2 e (0 : Fin 1)) 0 : Int) = (r.val : Int)
      rw [d2_start0, d2_window0, Nat.cast_zero, add_zero]
      exact h
    | ⟨1, _⟩ =>
      show d2.start (ix2 e (0 : Fin 1)) idx 1 + (d2.window (ix2 e (0 : Fin 1)) 1 : Int) = ((0 : Nat) : Int)
      rw [d2_start1, d2_window1]
      rfl

/-- The two counts of a constant over the edges landing on a node agree. -/
theorem count_eq (idx : IVec Cert.KernelIdeal.S800000x1 32) (r : Fin 50000) (v : EReal) :
    (∑ j ∈ Finset.univ.filter (fun j : Cert.KernelIdeal.S800000.Idx => d1.resultIdx? j idx = some (ix1 r)), v)
      = ∑ j ∈ Finset.univ.filter (fun j : Cert.ReferenceIdeal.S800000x1.Idx => d2.resultIdx? j idx = some (ix2 r (0 : Fin 1))), v := by
  refine Finset.sum_equiv colEquiv (fun j => ?_) (fun _ _ => rfl)
  simp only [Finset.mem_filter, Finset.mem_univ, true_and]
  rw [eq_ix1 j]
  exact (lands1 idx (j 0) r).trans (lands2 idx (j 0) r).symm

end Cert.AggBridge

end
-- ==== Proof.RefFinal.lean ====
/-
  The reference program's log-softmax and perturbation stages as functions of their operands, read at an index.

  The log-softmax subtracts from every entry its row's maximum (a fold of `max` from -∞ over the row's 47 entries;
  the reference takes the maximum with -∞ once more, which changes nothing) and then the logarithm of the row's sum of
  exponentials of the shifted entries. The perturbation adds to `x` its sign times the noise row scaled by the
  reciprocal of its length floored at ε, times the rate. The host's sums start from the literal zero, which is the
  zero of the extended reals.
-/
import proofs.«146821_j20100446946148_1_alg».proof.Proof.Gen.ReferenceIdeal
import proofs.«146821_j20100446946148_1_alg».proof.Proof.Spec
import Idealize.ShloMosaic.Lib.Pipeline.Value
import Idealize.ShloMosaic.Lib.ValueIdx
import Idealize.ShloMosaic.PureOps.Ideal.Laws
import Idealize.ShloMosaic.PureOps.Reduce

set_option maxRecDepth 16384

noncomputable section

namespace Cert.ReferenceIdeal.RefVal

open Cert.ReferenceIdeal Cert.ReferenceIdeal.Gen Idealize.ShloMosaic Idealize.ShloMosaic.TcCoe Idealize.ShloMosaic.ValueIdx Idealize.SL.Sem
open Cert.Sage

/-! ## Layout steps at an index -/

/-- A vector laid out as a column, at `(r, 0)`. -/
theorem col1_apply {α : Type} (v : S50000.Idx → α) (r : Fin 50000) :
    broadcastInDim S50000x1 ![0] bcast_S50000_S50000x1_0 v (ix2 r (0 : Fin 1)) = v (ix1 r) :=
  broadcastInDim_apply _ bcast_S50000_S50000x1_0 v (ix2 r (0 : Fin 1)) (ix1 r) (fun a => match a with
    | ⟨0, _⟩ => by show r.val = if (50000 : Nat) = 1 then 0 else r.val; rw [if_neg (by decide)])

/-- A column laid along 47 columns, at `(r, q)`. -/
theorem col47_apply {α : Type} (y : S50000x1.Idx → α) (r : Fin 50000) (q : Fin 47) :
    broadcastInDim S50000x47 ![0, 1] bcast_S50000x1_S50000x47_0_1 y (ix2 r q) = y (ix2 r (0 : Fin 1)) :=
  broadcastInDim_apply _ bcast_S50000x1_S50000x47_0_1 y (ix2 r q) (ix2 r (0 : Fin 1)) (fun a => match a with
    | ⟨0, _⟩ => by show r.val = if (50000 : Nat) = 1 then 0 else r.val; rw [if_neg (by decide)]
    | ⟨1, _⟩ => by show 0 = if (1 : Nat) = 1 then 0 else q.val; rw [if_pos rfl])

/-- A column laid along 128 columns, at `(r, q)`. -/
theorem col128_apply {α : Type} (y : S50000x1.Idx → α) (r : Fin 50000) (q : Fin 128) :
    broadcastInDim S50000x128 ![0, 1] bcast_S50000x1_S50000x128_0_1 y (ix2 r q) = y (ix2 r (0 : Fin 1)) :=
  broadcastInDim_apply _ bcast_S50000x1_S50000x128_0_1 y (ix2 r q) (ix2 r (0 : Fin 1)) (fun a => match a with
    | ⟨0, _⟩ => by show r.val = if (50000 : Nat) = 1 then 0 else r.val; rw [if_neg (by decide)]
    | ⟨1, _⟩ => by show 0 = if (1 : Nat) = 1 then 0 else q.val; rw [if_pos rfl])

theorem splatV (w : BitVec 32) (i : S50000.Idx) :
    broadcastInDim S50000 ![] bcast_S_S50000 (constant (F := Ideal) S_ .f32 w) i = Ideal.ofBits .f32 w :=
  broadcastInDim_apply _ bcast_S_S50000 _ i ix0 (fun a => a.elim0)

theorem splatC (w : BitVec 32) (i : S50000x1.Idx) :
    broadcastInDim S50000x1 ![] bcast_S_S50000x1 (constant (F := Ideal) S_ .f32 w) i = Ideal.ofBits .f32 w :=
  broadcastInDim_apply _ bcast_S_S50000x1 _ i ix0 (fun a => a.elim0)

theorem splatA (w : BitVec 32) (i : S50000x128.Idx) :
    broadcastInDim S50000x128 ![] bcast_S_S50000x128 (constant (F := Ideal) S_ .f32 w) i = Ideal.ofBits .f32 w :=
  broadcastInDim_apply _ bcast_S_S50000x128 _ i ix0 (fun a => a.elim0)

/-! ## The host's pointwise operations at an index -/

theorem hostLog_apply {s : Shape} (v : FVec Ideal s .f32) (i : s.Idx) : Host.log (F := Ideal) v i = Ideal.log (v i) := rfl
theorem hostExp_apply {s : Shape} (v : FVec Ideal s .f32) (i : s.Idx) : Host.exp (F := Ideal) v i = Ideal.exp (v i) := rfl
theorem hostSqrt_apply {s : Shape} (v : FVec Ideal s .f32) (i : s.Idx) : Host.sqrt (F := Ideal) v i = Ideal.sqrt (v i) := rfl
theorem hostSign_apply {s : Shape} (v : FVec Ideal s .f32) (i : s.Idx) : Host.sign (F := Ideal) v i = Ideal.sign (v i) := rfl
theorem hostDivf_apply {s : Shape} (a b : FVec Ideal s .f32) (i : s.Idx) : Host.divf (F := Ideal) a b i = Ideal.div (a i) (b i) := rfl

/-! ## The host's two row reductions -/

/-- The host's row maximum from -∞, at row `r`: the fold of `max` over the row's 47 entries. -/
theorem rowMaxR (z : FVec Ideal S50000x47 .f32) (r : Fin 50000) :
    Host.reduce (FloatOps.maximumf (F := Ideal) (φ := .f32)) z (constant (F := Ideal) S_ .f32 0xFF800000#32)
        reducesTo_S50000x47_S50000_d1 h_S_ (ix1 r)
      = rowMax47 (fun k => z (ix2 r k)) := by
  have hR : S50000x47.Reduces [1] S50000 := by decide
  rw [Host.reduce_eq_fold_single (FloatOps.maximumf (F := Ideal) (φ := .f32)) z _ reducesTo_S50000x47_S50000_d1 hR h_S_ (ix1 r)]
  have e : (z ∘ hR.lift (ix1 r)) = fun k : Fin 47 => z (ix2 r k) :=
    funext fun k => congrArg z (funext fun a => Fin.ext (by match a with | ⟨0, _⟩ => rfl | ⟨1, _⟩ => rfl))
  rw [e]
  unfold rowMax47
  rfl

/-- The host's row sum from the literal zero, at row `r`: the sum of the row's 47 entries. -/
theorem rowSum47R (y : FVec Ideal S50000x47 .f32) (r : Fin 50000) :
    Host.reduceAdd (F := Ideal) y (constant (F := Ideal) S_ .f32 0x00000000#32) reducesTo_S50000x47_S50000_d1 h_S_ (ix1 r)
      = ∑ k : Fin 47, y (ix2 r k) := by
  simp only [Host.reduceAdd, Ideal.hostReduceAdd_def]
  rw [Ideal.hostReduceAdd_single reducesTo_S50000x47_S50000_d1 (by decide)]
  rw [show (constant (F := Ideal) S_ .f32 0x00000000#32) (Shape.Idx.first h_S_) = Ideal.ofBits .f32 0x00000000#32 from rfl,
    Ideal.ofBits_zero_f32, zero_add]
  refine Finset.sum_congr rfl fun k _ => ?_
  exact congrArg y (funext fun a => Fin.ext (by match a with | ⟨0, _⟩ => rfl | ⟨1, _⟩ => rfl))

/-- The same over 128 entries. -/
theorem rowSum128R (y : FVec Ideal S50000x128 .f32) (r : Fin 50000) :
    Host.reduceAdd (F := Ideal) y (constant (F := Ideal) S_ .f32 0x00000000#32) reducesTo_S50000x128_S50000_d1 h_S_ (ix1 r)
      = ∑ k : Fin 128, y (ix2 r k) := by
  simp only [Host.reduceAdd, Ideal.hostReduceAdd_def]
  rw [Ideal.hostReduceAdd_single reducesTo_S50000x128_S50000_d1 (by decide)]
  rw [show (constant (F := Ideal) S_ .f32 0x00000000#32) (Shape.Idx.first h_S_) = Ideal.ofBits .f32 0x00000000#32 from rfl,
    Ideal.ofBits_zero_f32, zero_add]
  refine Finset.sum_congr rfl fun k _ => ?_
  exact congrArg y (funext fun a => Fin.ext (by match a with | ⟨0, _⟩ => rfl | ⟨1, _⟩ => rfl))

/-! ## The log-softmax -/

/-- The logits shifted by their row maxima. -/
def shiftR (z : FVec Ideal S50000x47 .f32) : FVec Ideal S50000x47 .f32 :=
  subf z (broadcastInDim S50000x47 ![0, 1] bcast_S50000x1_S50000x47_0_1
    (broadcastInDim S50000x1 ![0] bcast_S50000_S50000x1_0
      (maximumf (broadcastInDim S50000 ![] bcast_S_S50000 (constant (F := Ideal) S_ .f32 0xFF800000#32))
        (Host.reduce (FloatOps.maximumf (F := Ideal) (φ := .f32)) z (constant (F := Ideal) S_ .f32 0xFF800000#32)
          reducesTo_S50000x47_S50000_d1 h_S_))))

/-- The row-wise log-softmax as the reference spells it. -/
def lsmR (z : FVec Ideal S50000x47 .f32) : FVec Ideal S50000x47 .f32 :=
  subf (shiftR z) (broadcastInDim S50000x47 ![0, 1] bcast_S50000x1_S50000x47_0_1
    (Host.log (F := Ideal) (broadcastInDim S50000x1 ![0] bcast_S50000_S50000x1_0
      (Host.reduceAdd (F := Ideal) (Host.exp (F := Ideal) (shiftR z)) (constant (F := Ideal) S_ .f32 0x00000000#32)
        reducesTo_S50000x47_S50000_d1 h_S_))))

theorem shiftR_apply (z : FVec Ideal S50000x47 .f32) (r : Fin 50000) (q : Fin 47) :
    shiftR z (ix2 r q) = z (ix2 r q) - rowMax47 (fun k => z (ix2 r k)) := by
  unfold shiftR
  rw [subf_apply, col47_apply, col1_apply, maximumf_apply, splatV, rowMaxR]
  refine congrArg (z (ix2 r q) - ·) ?_
  unfold rowMax47
  exact max_eq_right ((Finset.le_fold_max (s := Finset.univ) (f := fun k : Fin 47 => z (ix2 r k)) _).mpr (Or.inl le_rfl))

theorem lsmR_eq (z : FVec Ideal S50000x47 .f32) :
    lsmR z = arr2 (fun r q => logSoftmax47 (fun k => z (ix2 r k)) q) := by
  funext i
  obtain ⟨r, q, rfl⟩ : ∃ (r : Fin 50000) (q : Fin 47), i = ix2 r q := ⟨i 0, i 1, eq_ix2 i⟩
  rw [arr2_ix2]
  unfold lsmR logSoftmax47
  rw [subf_apply, shiftR_apply, col47_apply, hostLog_apply, col1_apply, rowSum47R]
  refine congrArg (fun t => z (ix2 r q) - rowMax47 (fun k => z (ix2 r k)) - Ideal.log t) ?_
  refine Finset.sum_congr rfl fun k _ => ?_
  rw [hostExp_apply, shiftR_apply]

/-! ## The perturbation -/

/-- The perturbed input as the reference spells it. -/
def noiseR (x nz : FVec Ideal S50000x128 .f32) : FVec Ideal S50000x128 .f32 :=
  addf x (mulf (mulf (Host.sign (F := Ideal) x) (Host.divf (F := Ideal) nz
      (broadcastInDim S50000x128 ![0, 1] bcast_S50000x1_S50000x128_0_1
        (maximumf (Host.sqrt (F := Ideal) (broadcastInDim S50000x1 ![0] bcast_S50000_S50000x1_0
            (Host.reduceAdd (F := Ideal) (mulf nz nz) (constant (F := Ideal) S_ .f32 0x00000000#32) reducesTo_S50000x128_S50000_d1 h_S_)))
          (broadcastInDim S50000x1 ![] bcast_S_S50000x1 (constant (F := Ideal) S_ .f32 0x2B8CBCCC#32))))))
    (broadcastInDim S50000x128 ![] bcast_S_S50000x128 (constant (F := Ideal) S_ .f32 0x3DCCCCCD#32)))

theorem noiseR_eq (x nz : FVec Ideal S50000x128 .f32) : noiseR x nz = arr2 (noisy x nz) := by
  funext i
  obtain ⟨r, q, rfl⟩ : ∃ (r : Fin 50000) (q : Fin 128), i = ix2 r q := ⟨i 0, i 1, eq_ix2 i⟩
  rw [arr2_ix2]
  unfold noiseR noisy
  rw [addf_apply, mulf_apply, mulf_apply, splatA, hostSign_apply, hostDivf_apply, col128_apply, maximumf_apply, splatC,
    hostSqrt_apply, col1_apply, rowSum128R]
  refine congrArg (fun t => x (ix2 r q) + Ideal.sign (x (ix2 r q)) * Ideal.div (nz (ix2 r q))
    (max (Ideal.sqrt t) (Ideal.ofBits .f32 0x2B8CBCCC#32)) * Ideal.ofBits .f32 0x3DCCCCCD#32) ?_
  exact Finset.sum_congr rfl fun k _ => mulf_apply nz nz (ix2 r k)

end Cert.ReferenceIdeal.RefVal

end
-- ==== Proof.BridgeAgg.lean ====
/-
  The two programs' neighbourhood means are one function: the summed neighbour rows are spelt identically, and the
  two edge counts, a vector in one program and a one-column matrix in the other, agree entry by entry.
-/
import proofs.«146821_j20100446946148_1_alg».proof.Proof.KStages
import proofs.«146821_j20100446946148_1_alg».proof.Proof.AggBridge
import proofs.«146821_j20100446946148_1_alg».proof.Proof.RefFinal

set_option maxRecDepth 16384

noncomputable section

namespace Cert.Bridge

open Idealize.ShloMosaic Idealize.ShloMosaic.ValueIdx Cert.Sage
open Cert.KernelIdeal.KFold Cert.ReferenceIdeal.RefVal Cert.AggBridge

/-- The host's accumulating scatter at an element: the operand's element plus the sum of the updates landing on it. -/
theorem scatterAdd_apply {s si u : Shape} {w : Nat} (d : ScatterDims s si u) (x : FVec Ideal s .f32) (idx : IVec si w)
    (upd : FVec Ideal u .f32) (i : s.Idx) :
    Host.scatterAdd (F := Ideal) d x idx upd i
      = x i + ∑ j ∈ Finset.univ.filter (fun j => d.resultIdx? j idx = some i), upd j := rfl

/-- The kernel program's floored edge count laid along the rows is the reference's, entry by entry. -/
theorem count_bridge (dst : IVec Cert.KernelIdeal.S800000 32) (r : Fin 50000) (q : Fin 128) :
    (broadcastInDim Cert.KernelIdeal.S50000x128 ![0, 1] Cert.KernelIdeal.Gen.bcast_S50000x1_S50000x128_0_1
      (broadcastInDim Cert.KernelIdeal.S50000x1 ![0] Cert.KernelIdeal.Gen.bcast_S50000_S50000x1_0
        (maximumf
          (Host.scatterAdd (F := Ideal) Cert.KernelIdeal.scatter_S50000_S800000x1_S800000_n_0_0_1
            (broadcastInDim Cert.KernelIdeal.S50000 ![] Cert.KernelIdeal.Gen.bcast_S_S50000 (constant (F := Ideal) Cert.KernelIdeal.S_ .f32 0x00000000#32))
            (broadcastInDim Cert.KernelIdeal.S800000x1 ![0] Cert.KernelIdeal.Gen.bcast_S800000_S800000x1_0 dst)
            (broadcastInDim Cert.KernelIdeal.S800000 ![] Cert.KernelIdeal.Gen.bcast_S_S800000 (constant (F := Ideal) Cert.KernelIdeal.S_ .f32 0x3F800000#32)))
          (broadcastInDim Cert.KernelIdeal.S50000 ![] Cert.KernelIdeal.Gen.bcast_S_S50000 (constant (F := Ideal) Cert.KernelIdeal.S_ .f32 0x3F800000#32))))) (ix2 r q)
      = (broadcastInDim Cert.ReferenceIdeal.S50000x128 ![0, 1] Cert.ReferenceIdeal.Gen.bcast_S50000x1_S50000x128_0_1 (cntR dst)) (ix2 r q) := by
  rw [col128_apply, col128_apply, col1_apply]
  unfold cntR
  rw [maximumf_apply, maximumf_apply, splatV, splatC]
  refine congrArg (max · (Ideal.ofBits .f32 0x3F800000#32)) ?_
  rw [scatterAdd_apply, scatterAdd_apply, splatV, splatC]
  refine congrArg (Ideal.ofBits .f32 0x00000000#32 + ·) ?_
  have e1 : ∀ j, (broadcastInDim Cert.KernelIdeal.S800000 ![] Cert.KernelIdeal.Gen.bcast_S_S800000 (constant (F := Ideal) Cert.KernelIdeal.S_ .f32 0x3F800000#32)) j
      = Ideal.ofBits .f32 0x3F800000#32 := fun j => broadcastInDim_apply _ Cert.KernelIdeal.Gen.bcast_S_S800000 _ j ix0 (fun a => a.elim0)
  have e2 : ∀ j, (broadcastInDim Cert.ReferenceIdeal.S800000x1 ![] Cert.ReferenceIdeal.Gen.bcast_S_S800000x1 (constant (F := Ideal) Cert.ReferenceIdeal.S_ .f32 0x3F800000#32)) j
      = Ideal.ofBits .f32 0x3F800000#32 := fun j => broadcastInDim_apply _ Cert.ReferenceIdeal.Gen.bcast_S_S800000x1 _ j ix0 (fun a => a.elim0)
  rw [Finset.sum_congr rfl (fun j _ => e1 j), Finset.sum_congr rfl (fun j _ => e2 j)]
  exact count_eq _ r _

/-- The two programs spell the summed neighbour rows identically. -/
theorem sum_bridge (x : FVec Ideal Cert.KernelIdeal.S50000x128 .f32) (src dst : IVec Cert.KernelIdeal.S800000 32) :
    Host.scatterAdd (F := Ideal) Cert.KernelIdeal.scatter_S50000x128_S800000x1_S800000x128_1_0_0_1
      (broadcastInDim Cert.KernelIdeal.S50000x128 ![] Cert.KernelIdeal.Gen.bcast_S_S50000x128 (constant (F := Ideal) Cert.KernelIdeal.S_ .f32 0x00000000#32))
      (broadcastInDim Cert.KernelIdeal.S800000x1 ![0] Cert.KernelIdeal.Gen.bcast_S800000_S800000x1_0 dst)
      (Host.gather Cert.KernelIdeal.gather_S50000x128_S800000x1_S800000x128_1_0_n_n_0_1_1128 x
        (broadcastInDim Cert.KernelIdeal.S800000x1 ![0] Cert.KernelIdeal.Gen.bcast_S800000_S800000x1_0
          (select (cmpi .slt src (broadcastInDim Cert.KernelIdeal.S800000 ![] Cert.KernelIdeal.Gen.bcast_S_S800000 (constantI Cert.KernelIdeal.S_ 32 0#32)))
            (addi src (broadcastInDim Cert.KernelIdeal.S800000 ![] Cert.KernelIdeal.Gen.bcast_S_S800000 (constantI Cert.KernelIdeal.S_ 32 50000#32))) src)))
      = sumR x src dst := rfl

/-- The two programs' neighbourhood means are one function. -/
theorem aggK_eq_aggR (x : FVec Ideal Cert.KernelIdeal.S50000x128 .f32) (src dst : IVec Cert.KernelIdeal.S800000 32) :
    aggK x src dst = aggR x src dst := by
  funext i
  obtain ⟨r, q, rfl⟩ : ∃ (r : Fin 50000) (q : Fin 128), i = ix2 r q := ⟨i 0, i 1, eq_ix2 i⟩
  unfold aggK aggR
  rw [hostDivf_apply, hostDivf_apply, count_bridge, sum_bridge]

end Cert.Bridge

end
-- ==== Proof.RefLayers.lean ====
/-
  The reference program's dense stages as functions of their operands, read at an index.

  The reference forms a layer on the host: the neighbourhood means times the transposed left weights, plus the bias
  laid along the rows, plus the features times the transposed right weights; a hidden layer then clamps at zero.
  Read at row `r` and column `q` each product is the sum over the 128 features of a row of the left operand against a
  row of the weight matrix, so the layer is the specification's affine form with the bias added second instead of
  last — the same extended real, addition being commutative and associative there.
-/
import proofs.«146821_j20100446946148_1_alg».proof.Proof.Gen.ReferenceIdeal
import proofs.«146821_j20100446946148_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefVal

open Cert.ReferenceIdeal Cert.ReferenceIdeal.Gen Idealize.ShloMosaic Idealize.ShloMosaic.TcCoe Idealize.ShloMosaic.ValueIdx Idealize.SL.Sem
open Cert.Sage

/-! ## The two contractions and the bias at an index -/

theorem d128_lhs0 (i : S50000x128.Idx) (p : dot_S50000x128_S128x128_S50000x128_1_0_0_1_n_n.contr.Idx) : (dot_S50000x128_S128x128_S50000x128_1_0_0_1_n_n.lhsIdx i p 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem d128_lhs1 (i : S50000x128.Idx) (p : dot_S50000x128_S128x128_S50000x128_1_0_0_1_n_n.contr.Idx) : (dot_S50000x128_S128x128_S50000x128_1_0_0_1_n_n.lhsIdx i p 1).val = (p ⟨0, by decide⟩).val :=
  dot_S50000x128_S128x128_S50000x128_1_0_0_1_n_n.lhsIdx_val_of_single rfl i p
theorem d128_rhs0 (i : S50000x128.Idx) (p : dot_S50000x128_S128x128_S50000x128_1_0_0_1_n_n.contr.Idx) : (dot_S50000x128_S128x128_S50000x128_1_0_0_1_n_n.rhsIdx i p 0).val = (p ⟨0, by decide⟩).val :=
  dot_S50000x128_S128x128_S50000x128_1_0_0_1_n_n.rhsIdx_val_of_single rfl i p
theorem d128_rhs1 (i : S50000x128.Idx) (p : dot_S50000x128_S128x128_S50000x128_1_0_0_1_n_n.contr.Idx) : (dot_S50000x128_S128x128_S50000x128_1_0_0_1_n_n.rhsIdx i p 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- A product of the feature rows with a transposed weight matrix, at row `r` and column `q`: the sum over the 128
    features of row `r` of `l` against row `q` of `W`. -/
theorem d128_apply (l : FVec Ideal S50000x128 .f32) (W : FVec Ideal S128x128 .f32) (r : Fin 50000) (q : Fin 128) :
    Host.dotGeneral (F := Ideal) dot_S50000x128_S128x128_S50000x128_1_0_0_1_n_n none l (transpose S128x128 [1, 0] W transposes_S128x128_S128x128_1_0) (ix2 r q)
      = ∑ k : Fin 128, l (ix2 r k) * W (ix2 q k) := by
  generalize hy : transpose S128x128 [1, 0] W transposes_S128x128_S128x128_1_0 = y
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 r q) ((ValueIdx.contrEquiv1 dot_S50000x128_S128x128_S50000x128_1_0_0_1_n_n 128 rfl rfl).symm k) = ix2 r k := funext fun a => Fin.ext (by
    match a with
    | ⟨0, _⟩ => exact d128_lhs0 _ _
    | ⟨1, _⟩ => exact (d128_lhs1 _ _).trans hk)
  have er : dot_S50000x128_S128x128_S50000x128_1_0_0_1_n_n.rhsIdx (ix2 r q) ((ValueIdx.contrEquiv1 dot_S50000x128_S128x128_S50000x128_1_0_0_1_n_n 128 rfl rfl).symm k) = ix2 k q := funext fun a => Fin.ext (by
    match a with
    | ⟨0, _⟩ => exact (d128_rhs0 _ _).trans hk
    | ⟨1, _⟩ => exact d128_rhs1 _ _)
  rw [el, er, ← hy]
  refine congrArg (l (ix2 r k) * ·) ?_
  exact transpose_apply [1, 0] W transposes_S128x128_S128x128_1_0 (ix2 k q) (ix2 q k) (fun b => match b with
    | ⟨0, _⟩ => rfl
    | ⟨1, _⟩ => rfl)

/-- The bias laid along the rows, at row `r` and column `q`: entry `q` of the bias. -/
theorem d128_bias (b : FVec Ideal S128 .f32) (r : Fin 50000) (q : Fin 128) :
    broadcastInDim S50000x128 ![0, 1] bcast_S1x128_S50000x128_0_1 (broadcastInDim S1x128 ![1] bcast_S128_S1x128_1 b) (ix2 r q) = b (ix1 q) :=
  (broadcastInDim_apply _ bcast_S1x128_S50000x128_0_1 _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])).trans
  (broadcastInDim_apply _ bcast_S128_S1x128_1 b (ix2 (0 : Fin 1) q) (ix1 q) (fun a => match a with
    | ⟨0, _⟩ => by show q.val = if (128 : Nat) = 1 then 0 else q.val; rw [if_neg (by decide)]))

theorem d47_lhs0 (i : S50000x47.Idx) (p : dot_S50000x128_S128x47_S50000x47_1_0_0_1_n_n.contr.Idx) : (dot_S50000x128_S128x47_S50000x47_1_0_0_1_n_n.lhsIdx i p 0).val = (i 0).val := by
  unfold DotDims.lhsIdx
  rw [dif_neg (show ¬(0 : Fin S50000x128.rank) ∈ dot_S50000x128_S128x47_S50000x47_1_0_0_1_n_n.lhsBatch by decide), dif_pos (show (0 : Fin S50000x128.rank) ∈ dot_S50000x128_S128x47_S50000x47_1_0_0_1_n_n.lhsNonContracting by decide)]
  rfl
theorem d47_lhs1 (i : S50000x47.Idx) (p : dot_S50000x128_S128x47_S50000x47_1_0_0_1_n_n.contr.Idx) : (dot_S50000x128_S128x47_S50000x47_1_0_0_1_n_n.lhsIdx i p 1).val = (p ⟨0, by decide⟩).val :=
  dot_S50000x128_S128x47_S50000x47_1_0_0_1_n_n.lhsIdx_val_of_single rfl i p
theorem d47_rhs0 (i : S50000x47.Idx) (p : dot_S50000x128_S128x47_S50000x47_1_0_0_1_n_n.contr.Idx) : (dot_S50000x128_S128x47_S50000x47_1_0_0_1_n_n.rhsIdx i p 0).val = (p ⟨0, by decide⟩).val :=
  dot_S50000x128_S128x47_S50000x47_1_0_0_1_n_n.rhsIdx_val_of_single rfl i p
theorem d47_rhs1 (i : S50000x47.Idx) (p : dot_S50000x128_S128x47_S50000x47_1_0_0_1_n_n.contr.Idx) : (dot_S50000x128_S128x47_S50000x47_1_0_0_1_n_n.rhsIdx i p 1).val = (i 1).val := by
  unfold DotDims.rhsIdx
  rw [dif_neg (show ¬(1 : Fin S128x47.rank) ∈ dot_S50000x128_S128x47_S50000x47_1_0_0_1_n_n.rhsBatch by decide), dif_pos (show (1 : Fin S128x47.rank) ∈ dot_S50000x128_S128x47_S50000x47_1_0_0_1_n_n.rhsNonContracting by decide)]
  rfl

/-- A product of the feature rows with a transposed weight matrix, at row `r` and column `q`: the sum over the 128
    features of row `r` of `l` against row `q` of `W`. -/
theorem d47_apply (l : FVec Ideal S50000x128 .f32) (W : FVec Ideal S47x128 .f32) (r : Fin 50000) (q : Fin 47) :
    Host.dotGeneral (F := Ideal) dot_S50000x128_S128x47_S50000x47_1_0_0_1_n_n none l (transpose S128x47 [1, 0] W transposes_S47x128_S128x47_1_0) (ix2 r q)
      = ∑ k : Fin 128, l (ix2 r k) * W (ix2 q k) := by
  generalize hy : transpose S128x47 [1, 0] W transposes_S47x128_S128x47_1_0 = y
  simp only [Host.dotGeneral]
  rw [Ideal.dotGeneral_apply, ← Equiv.sum_comp (ValueIdx.contrEquiv1 dot_S50000x128_S128x47_S50000x47_1_0_0_1_n_n 128 rfl rfl).symm]
  refine Finset.sum_congr rfl fun k _ => ?_
  have hk := ValueIdx.contrEquiv1_symm_val dot_S50000x128_S128x47_S50000x47_1_0_0_1_n_n 128 rfl rfl k
  have el : dot_S50000x128_S128x47_S50000x47_1_0_0_1_n_n.lhsIdx (ix2 r q) ((ValueIdx.contrEquiv1 dot_S50000x128_S128x47_S50000x47_1_0_0_1_n_n 128 rfl rfl).symm k) = ix2 r k := funext fun a => Fin.ext (by
    match a with
    | ⟨0, _⟩ => exact d47_lhs0 _ _
    | ⟨1, _⟩ => exact (d47_lhs1 _ _).trans hk)
  have er : dot_S50000x128_S128x47_S50000x47_1_0_0_1_n_n.rhsIdx (ix2 r q) ((ValueIdx.contrEquiv1 dot_S50000x128_S128x47_S50000x47_1_0_0_1_n_n 128 rfl rfl).symm k) = ix2 k q := funext fun a => Fin.ext (by
    match a with
    | ⟨0, _⟩ => exact (d47_rhs0 _ _).trans hk
    | ⟨1, _⟩ => exact d47_rhs1 _ _)
  rw [el, er, ← hy]
  refine congrArg (l (ix2 r k) * ·) ?_
  exact transpose_apply [1, 0] W transposes_S47x128_S128x47_1_0 (ix2 k q) (ix2 q k) (fun b => match b with
    | ⟨0, _⟩ => rfl
    | ⟨1, _⟩ => rfl)

/-- The bias laid along the rows, at row `r` and column `q`: entry `q` of the bias. -/
theorem d47_bias (b : FVec Ideal S47 .f32) (r : Fin 50000) (q : Fin 47) :
    broadcastInDim S50000x47 ![0, 1] bcast_S1x47_S50000x47_0_1 (broadcastInDim S1x47 ![1] bcast_S47_S1x47_1 b) (ix2 r q) = b (ix1 q) :=
  (broadcastInDim_apply _ bcast_S1x47_S50000x47_0_1 _ (ix2 r q) (ix2 (0 : Fin 1) q) (fun a => match a with
    | ⟨0, _⟩ => by show 0 = if (1 : Nat) = 1 then 0 else r.val; rw [if_pos rfl]
    | ⟨1, _⟩ => by show q.val = if (47 : Nat) = 1 then 0 else q.val; rw [if_neg (by decide)])).trans
  (broadcastInDim_apply _ bcast_S47_S1x47_1 b (ix2 (0 : Fin 1) q) (ix1 q) (fun a => match a with
    | ⟨0, _⟩ => by show q.val = if (47 : Nat) = 1 then 0 else q.val; rw [if_neg (by decide)]))

/-- A literal laid over a whole array reads as that literal everywhere. -/
theorem splat128 (w : BitVec 32) (i : S50000x128.Idx) :
    broadcastInDim S50000x128 ![] bcast_S_S50000x128 (constant (F := Ideal) S_ .f32 w) i = Ideal.ofBits .f32 w :=
  broadcastInDim_apply _ bcast_S_S50000x128 _ i ix0 (fun a => a.elim0)

/-! ## The layers -/

/-- The affine part of a hidden layer as the reference spells it. -/
def linR128 (a x : FVec Ideal S50000x128 .f32) (Wl : FVec Ideal S128x128 .f32) (bl : FVec Ideal S128 .f32)
    (Wr : FVec Ideal S128x128 .f32) : FVec Ideal S50000x128 .f32 :=
  addf (addf (Host.dotGeneral (F := Ideal) dot_S50000x128_S128x128_S50000x128_1_0_0_1_n_n none a (transpose S128x128 [1, 0] Wl transposes_S128x128_S128x128_1_0))
      (broadcastInDim S50000x128 ![0, 1] bcast_S1x128_S50000x128_0_1 (broadcastInDim S1x128 ![1] bcast_S128_S1x128_1 bl)))
    (Host.dotGeneral (F := Ideal) dot_S50000x128_S128x128_S50000x128_1_0_0_1_n_n none x (transpose S128x128 [1, 0] Wr transposes_S128x128_S128x128_1_0))

/-- The clamp at zero. -/
def reluR (y : FVec Ideal S50000x128 .f32) : FVec Ideal S50000x128 .f32 :=
  maximumf y (broadcastInDim S50000x128 ![] bcast_S_S50000x128 (constant (F := Ideal) S_ .f32 0x00000000#32))

/-- The last layer's affine part as the reference spells it. -/
def linR47 (a x : FVec Ideal S50000x128 .f32) (Wl : FVec Ideal S47x128 .f32) (bl : FVec Ideal S47 .f32)
    (Wr : FVec Ideal S47x128 .f32) : FVec Ideal S50000x47 .f32 :=
  addf (addf (Host.dotGeneral (F := Ideal) dot_S50000x128_S128x47_S50000x47_1_0_0_1_n_n none a (transpose S128x47 [1, 0] Wl transposes_S47x128_S128x47_1_0))
      (broadcastInDim S50000x47 ![0, 1] bcast_S1x47_S50000x47_0_1 (broadcastInDim S1x47 ![1] bcast_S47_S1x47_1 bl)))
    (Host.dotGeneral (F := Ideal) dot_S50000x128_S128x47_S50000x47_1_0_0_1_n_n none x (transpose S128x47 [1, 0] Wr transposes_S47x128_S128x47_1_0))

theorem reluR_linR128 (a x : FVec Ideal S50000x128 .f32) (Wl : FVec Ideal S128x128 .f32) (bl : FVec Ideal S128 .f32)
    (Wr : FVec Ideal S128x128 .f32) : reluR (linR128 a x Wl bl Wr) = arr2 (hid128 a x Wl Wr bl) := by
  funext i
  obtain ⟨r, q, rfl⟩ : ∃ (r : Fin 50000) (q : Fin 128), i = ix2 r q := ⟨i 0, i 1, eq_ix2 i⟩
  rw [arr2_ix2]
  unfold reluR linR128 hid128 lin128
  rw [maximumf_apply, addf_apply, addf_apply, d128_apply, d128_apply, d128_bias, splat128, add_right_comm]

theorem linR47_eq (a x : FVec Ideal S50000x128 .f32) (Wl : FVec Ideal S47x128 .f32) (bl : FVec Ideal S47 .f32)
    (Wr : FVec Ideal S47x128 .f32) : linR47 a x Wl bl Wr = arr2 (lin47 a x Wl Wr bl) := by
  funext i
  obtain ⟨r, q, rfl⟩ : ∃ (r : Fin 50000) (q : Fin 47), i = ix2 r q := ⟨i 0, i 1, eq_ix2 i⟩
  rw [arr2_ix2]
  unfold linR47 lin47
  rw [addf_apply, addf_apply, d47_apply, d47_apply, d47_bias, add_right_comm]

end Cert.ReferenceIdeal.RefVal

end
-- ==== Proof.Bridge.lean ====
/-
  The two programs' layers are the same functions: with equal neighbourhood means, weight casts that are the identity
  on the extended reals and the bias read back from its one-row form, each pair meets at the specification's
  element-by-element form.
-/
import proofs.«146821_j20100446946148_1_alg».proof.Proof.BridgeCast
import proofs.«146821_j20100446946148_1_alg».proof.Proof.BridgeAgg
import proofs.«146821_j20100446946148_1_alg».proof.Proof.RefLayers
import proofs.«146821_j20100446946148_1_alg».proof.Proof.RefFinal

set_option maxRecDepth 16384

noncomputable section

namespace Cert.Bridge

open Idealize.ShloMosaic Idealize.ShloMosaic.ValueIdx Cert.Sage
open Cert.KernelIdeal.KFold Cert.ReferenceIdeal.RefVal Cert.AggBridge

/-- A hidden layer of the kernel program is the reference's. -/
theorem layerK_eq (x : FVec Ideal Cert.KernelIdeal.S50000x128 .f32) (src dst : IVec Cert.KernelIdeal.S800000 32)
    (Wl : FVec Ideal Cert.KernelIdeal.S128x128 .f32) (bl : FVec Ideal Cert.KernelIdeal.S128 .f32) (Wr : FVec Ideal Cert.KernelIdeal.S128x128 .f32) :
    layerK x src dst Wl bl Wr = reluR (linR128 (aggR x src dst) x Wl bl Wr) := by
  rw [reluR_linR128]
  unfold layerK
  rw [aggK_eq_aggR, rowOf_cast128]
  rfl

/-- The kernel program's logits are the reference's. -/
theorem logitsK_eq (x : FVec Ideal Cert.KernelIdeal.S50000x128 .f32) (src dst : IVec Cert.KernelIdeal.S800000 32)
    (Wl : FVec Ideal Cert.KernelIdeal.S47x128 .f32) (bl : FVec Ideal Cert.KernelIdeal.S47 .f32) (Wr : FVec Ideal Cert.KernelIdeal.S47x128 .f32) :
    logitsK x src dst Wl bl Wr = linR47 (aggR x src dst) x Wl bl Wr := by
  rw [linR47_eq]
  unfold logitsK
  rw [aggK_eq_aggR, rowOf_cast47]
  rfl

/-- The kernel program's log-softmax of its logits is the reference's of its. -/
theorem logprobK_eq (x : FVec Ideal Cert.KernelIdeal.S50000x128 .f32) (src dst : IVec Cert.KernelIdeal.S800000 32)
    (Wl : FVec Ideal Cert.KernelIdeal.S47x128 .f32) (bl : FVec Ideal Cert.KernelIdeal.S47 .f32) (Wr : FVec Ideal Cert.KernelIdeal.S47x128 .f32) :
    logprobK x src dst Wl bl Wr = lsmR (linR47 (aggR x src dst) x Wl bl Wr) := by
  rw [lsmR_eq, linR47_eq]
  unfold logprobK
  rw [aggK_eq_aggR, rowOf_cast47]
  rfl

/-- The perturbed input of the kernel program is the reference's. -/
theorem noisyK_eq (x nz : FVec Ideal Cert.KernelIdeal.S50000x128 .f32) : noisyK x nz = noiseR x nz := by
  rw [noiseR_eq]
  rfl

end Cert.Bridge

end
-- ==== Proof.RefStages.lean ====
/-
  The reference program's layers composed: two hidden layers, then the logits and their log-softmax, as functions of
  the features the branch starts from, the edge list and the nine weight and bias arrays. Every layer reads the
  neighbourhood means of the features it is given over the same edges.
-/
import proofs.«146821_j20100446946148_1_alg».proof.Proof.RefAgg
import proofs.«146821_j20100446946148_1_alg».proof.Proof.RefLayers
import proofs.«146821_j20100446946148_1_alg».proof.Proof.RefFinal

noncomputable section

namespace Cert.ReferenceIdeal.RefVal

open Cert.ReferenceIdeal Cert.ReferenceIdeal.Gen Idealize.ShloMosaic Idealize.ShloMosaic.TcCoe Idealize.SL.Sem

/-- A hidden layer over the edge list `ei`. -/
def layerR (x : FVec Ideal S50000x128 .f32) (ei : IVec S2x800000 32) (Wl : FVec Ideal S128x128 .f32) (bl : FVec Ideal S128 .f32)
    (Wr : FVec Ideal S128x128 .f32) : FVec Ideal S50000x128 .f32 :=
  reluR (linR128 (aggR x (srcR ei) (dstR ei)) x Wl bl Wr)

/-- The last layer's logits over the edge list `ei`. -/
def logitsR (x : FVec Ideal S50000x128 .f32) (ei : IVec S2x800000 32) (Wl : FVec Ideal S47x128 .f32) (bl : FVec Ideal S47 .f32)
    (Wr : FVec Ideal S47x128 .f32) : FVec Ideal S50000x47 .f32 :=
  linR47 (aggR x (srcR ei) (dstR ei)) x Wl bl Wr

section
variable (x : FVec Ideal S50000x128 .f32) (ei : IVec S2x800000 32) (nz : FVec Ideal S50000x128 .f32)
  (W3 : FVec Ideal S128x128 .f32) (b4 : FVec Ideal S128 .f32) (W5 : FVec Ideal S128x128 .f32)
  (W6 : FVec Ideal S128x128 .f32) (b7 : FVec Ideal S128 .f32) (W8 : FVec Ideal S128x128 .f32)
  (W9 : FVec Ideal S47x128 .f32) (b10 : FVec Ideal S47 .f32) (W11 : FVec Ideal S47x128 .f32)

/-- The second hidden layer's output, from features `x`. -/
def hid2R : FVec Ideal S50000x128 .f32 := layerR (layerR x ei W3 b4 W5) ei W6 b7 W8
/-- The logits, from features `x`. -/
def zR : FVec Ideal S50000x47 .f32 := logitsR (hid2R x ei W3 b4 W5 W6 b7 W8) ei W9 b10 W11
/-- Their log-softmax. -/
def yR : FVec Ideal S50000x47 .f32 := lsmR (zR x ei W3 b4 W5 W6 b7 W8 W9 b10 W11)
end

end Cert.ReferenceIdeal.RefVal

end
-- ==== Proof.KKeepArgs.lean ====
/-
  The argument arrays are touched by no host stretch and by no launch (a launch reads one through an input window, or
  passes it by), so at every segment boundary an argument's buffer still holds what the boundary before held.
-/
import proofs.«146821_j20100446946148_1_alg».proof.Proof.Gen.KernelIdeal.Frame
import Idealize.ShloMosaic.PureOps.Ideal

set_option maxRecDepth 16384

noncomputable section

namespace Cert.KernelIdeal.KFold

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

theorem keep_arg0_0_1 (c : Dev nD) : W1 m ρ c (Proc.devRef .tc main_arg0) = W0 m ρ c (Proc.devRef .tc main_arg0) :=
  calc W1 m ρ c (Proc.devRef .tc main_arg0)
    _ = W0 m ρ c (Proc.devRef .tc main_arg0) := StableHlo.after_of_forall_not_mem (b := (Proc.devRef .tc main_arg0)) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg0_1_6 (c : Dev nD) : W6 m ρ c (Proc.devRef .tc main_arg0) = W1 m ρ c (Proc.devRef .tc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_forall_not_mem (b := (Proc.devRef .tc main_arg0)) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := (Proc.devRef .tc main_arg0)) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 1).trans (((dat0 (V1 m ρ) c).arrAt_in 1 rfl _).trans (A_eq0 (V1 m ρ) c 1))

theorem keep_arg2_0_6 (c : Dev nD) : W6 m ρ c (Proc.devRef .tc main_arg2) = W0 m ρ c (Proc.devRef .tc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := (Proc.devRef .tc main_arg2)) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := (Proc.devRef .tc main_arg2)) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := (Proc.devRef .tc main_arg2)) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg3_0_7 (c : Dev nD) : W7 m ρ c (Proc.devRef .tc main_arg3) = W0 m ρ c (Proc.devRef .tc main_arg3) :=
  calc W7 m ρ c (Proc.devRef .tc main_arg3)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := StableHlo.after_of_forall_not_mem (b := (Proc.devRef .tc main_arg3)) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := (Proc.devRef .tc main_arg3)) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := (Proc.devRef .tc main_arg3)) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg4_0_7 (c : Dev nD) : W7 m ρ c (Proc.devRef .tc main_arg4) = W0 m ρ c (Proc.devRef .tc main_arg4) :=
  calc W7 m ρ c (Proc.devRef .tc main_arg4)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := StableHlo.after_of_forall_not_mem (b := (Proc.devRef .tc main_arg4)) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := (Proc.devRef .tc main_arg4)) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := (Proc.devRef .tc main_arg4)) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg5_0_7 (c : Dev nD) : W7 m ρ c (Proc.devRef .tc main_arg5) = W0 m ρ c (Proc.devRef .tc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := StableHlo.after_of_forall_not_mem (b := (Proc.devRef .tc main_arg5)) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := (Proc.devRef .tc main_arg5)) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := (Proc.devRef .tc main_arg5)) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg6_0_2 (c : Dev nD) : W2 m ρ c (Proc.devRef .tc main_arg6) = W0 m ρ c (Proc.devRef .tc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := (Proc.devRef .tc main_arg6)) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg6_2_9 (c : Dev nD) : W9 m ρ c (Proc.devRef .tc main_arg6) = W2 m ρ c (Proc.devRef .tc main_arg6) :=
  calc W9 m ρ c (Proc.devRef .tc main_arg6)
    _ = W8 m ρ c (Proc.devRef .tc main_arg6) := W9_of_ne m ρ c main_arg6 (by decide)
    _ = W7 m ρ c (Proc.devRef .tc main_arg6) := StableHlo.after_of_forall_not_mem (b := (Proc.devRef .tc main_arg6)) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := StableHlo.after_of_forall_not_mem (b := (Proc.devRef .tc main_arg6)) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := (Proc.devRef .tc main_arg6)) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg7_0_2 (c : Dev nD) : W2 m ρ c (Proc.devRef .tc main_arg7) = W0 m ρ c (Proc.devRef .tc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := (Proc.devRef .tc main_arg7)) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg7_2_9 (c : Dev nD) : W9 m ρ c (Proc.devRef .tc main_arg7) = W2 m ρ c (Proc.devRef .tc main_arg7) :=
  calc W9 m ρ c (Proc.devRef .tc main_arg7)
    _ = W8 m ρ c (Proc.devRef .tc main_arg7) := W9_of_ne m ρ c main_arg7 (by decide)
    _ = W7 m ρ c (Proc.devRef .tc main_arg7) := StableHlo.after_of_forall_not_mem (b := (Proc.devRef .tc main_arg7)) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_forall_not_mem (b := (Proc.devRef .tc main_arg7)) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := (Proc.devRef .tc main_arg7)) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg8_0_2 (c : Dev nD) : W2 m ρ c (Proc.devRef .tc main_arg8) = W0 m ρ c (Proc.devRef .tc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := (Proc.devRef .tc main_arg8)) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg8_2_9 (c : Dev nD) : W9 m ρ c (Proc.devRef .tc main_arg8) = W2 m ρ c (Proc.devRef .tc main_arg8) :=
  calc W9 m ρ c (Proc.devRef .tc main_arg8)
    _ = W8 m ρ c (Proc.devRef .tc main_arg8) := W9_of_ne m ρ c main_arg8 (by decide)
    _ = W7 m ρ c (Proc.devRef .tc main_arg8) := StableHlo.after_of_forall_not_mem (b := (Proc.devRef .tc main_arg8)) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := StableHlo.after_of_forall_not_mem (b := (Proc.devRef .tc main_arg8)) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := (Proc.devRef .tc main_arg8)) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg9_0_4 (c : Dev nD) : W4 m ρ c (Proc.devRef .tc main_arg9) = W0 m ρ c (Proc.devRef .tc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem (b := (Proc.devRef .tc main_arg9)) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := (Proc.devRef .tc main_arg9)) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg9_4_11 (c : Dev nD) : W11 m ρ c (Proc.devRef .tc main_arg9) = W4 m ρ c (Proc.devRef .tc main_arg9) :=
  calc W11 m ρ c (Proc.devRef .tc main_arg9)
    _ = W10 m ρ c (Proc.devRef .tc main_arg9) := W11_of_ne m ρ c main_arg9 (by decide)
    _ = W9 m ρ c (Proc.devRef .tc main_arg9) := StableHlo.after_of_forall_not_mem (b := (Proc.devRef .tc main_arg9)) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg9) := W9_of_ne m ρ c main_arg9 (by decide)
    _ = W7 m ρ c (Proc.devRef .tc main_arg9) := StableHlo.after_of_forall_not_mem (b := (Proc.devRef .tc main_arg9)) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := StableHlo.after_of_forall_not_mem (b := (Proc.devRef .tc main_arg9)) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg10_0_4 (c : Dev nD) : W4 m ρ c (Proc.devRef .tc main_arg10) = W0 m ρ c (Proc.devRef .tc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_forall_not_mem (b := (Proc.devRef .tc main_arg10)) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := (Proc.devRef .tc main_arg10)) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg10_4_11 (c : Dev nD) : W11 m ρ c (Proc.devRef .tc main_arg10) = W4 m ρ c (Proc.devRef .tc main_arg10) :=
  calc W11 m ρ c (Proc.devRef .tc main_arg10)
    _ = W10 m ρ c (Proc.devRef .tc main_arg10) := W11_of_ne m ρ c main_arg10 (by decide)
    _ = W9 m ρ c (Proc.devRef .tc main_arg10) := StableHlo.after_of_forall_not_mem (b := (Proc.devRef .tc main_arg10)) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg10) := W9_of_ne m ρ c main_arg10 (by decide)
    _ = W7 m ρ c (Proc.devRef .tc main_arg10) := StableHlo.after_of_forall_not_mem (b := (Proc.devRef .tc main_arg10)) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := StableHlo.after_of_forall_not_mem (b := (Proc.devRef .tc main_arg10)) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg11_0_4 (c : Dev nD) : W4 m ρ c (Proc.devRef .tc main_arg11) = W0 m ρ c (Proc.devRef .tc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_forall_not_mem (b := (Proc.devRef .tc main_arg11)) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := (Proc.devRef .tc main_arg11)) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg11_4_11 (c : Dev nD) : W11 m ρ c (Proc.devRef .tc main_arg11) = W4 m ρ c (Proc.devRef .tc main_arg11) :=
  calc W11 m ρ c (Proc.devRef .tc main_arg11)
    _ = W10 m ρ c (Proc.devRef .tc main_arg11) := W11_of_ne m ρ c main_arg11 (by decide)
    _ = W9 m ρ c (Proc.devRef .tc main_arg11) := StableHlo.after_of_forall_not_mem (b := (Proc.devRef .tc main_arg11)) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg11) := W9_of_ne m ρ c main_arg11 (by decide)
    _ = W7 m ρ c (Proc.devRef .tc main_arg11) := StableHlo.after_of_forall_not_mem (b := (Proc.devRef .tc main_arg11)) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := StableHlo.after_of_forall_not_mem (b := (Proc.devRef .tc main_arg11)) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.KFold

end
-- ==== Proof.KKeepIdx.lean ====
/-
  The two edge-endpoint columns are cut out of the edge list once, by the first host stretch; every later stretch
  reads them again, and nothing in between writes them.
-/
import proofs.«146821_j20100446946148_1_alg».proof.Proof.Gen.KernelIdeal.Frame
import Idealize.ShloMosaic.PureOps.Ideal

set_option maxRecDepth 16384

noncomputable section

namespace Cert.KernelIdeal.KFold

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

theorem keep_v1_1_2 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem keep_v1_2_4 (c : Dev nD) : W4 m ρ c (Proc.devRef .tc main_v1) = W2 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := (Proc.devRef .tc main_v1)) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v1_4_7 (c : Dev nD) : W7 m ρ c (Proc.devRef .tc main_v1) = W4 m ρ c (Proc.devRef .tc main_v1) :=
  calc W7 m ρ c (Proc.devRef .tc main_v1)
    _ = W6 m ρ c (Proc.devRef .tc main_v1) := W7_of_ne m ρ c main_v1 (by decide)
    _ = W5 m ρ c (Proc.devRef .tc main_v1) := W6_of_ne m ρ c main_v1 (by decide)
    _ = W4 m ρ c (Proc.devRef .tc main_v1) := StableHlo.after_of_forall_not_mem (b := (Proc.devRef .tc main_v1)) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v1_7_9 (c : Dev nD) : W9 m ρ c (Proc.devRef .tc main_v1) = W7 m ρ c (Proc.devRef .tc main_v1) :=
  calc W9 m ρ c (Proc.devRef .tc main_v1)
    _ = W8 m ρ c (Proc.devRef .tc main_v1) := W9_of_ne m ρ c main_v1 (by decide)
    _ = W7 m ρ c (Proc.devRef .tc main_v1) := StableHlo.after_of_forall_not_mem (b := (Proc.devRef .tc main_v1)) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v1_9_11 (c : Dev nD) : W11 m ρ c (Proc.devRef .tc main_v1) = W9 m ρ c (Proc.devRef .tc main_v1) :=
  calc W11 m ρ c (Proc.devRef .tc main_v1)
    _ = W10 m ρ c (Proc.devRef .tc main_v1) := W11_of_ne m ρ c main_v1 (by decide)
    _ = W9 m ρ c (Proc.devRef .tc main_v1) := StableHlo.after_of_forall_not_mem (b := (Proc.devRef .tc main_v1)) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v3_1_2 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem keep_v3_2_4 (c : Dev nD) : W4 m ρ c (Proc.devRef .tc main_v3) = W2 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := (Proc.devRef .tc main_v3)) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v3_4_7 (c : Dev nD) : W7 m ρ c (Proc.devRef .tc main_v3) = W4 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := StableHlo.after_of_forall_not_mem (b := (Proc.devRef .tc main_v3)) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v3_7_9 (c : Dev nD) : W9 m ρ c (Proc.devRef .tc main_v3) = W7 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := StableHlo.after_of_forall_not_mem (b := (Proc.devRef .tc main_v3)) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v3_9_11 (c : Dev nD) : W11 m ρ c (Proc.devRef .tc main_v3) = W9 m ρ c (Proc.devRef .tc main_v3) :=
  calc W11 m ρ c (Proc.devRef .tc main_v3)
    _ = W10 m ρ c (Proc.devRef .tc main_v3) := W11_of_ne m ρ c main_v3 (by decide)
    _ = W9 m ρ c (Proc.devRef .tc main_v3) := StableHlo.after_of_forall_not_mem (b := (Proc.devRef .tc main_v3)) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.KFold

end
-- ==== Proof.KAt.lean ====
/-
  What the later segments find in the buffers nothing rewrites: the edges' endpoint columns, cut once by the first host
  stretch, and the arguments, each at the boundaries where a stretch or a launch reads it.
-/
import proofs.«146821_j20100446946148_1_alg».proof.Proof.KStages
import proofs.«146821_j20100446946148_1_alg».proof.Proof.KKeepArgs
import proofs.«146821_j20100446946148_1_alg».proof.Proof.KKeepIdx

set_option maxRecDepth 16384

noncomputable section

namespace Cert.KernelIdeal.KFold

open Cert.KernelIdeal Cert.KernelIdeal.Gen
open Idealize.ShloMosaic Idealize.ShloMosaic.TcCoe Idealize.ShloMosaic.Tactic
open Idealize.SL Idealize.SL.Sem
open Cert.Sage

variable (m : (ℓ : Loc nD τ sig) → Buf (Elt Ideal) ℓ) (ρ : Dev nD → PrngReg)

/-! ## The endpoint columns and the weights at the boundaries where they are read -/

theorem src_at1 (c : Dev nD) : W1 m ρ c (Proc.devRef .tc main_v1) = srcV m ρ c := host0_src m ρ c
theorem dst_at1 (c : Dev nD) : W1 m ρ c (Proc.devRef .tc main_v3) = dstV m ρ c := host0_dst m ρ c
theorem src_at2 (c : Dev nD) : W2 m ρ c (Proc.devRef .tc main_v1) = srcV m ρ c := (keep_v1_1_2 m ρ c).trans (src_at1 m ρ c)
theorem dst_at2 (c : Dev nD) : W2 m ρ c (Proc.devRef .tc main_v3) = dstV m ρ c := (keep_v3_1_2 m ρ c).trans (dst_at1 m ρ c)
theorem src_at4 (c : Dev nD) : W4 m ρ c (Proc.devRef .tc main_v1) = srcV m ρ c := (keep_v1_2_4 m ρ c).trans (src_at2 m ρ c)
theorem dst_at4 (c : Dev nD) : W4 m ρ c (Proc.devRef .tc main_v3) = dstV m ρ c := (keep_v3_2_4 m ρ c).trans (dst_at2 m ρ c)
theorem src_at7 (c : Dev nD) : W7 m ρ c (Proc.devRef .tc main_v1) = srcV m ρ c := (keep_v1_4_7 m ρ c).trans (src_at4 m ρ c)
theorem dst_at7 (c : Dev nD) : W7 m ρ c (Proc.devRef .tc main_v3) = dstV m ρ c := (keep_v3_4_7 m ρ c).trans (dst_at4 m ρ c)
theorem src_at9 (c : Dev nD) : W9 m ρ c (Proc.devRef .tc main_v1) = srcV m ρ c := (keep_v1_7_9 m ρ c).trans (src_at7 m ρ c)
theorem dst_at9 (c : Dev nD) : W9 m ρ c (Proc.devRef .tc main_v3) = dstV m ρ c := (keep_v3_7_9 m ρ c).trans (dst_at7 m ρ c)
theorem src_at11 (c : Dev nD) : W11 m ρ c (Proc.devRef .tc main_v1) = srcV m ρ c := (keep_v1_9_11 m ρ c).trans (src_at9 m ρ c)
theorem dst_at11 (c : Dev nD) : W11 m ρ c (Proc.devRef .tc main_v3) = dstV m ρ c := (keep_v3_9_11 m ρ c).trans (dst_at9 m ρ c)

theorem arg0_at1 (c : Dev nD) : W1 m ρ c (Proc.devRef .tc main_arg0) = a0 m ρ c := keep_arg0_0_1 m ρ c
theorem arg0_at6 (c : Dev nD) : W6 m ρ c (Proc.devRef .tc main_arg0) = a0 m ρ c := (keep_arg0_1_6 m ρ c).trans (keep_arg0_0_1 m ρ c)
theorem arg2_at6 (c : Dev nD) : W6 m ρ c (Proc.devRef .tc main_arg2) = a2 m ρ c := keep_arg2_0_6 m ρ c
theorem arg3_at7 (c : Dev nD) : W7 m ρ c (Proc.devRef .tc main_arg3) = a3 m ρ c := keep_arg3_0_7 m ρ c
theorem arg4_at7 (c : Dev nD) : W7 m ρ c (Proc.devRef .tc main_arg4) = a4 m ρ c := keep_arg4_0_7 m ρ c
theorem arg5_at7 (c : Dev nD) : W7 m ρ c (Proc.devRef .tc main_arg5) = a5 m ρ c := keep_arg5_0_7 m ρ c
theorem arg6_at2 (c : Dev nD) : W2 m ρ c (Proc.devRef .tc main_arg6) = a6 m ρ c := keep_arg6_0_2 m ρ c
theorem arg6_at9 (c : Dev nD) : W9 m ρ c (Proc.devRef .tc main_arg6) = a6 m ρ c := (keep_arg6_2_9 m ρ c).trans (keep_arg6_0_2 m ρ c)
theorem arg7_at2 (c : Dev nD) : W2 m ρ c (Proc.devRef .tc main_arg7) = a7 m ρ c := keep_arg7_0_2 m ρ c
theorem arg7_at9 (c : Dev nD) : W9 m ρ c (Proc.devRef .tc main_arg7) = a7 m ρ c := (keep_arg7_2_9 m ρ c).trans (keep_arg7_0_2 m ρ c)
theorem arg8_at2 (c : Dev nD) : W2 m ρ c (Proc.devRef .tc main_arg8) = a8 m ρ c := keep_arg8_0_2 m ρ c
theorem arg8_at9 (c : Dev nD) : W9 m ρ c (Proc.devRef .tc main_arg8) = a8 m ρ c := (keep_arg8_2_9 m ρ c).trans (keep_arg8_0_2 m ρ c)
theorem arg9_at4 (c : Dev nD) : W4 m ρ c (Proc.devRef .tc main_arg9) = a9 m ρ c := keep_arg9_0_4 m ρ c
theorem arg9_at11 (c : Dev nD) : W11 m ρ c (Proc.devRef .tc main_arg9) = a9 m ρ c := (keep_arg9_4_11 m ρ c).trans (keep_arg9_0_4 m ρ c)
theorem arg10_at4 (c : Dev nD) : W4 m ρ c (Proc.devRef .tc main_arg10) = a10 m ρ c := keep_arg10_0_4 m ρ c
theorem arg10_at11 (c : Dev nD) : W11 m ρ c (Proc.devRef .tc main_arg10) = a10 m ρ c := (keep_arg10_4_11 m ρ c).trans (keep_arg10_0_4 m ρ c)
theorem arg11_at4 (c : Dev nD) : W4 m ρ c (Proc.devRef .tc main_arg11) = a11 m ρ c := keep_arg11_0_4 m ρ c
theorem arg11_at11 (c : Dev nD) : W11 m ρ c (Proc.devRef .tc main_arg11) = a11 m ρ c := (keep_arg11_4_11 m ρ c).trans (keep_arg11_0_4 m ρ c)

end Cert.KernelIdeal.KFold

end
-- ==== Proof.KKeepVals.lean ====
/-
  A layer's output array is written by its launch and by nothing after it: the next stretch gathers from it, the next
  launch reads it through an input window, and those that are results of the program stay to the end.
-/
import proofs.«146821_j20100446946148_1_alg».proof.Proof.Gen.KernelIdeal.Frame
import Idealize.ShloMosaic.PureOps.Ideal

set_option maxRecDepth 16384

noncomputable section

namespace Cert.KernelIdeal.KFold

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

theorem keep_v26_2_3 (c : Dev nD) : W3 m ρ c (Proc.devRef .tc main_v26) = W2 m ρ c (Proc.devRef .tc main_v26) :=
  calc W3 m ρ c (Proc.devRef .tc main_v26)
    _ = W2 m ρ c (Proc.devRef .tc main_v26) := StableHlo.after_of_forall_not_mem (b := (Proc.devRef .tc main_v26)) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v49_4_5 (c : Dev nD) : W5 m ρ c (Proc.devRef .tc main_v49) = W4 m ρ c (Proc.devRef .tc main_v49) :=
  calc W5 m ρ c (Proc.devRef .tc main_v49)
    _ = W4 m ρ c (Proc.devRef .tc main_v49) := StableHlo.after_of_forall_not_mem (b := (Proc.devRef .tc main_v49)) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v49_5_13 (c : Dev nD) : W13 m ρ c (Proc.devRef .tc main_v49) = W5 m ρ c (Proc.devRef .tc main_v49) :=
  calc W13 m ρ c (Proc.devRef .tc main_v49)
    _ = W12 m ρ c (Proc.devRef .tc main_v49) := W13_of_ne m ρ c main_v49 (by decide)
    _ = W11 m ρ c (Proc.devRef .tc main_v49) := StableHlo.after_of_forall_not_mem (b := (Proc.devRef .tc main_v49)) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v49) := W11_of_ne m ρ c main_v49 (by decide)
    _ = W9 m ρ c (Proc.devRef .tc main_v49) := StableHlo.after_of_forall_not_mem (b := (Proc.devRef .tc main_v49)) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v49) := W9_of_ne m ρ c main_v49 (by decide)
    _ = W7 m ρ c (Proc.devRef .tc main_v49) := StableHlo.after_of_forall_not_mem (b := (Proc.devRef .tc main_v49)) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v49) := W7_of_ne m ρ c main_v49 (by decide)
    _ = W5 m ρ c (Proc.devRef .tc main_v49) := (W6_arr m ρ c 1).trans (((dat2 (V5 m ρ) c).arrAt_in 1 rfl _).trans (A_eq2 (V5 m ρ) c 1))

theorem keep_v73_7_8 (c : Dev nD) : W8 m ρ c (Proc.devRef .tc main_v73) = W7 m ρ c (Proc.devRef .tc main_v73) :=
  calc W8 m ρ c (Proc.devRef .tc main_v73)
    _ = W7 m ρ c (Proc.devRef .tc main_v73) := StableHlo.after_of_forall_not_mem (b := (Proc.devRef .tc main_v73)) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v96_9_10 (c : Dev nD) : W10 m ρ c (Proc.devRef .tc main_v96) = W9 m ρ c (Proc.devRef .tc main_v96) :=
  calc W10 m ρ c (Proc.devRef .tc main_v96)
    _ = W9 m ρ c (Proc.devRef .tc main_v96) := StableHlo.after_of_forall_not_mem (b := (Proc.devRef .tc main_v96)) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v119_11_12 (c : Dev nD) : W12 m ρ c (Proc.devRef .tc main_v119) = W11 m ρ c (Proc.devRef .tc main_v119) :=
  calc W12 m ρ c (Proc.devRef .tc main_v119)
    _ = W11 m ρ c (Proc.devRef .tc main_v119) := StableHlo.after_of_forall_not_mem (b := (Proc.devRef .tc main_v119)) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v119_12_13 (c : Dev nD) : W13 m ρ c (Proc.devRef .tc main_v119) = W12 m ρ c (Proc.devRef .tc main_v119) :=
  calc W13 m ρ c (Proc.devRef .tc main_v119)
    _ = W12 m ρ c (Proc.devRef .tc main_v119) := (W13_arr m ρ c 1).trans (((dat6 (V12 m ρ) c).arrAt_in 1 rfl _).trans (A_eq6 (V12 m ρ) c 1))

theorem keep_v72_0_6_13 (c : Dev nD) : W13 m ρ c (Proc.devRef .tc main_v72_0) = W6 m ρ c (Proc.devRef .tc main_v72_0) :=
  calc W13 m ρ c (Proc.devRef .tc main_v72_0)
    _ = W12 m ρ c (Proc.devRef .tc main_v72_0) := W13_of_ne m ρ c main_v72_0 (by decide)
    _ = W11 m ρ c (Proc.devRef .tc main_v72_0) := StableHlo.after_of_forall_not_mem (b := (Proc.devRef .tc main_v72_0)) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v72_0) := W11_of_ne m ρ c main_v72_0 (by decide)
    _ = W9 m ρ c (Proc.devRef .tc main_v72_0) := StableHlo.after_of_forall_not_mem (b := (Proc.devRef .tc main_v72_0)) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v72_0) := W9_of_ne m ρ c main_v72_0 (by decide)
    _ = W7 m ρ c (Proc.devRef .tc main_v72_0) := StableHlo.after_of_forall_not_mem (b := (Proc.devRef .tc main_v72_0)) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v72_0) := W7_of_ne m ρ c main_v72_0 (by decide)

theorem keep_v72_1_6_13 (c : Dev nD) : W13 m ρ c (Proc.devRef .tc main_v72_1) = W6 m ρ c (Proc.devRef .tc main_v72_1) :=
  calc W13 m ρ c (Proc.devRef .tc main_v72_1)
    _ = W12 m ρ c (Proc.devRef .tc main_v72_1) := W13_of_ne m ρ c main_v72_1 (by decide)
    _ = W11 m ρ c (Proc.devRef .tc main_v72_1) := StableHlo.after_of_forall_not_mem (b := (Proc.devRef .tc main_v72_1)) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v72_1) := W11_of_ne m ρ c main_v72_1 (by decide)
    _ = W9 m ρ c (Proc.devRef .tc main_v72_1) := StableHlo.after_of_forall_not_mem (b := (Proc.devRef .tc main_v72_1)) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v72_1) := W9_of_ne m ρ c main_v72_1 (by decide)
    _ = W7 m ρ c (Proc.devRef .tc main_v72_1) := StableHlo.after_of_forall_not_mem (b := (Proc.devRef .tc main_v72_1)) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v72_1) := W7_of_ne m ρ c main_v72_1 (by decide)

end Cert.KernelIdeal.KFold

end
-- ==== Proof.HiddenBody.lean ====
/-
  One element of a hidden layer's block.

  At row `r` and output column `q` of a block of 5000 rows the body leaves
      max ((∑ₖ agg[r,k] · Wl[q,k]) + (∑ₖ x[r,k] · Wr[q,k]) + b[0,q]) 0 :
  each matrix product contracts the block's row with a row of the weight block (the body transposes the weights
  before the product), the change of float format is the identity on the extended reals, the products accumulate
  into zero, and the one-row bias is repeated down the rows.
-/
import proofs.«146821_j20100446946148_1_alg».proof.Proof.Spec
import proofs.«146821_j20100446946148_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.KVal

open Cert.KernelIdeal Cert.KernelIdeal.Gen Idealize.ShloMosaic Idealize.ShloMosaic.ValueIdx

/-- The contraction of a 5000 × 128 block with a 128 × 128 one over the shared axis. -/
abbrev rowDot : DotDims S5000x128 S128x128 S5000x128 := dot_S5000x128_S128x128_S5000x128_1_0_0_1_n_n

/-- The left operand is read on its row axis at the output's row, … -/
theorem rowDot_lhs_row (i : S5000x128.Idx) (p : rowDot.contr.Idx) : (rowDot.lhsIdx i p 0).val = (i 0).val := by
  unfold DotDims.lhsIdx
  rw [dif_neg (show ¬(0 : Fin S5000x128.rank) ∈ rowDot.lhsBatch by decide),
    dif_pos (show (0 : Fin S5000x128.rank) ∈ rowDot.lhsNonContracting by decide)]
  rfl
/-- … on its column axis at the contraction's coordinate; -/
theorem rowDot_lhs_col (i : S5000x128.Idx) (p : rowDot.contr.Idx) : (rowDot.lhsIdx i p 1).val = (p ⟨0, by decide⟩).val :=
  rowDot.lhsIdx_val_of_single rfl i p
/-- the right operand on its row axis at the contraction's coordinate, … -/
theorem rowDot_rhs_row (i : S5000x128.Idx) (p : rowDot.contr.Idx) : (rowDot.rhsIdx i p 0).val = (p ⟨0, by decide⟩).val :=
  rowDot.rhsIdx_val_of_single rfl i p
/-- … on its column axis at the output's column. -/
theorem rowDot_rhs_col (i : S5000x128.Idx) (p : rowDot.contr.Idx) : (rowDot.rhsIdx i p 1).val = (i 1).val := by
  unfold DotDims.rhsIdx
  rw [dif_neg (show ¬(1 : Fin S128x128.rank) ∈ rowDot.rhsBatch by decide),
    dif_pos (show (1 : Fin S128x128.rank) ∈ rowDot.rhsNonContracting by decide)]
  rfl

/-- A block times the transpose of a weight block, accumulated into zero, at row `r` and column `q`: the block's
    row `r` against the weight's row `q`. -/
theorem matmul_transpose_apply (lhs : FVec Ideal S5000x128 .bf16) (W : FVec Ideal S128x128 .bf16) (r : Fin 5000) (q : Fin 128) :
    matmul rowDot none lhs (transpose S128x128 [1, 0] W transposes_S128x128_p1_0_S128x128)
        (constant S5000x128 .f32 0x00000000#32) (ix2 r q)
      = ∑ k : Fin 128, lhs (ix2 r k) * W (ix2 q k) := by
  simp only [matmul]
  rw [Ideal.matmul_constant_zero_apply, ← Equiv.sum_comp (contrEquiv1 rowDot 128 rfl rfl).symm]
  refine Finset.sum_congr rfl fun k _ => ?_
  have hk := contrEquiv1_symm_val rowDot 128 rfl rfl k
  have el : rowDot.lhsIdx (ix2 r q) ((contrEquiv1 rowDot 128 rfl rfl).symm k) = ix2 r k := funext fun a => Fin.ext (by
    match a with
    | ⟨0, _⟩ => exact rowDot_lhs_row _ _
    | ⟨1, _⟩ => exact (rowDot_lhs_col _ _).trans hk)
  have er : rowDot.rhsIdx (ix2 r q) ((contrEquiv1 rowDot 128 rfl rfl).symm k) = ix2 k q := funext fun a => Fin.ext (by
    match a with
    | ⟨0, _⟩ => exact (rowDot_rhs_row _ _).trans hk
    | ⟨1, _⟩ => exact rowDot_rhs_col _ _)
  rw [el, er]
  exact congrArg (lhs (ix2 r k) * ·)
    (transpose_apply [1, 0] W transposes_S128x128_p1_0_S128x128 (ix2 k q) (ix2 q k) (fun b => match b with
      | ⟨0, _⟩ => rfl
      | ⟨1, _⟩ => rfl))

/-- The one-row bias repeated down the rows, at row `r` and column `q`: its entry at column `q`. -/
theorem bias_rows_apply (b : FVec Ideal S1x128 .f32) (r : Fin 5000) (q : Fin 128) :
    broadcastTo S5000x128 b broadcasts_S1x128_S5000x128 (ix2 r q) = b (ix2 (0 : Fin 1) q) :=
  broadcastTo_apply b broadcasts_S1x128_S5000x128 (ix2 r q) (ix2 (0 : Fin 1) q) (fun a => match a with
    | ⟨0, _⟩ => rfl
    | ⟨1, _⟩ => rfl)

/-- What the body leaves at row `r`, column `q` of a block, from the loaded blocks. -/
def hidAt (agg x : Vec Ideal S5000x128 .f32) (Wl Wr : Vec Ideal S128x128 .bf16) (b : Vec Ideal S1x128 .f32)
    (r : Fin 5000) (q : Fin 128) : EReal :=
  max ((∑ k : Fin 128, agg (ix2 r k) * Wl (ix2 q k)) + (∑ k : Fin 128, x (ix2 r k) * Wr (ix2 q k)) + b (ix2 (0 : Fin 1) q))
    (Ideal.ofBits .f32 0x00000000#32)

/-- The first hidden layer's body at an element. -/
theorem k0_pay1_apply (v0 v3 : Vec Ideal S5000x128 .f32) (v5 v7 : Vec Ideal S128x128 .bf16) (v9 : Vec Ideal S1x128 .f32)
    (r : Fin 5000) (q : Fin 128) :
    k0_pay1 (F := Ideal) v0 v3 v5 v7 v9 (ix2 r q) = hidAt v0 v3 v5 v7 v9 r q := by
  unfold k0_pay1 hidAt
  simp only [shapeCast_self]
  rw [maximumf_apply, addf_apply, addf_apply]
  refine congrArg₂ max (congrArg₂ (· + ·) (congrArg₂ (· + ·) ?_ ?_) ?_) rfl
  · exact matmul_transpose_apply _ v5 r q
  · exact matmul_transpose_apply _ v7 r q
  · exact bias_rows_apply v9 r q

/-- The later hidden layers' body (the same operations, one more cast of `x` to its own shape) at an element. -/
theorem k1_pay1_apply (v0 v3 : Vec Ideal S5000x128 .f32) (v6 v8 : Vec Ideal S128x128 .bf16) (v10 : Vec Ideal S1x128 .f32)
    (r : Fin 5000) (q : Fin 128) :
    k1_pay1 (F := Ideal) v0 v3 v6 v8 v10 (ix2 r q) = hidAt v0 v3 v6 v8 v10 r q := by
  unfold k1_pay1 hidAt
  simp only [shapeCast_self]
  rw [maximumf_apply, addf_apply, addf_apply]
  refine congrArg₂ max (congrArg₂ (· + ·) (congrArg₂ (· + ·) ?_ ?_) ?_) rfl
  · exact matmul_transpose_apply _ v6 r q
  · exact matmul_transpose_apply _ v8 r q
  · exact bias_rows_apply v10 r q

theorem k4_pay1_apply (v0 v3 : Vec Ideal S5000x128 .f32) (v6 v8 : Vec Ideal S128x128 .bf16) (v10 : Vec Ideal S1x128 .f32)
    (r : Fin 5000) (q : Fin 128) :
    k4_pay1 (F := Ideal) v0 v3 v6 v8 v10 (ix2 r q) = hidAt v0 v3 v6 v8 v10 r q :=
  k1_pay1_apply v0 v3 v6 v8 v10 r q

theorem k5_pay1_apply (v0 v3 : Vec Ideal S5000x128 .f32) (v6 v8 : Vec Ideal S128x128 .bf16) (v10 : Vec Ideal S1x128 .f32)
    (r : Fin 5000) (q : Fin 128) :
    k5_pay1 (F := Ideal) v0 v3 v6 v8 v10 (ix2 r q) = hidAt v0 v3 v6 v8 v10 r q :=
  k1_pay1_apply v0 v3 v6 v8 v10 r q

/-- A block's element against the whole arrays: when row `r` of the two loaded row blocks is row `R` of the arrays, and the
    weight and bias blocks are the arrays, the body's element is the hidden layer's at row `R`, column `q`. -/
theorem hidAt_eq_hid128 (A X : Cert.Sage.Arr 50000 128) (Wl Wr : Cert.Sage.Arr 128 128) (B : Cert.Sage.Arr 1 128)
    (x0 x1 : Vec Ideal S5000x128 .f32) (x2 x4 : Vec Ideal S128x128 .bf16) (x3 : Vec Ideal S1x128 .f32)
    (r : Fin 5000) (q : Fin 128) (R : Fin 50000)
    (h0 : ∀ k : Fin 128, x0 (ix2 r k) = A (ix2 R k)) (h1 : ∀ k : Fin 128, x1 (ix2 r k) = X (ix2 R k))
    (h2 : ∀ k : Fin 128, x2 (ix2 q k) = Wl (ix2 q k)) (h4 : ∀ k : Fin 128, x4 (ix2 q k) = Wr (ix2 q k))
    (h3 : x3 (ix2 (0 : Fin 1) q) = B (ix2 (0 : Fin 1) q)) :
    hidAt x0 x1 x2 x4 x3 r q = Cert.Sage.hid128 A X Wl Wr (Cert.Sage.rowOf B) R q := by
  unfold hidAt Cert.Sage.hid128 Cert.Sage.lin128
  rw [Cert.Sage.rowOf_ix1, h3]
  simp only [h0, h1, h2, h4]

end Cert.KernelIdeal.KVal

end
-- ==== Proof.HiddenRegion0.lean ====
/-
  The hidden layer of region 0 as one array.

  Each of the ten grid points writes back a block of 5000 rows; the block at point `t` is rows `5000 t … 5000 t + 4999` of
  the layer's output: the two row blocks it loads are those rows of the neighbourhood means and of the features, the
  weight blocks and the bias are whole arrays at every point. The ten blocks cover the 50000 rows (row `ρ` is in
  block `ρ / 5000`), so the output array ends holding the layer's function of the arrays the region finds.
-/
import proofs.«146821_j20100446946148_1_alg».proof.Proof.Spec
import proofs.«146821_j20100446946148_1_alg».proof.Proof.HiddenBody
import proofs.«146821_j20100446946148_1_alg».proof.Proof.Gen.KernelIdeal.Frame
import Idealize.ShloMosaic.Lib.Pipeline.Value

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The layer's output as a function of the arrays the region finds. -/
abbrev hidden0 (c : Dev nD) : Cert.Sage.Arr 50000 128 :=
  Cert.Sage.arr2 (Cert.Sage.hid128 (V c main_v22) (V c main_arg0) (V c main_v23) (V c main_v24) (Cert.Sage.rowOf (V c main_v25)))

theorem origin0 : (![0, 0] : Fin 2 → Nat) = fun _ => 0 := funext fun a => by fin_cases a <;> rfl

/-- The index maps over the grid: the row blocks move with the point, the weights and the bias stay. -/
theorem block_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the layer's output. -/
theorem flushed0_eq (c : Dev nD) (t : Fin cfg0.N) :
    (dat0 (F := Ideal) V c).flushed 5 t = ((cfg0.win 5).blk t).view.read (Elt Ideal) (hidden0 V c) := by
  show (cfg0.win 5).cut (grid0.coords t) ((dat0 (F := Ideal) V c).after 5 t) = _
  rw [after0_5]
  unfold out0_5
  rw [View.canon_unit_zero origin0]
  simp only [View.ld_unit_zero (S := S5000x128) origin0, View.ld_unit_zero (S := S128x128) origin0,
    View.ld_unit_zero (S := S1x128) origin0]
  obtain ⟨e00, e01, e10, e11, e20, e21, e30, e31, e40, e41, e50, e51⟩ := block_index0 t
  have hN : cfg0.N = 10 := N_0
  have htN : t.val < cfg0.N := t.isLt
  funext j
  obtain ⟨r, q, rfl⟩ : ∃ (r : Fin 5000) (q : Fin 128), j = ix2 r q := ⟨j 0, j 1, eq_ix2 j⟩
  have hr : r.val < 5000 := r.isLt
  have hR : t.val * 5000 + r.val < 50000 := by omega
  show k0_pay1 (F := Ideal) (iblk0 V c 0 t) (iblk0 V c 1 t) (iblk0 V c 2 t) (iblk0 V c 4 t) (iblk0 V c 3 t) (ix2 r q)
      = hidden0 V c (((cfg0.win 5).blk t).view.emb (ix2 r q))
  refine (k0_pay1_apply (iblk0 V c 0 t) (iblk0 V c 1 t) (iblk0 V c 2 t) (iblk0 V c 4 t) (iblk0 V c 3 t) r q).trans ?_
  have hemb : ((cfg0.win 5).blk t).view.emb (ix2 r q) = (ix2 (⟨t.val * 5000 + r.val, hR⟩ : Fin 50000) q : S50000x128.Idx) := by
    funext a
    apply Fin.ext
    match a with
    | ⟨0, _⟩ => show win0_5.index t (0 : Fin 2) * 5000 + 1 * r.val = t.val * 5000 + r.val; omega
    | ⟨1, _⟩ => show win0_5.index t (1 : Fin 2) * 128 + 1 * q.val = q.val; omega
  refine Eq.trans ?_ (congrArg (hidden0 V c) hemb).symm
  show _ = Cert.Sage.hid128 (V c main_v22) (V c main_arg0) (V c main_v23) (V c main_v24) (Cert.Sage.rowOf (V c main_v25)) ⟨t.val * 5000 + r.val, hR⟩ q
  refine hidAt_eq_hid128 (V c main_v22) (V c main_arg0) (V c main_v23) (V c main_v24) (V c main_v25)
    (iblk0 V c 0 t) (iblk0 V c 1 t) (iblk0 V c 2 t) (iblk0 V c 4 t) (iblk0 V c 3 t) r q ⟨t.val * 5000 + r.val, hR⟩ ?_ ?_ ?_ ?_ ?_
  · intro k
    show (V c main_v22 : S50000x128.Idx → EReal) (((cfg0.win 0).blk t).view.emb (ix2 r k)) = (V c main_v22 : S50000x128.Idx → EReal) (ix2 ⟨t.val * 5000 + r.val, hR⟩ k)
    refine congrArg (V c main_v22 : S50000x128.Idx → EReal) (funext fun a => Fin.ext ?_)
    match a with
    | ⟨0, _⟩ => show win0_0.index t (0 : Fin 2) * 5000 + 1 * r.val = t.val * 5000 + r.val; omega
    | ⟨1, _⟩ => show win0_0.index t (1 : Fin 2) * 128 + 1 * k.val = k.val; omega
  · intro k
    show (V c main_arg0 : S50000x128.Idx → EReal) (((cfg0.win 1).blk t).view.emb (ix2 r k)) = (V c main_arg0 : S50000x128.Idx → EReal) (ix2 ⟨t.val * 5000 + r.val, hR⟩ k)
    refine congrArg (V c main_arg0 : S50000x128.Idx → EReal) (funext fun a => Fin.ext ?_)
    match a with
    | ⟨0, _⟩ => show win0_1.index t (0 : Fin 2) * 5000 + 1 * r.val = t.val * 5000 + r.val; omega
    | ⟨1, _⟩ => show win0_1.index t (1 : Fin 2) * 128 + 1 * k.val = k.val; omega
  · intro k
    show (V c main_v23 : S128x128.Idx → EReal) (((cfg0.win 2).blk t).view.emb (ix2 q k)) = (V c main_v23 : S128x128.Idx → EReal) (ix2 q k)
    refine congrArg (V c main_v23 : S128x128.Idx → EReal) (funext fun a => Fin.ext ?_)
    match a with
    | ⟨0, _⟩ => show win0_2.index t (0 : Fin 2) * 128 + 1 * q.val = q.val; omega
    | ⟨1, _⟩ => show win0_2.index t (1 : Fin 2) * 128 + 1 * k.val = k.val; omega
  · intro k
    show (V c main_v24 : S128x128.Idx → EReal) (((cfg0.win 4).blk t).view.emb (ix2 q k)) = (V c main_v24 : S128x128.Idx → EReal) (ix2 q k)
    refine congrArg (V c main_v24 : S128x128.Idx → EReal) (funext fun a => Fin.ext ?_)
    match a with
    | ⟨0, _⟩ => show win0_4.index t (0 : Fin 2) * 128 + 1 * q.val = q.val; omega
    | ⟨1, _⟩ => show win0_4.index t (1 : Fin 2) * 128 + 1 * k.val = k.val; omega
  · show (V c main_v25 : S1x128.Idx → EReal) (((cfg0.win 3).blk t).view.emb (ix2 (0 : Fin 1) q)) = (V c main_v25 : S1x128.Idx → EReal) (ix2 (0 : Fin 1) q)
    refine congrArg (V c main_v25 : S1x128.Idx → EReal) (funext fun a => Fin.ext ?_)
    match a with
    | ⟨0, _⟩ => show win0_3.index t (0 : Fin 2) * 1 + 1 * 0 = 0; omega
    | ⟨1, _⟩ => show win0_3.index t (1 : Fin 2) * 128 + 1 * q.val = q.val; omega

/-- An index of the output array is in point `t`'s block iff each coordinate is in the block's range on its axis. -/
theorem mem_block0 (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v26).slice (win0_5.rect t)).set ↔ _
  rw [View.set_slice_whole, Rect.mem_set_unit]
  exact Iff.rfl

/-- Every row is in the block of the point `row / 5000`. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, -, -, -, -, e50, e51⟩ := block_index0 t
  refine ⟨t, flush0_5 t, ?_⟩
  rw [mem_block0]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- The region's output array after its ten write-backs. -/
theorem region0_value (c : Dev nD) :
    (dat0 (F := Ideal) V c).arrAt 5 cfg0.N
      = Cert.Sage.arr2 (Cert.Sage.hid128 (V c main_v22) (V c main_arg0) (V c main_v23) (V c main_v24) (Cert.Sage.rowOf (V c main_v25))) :=
  (dat0 (F := Ideal) V c).arrAt_eq_of_cover 5 (hidden0 V c) (fun t _ => flushed0_eq V c t) (cover0)

end Cert.KernelIdeal.KVal

end
-- ==== Proof.HiddenRegion1.lean ====
/-
  The hidden layer of region 1 as one array.

  Each of the ten grid points writes back a block of 5000 rows; the block at point `t` is rows `5000 t … 5000 t + 4999` of
  the layer's output: the two row blocks it loads are those rows of the neighbourhood means and of the features, the
  weight blocks and the bias are whole arrays at every point. The ten blocks cover the 50000 rows (row `ρ` is in
  block `ρ / 5000`), so the output array ends holding the layer's function of the arrays the region finds.
-/
import proofs.«146821_j20100446946148_1_alg».proof.Proof.Spec
import proofs.«146821_j20100446946148_1_alg».proof.Proof.HiddenBody
import proofs.«146821_j20100446946148_1_alg».proof.Proof.Gen.KernelIdeal.Frame
import Idealize.ShloMosaic.Lib.Pipeline.Value

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The layer's output as a function of the arrays the region finds. -/
abbrev hidden1 (c : Dev nD) : Cert.Sage.Arr 50000 128 :=
  Cert.Sage.arr2 (Cert.Sage.hid128 (V c main_v45) (V c main_v26) (V c main_v46) (V c main_v47) (Cert.Sage.rowOf (V c main_v48)))

theorem origin1 : (![0, 0] : Fin 2 → Nat) = fun _ => 0 := funext fun a => by fin_cases a <;> rfl

/-- The index maps over the grid: the row blocks move with the point, the weights and the bias stay. -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the layer's output. -/
theorem flushed1_eq (c : Dev nD) (t : Fin cfg1.N) :
    (dat1 (F := Ideal) V c).flushed 5 t = ((cfg1.win 5).blk t).view.read (Elt Ideal) (hidden1 V c) := by
  show (cfg1.win 5).cut (grid1.coords t) ((dat1 (F := Ideal) V c).after 5 t) = _
  rw [after1_5]
  unfold out1_5
  rw [View.canon_unit_zero origin1]
  simp only [View.ld_unit_zero (S := S5000x128) origin1, View.ld_unit_zero (S := S128x128) origin1,
    View.ld_unit_zero (S := S1x128) origin1]
  obtain ⟨e00, e01, e10, e11, e20, e21, e30, e31, e40, e41, e50, e51⟩ := block_index1 t
  have hN : cfg1.N = 10 := N_1
  have htN : t.val < cfg1.N := t.isLt
  funext j
  obtain ⟨r, q, rfl⟩ : ∃ (r : Fin 5000) (q : Fin 128), j = ix2 r q := ⟨j 0, j 1, eq_ix2 j⟩
  have hr : r.val < 5000 := r.isLt
  have hR : t.val * 5000 + r.val < 50000 := by omega
  show k1_pay1 (F := Ideal) (iblk1 V c 0 t) (iblk1 V c 1 t) (iblk1 V c 2 t) (iblk1 V c 4 t) (iblk1 V c 3 t) (ix2 r q)
      = hidden1 V c (((cfg1.win 5).blk t).view.emb (ix2 r q))
  refine (k1_pay1_apply (iblk1 V c 0 t) (iblk1 V c 1 t) (iblk1 V c 2 t) (iblk1 V c 4 t) (iblk1 V c 3 t) r q).trans ?_
  have hemb : ((cfg1.win 5).blk t).view.emb (ix2 r q) = (ix2 (⟨t.val * 5000 + r.val, hR⟩ : Fin 50000) q : S50000x128.Idx) := by
    funext a
    apply Fin.ext
    match a with
    | ⟨0, _⟩ => show win1_5.index t (0 : Fin 2) * 5000 + 1 * r.val = t.val * 5000 + r.val; omega
    | ⟨1, _⟩ => show win1_5.index t (1 : Fin 2) * 128 + 1 * q.val = q.val; omega
  refine Eq.trans ?_ (congrArg (hidden1 V c) hemb).symm
  show _ = Cert.Sage.hid128 (V c main_v45) (V c main_v26) (V c main_v46) (V c main_v47) (Cert.Sage.rowOf (V c main_v48)) ⟨t.val * 5000 + r.val, hR⟩ q
  refine hidAt_eq_hid128 (V c main_v45) (V c main_v26) (V c main_v46) (V c main_v47) (V c main_v48)
    (iblk1 V c 0 t) (iblk1 V c 1 t) (iblk1 V c 2 t) (iblk1 V c 4 t) (iblk1 V c 3 t) r q ⟨t.val * 5000 + r.val, hR⟩ ?_ ?_ ?_ ?_ ?_
  · intro k
    show (V c main_v45 : S50000x128.Idx → EReal) (((cfg1.win 0).blk t).view.emb (ix2 r k)) = (V c main_v45 : S50000x128.Idx → EReal) (ix2 ⟨t.val * 5000 + r.val, hR⟩ k)
    refine congrArg (V c main_v45 : S50000x128.Idx → EReal) (funext fun a => Fin.ext ?_)
    match a with
    | ⟨0, _⟩ => show win1_0.index t (0 : Fin 2) * 5000 + 1 * r.val = t.val * 5000 + r.val; omega
    | ⟨1, _⟩ => show win1_0.index t (1 : Fin 2) * 128 + 1 * k.val = k.val; omega
  · intro k
    show (V c main_v26 : S50000x128.Idx → EReal) (((cfg1.win 1).blk t).view.emb (ix2 r k)) = (V c main_v26 : S50000x128.Idx → EReal) (ix2 ⟨t.val * 5000 + r.val, hR⟩ k)
    refine congrArg (V c main_v26 : S50000x128.Idx → EReal) (funext fun a => Fin.ext ?_)
    match a with
    | ⟨0, _⟩ => show win1_1.index t (0 : Fin 2) * 5000 + 1 * r.val = t.val * 5000 + r.val; omega
    | ⟨1, _⟩ => show win1_1.index t (1 : Fin 2) * 128 + 1 * k.val = k.val; omega
  · intro k
    show (V c main_v46 : S128x128.Idx → EReal) (((cfg1.win 2).blk t).view.emb (ix2 q k)) = (V c main_v46 : S128x128.Idx → EReal) (ix2 q k)
    refine congrArg (V c main_v46 : S128x128.Idx → EReal) (funext fun a => Fin.ext ?_)
    match a with
    | ⟨0, _⟩ => show win1_2.index t (0 : Fin 2) * 128 + 1 * q.val = q.val; omega
    | ⟨1, _⟩ => show win1_2.index t (1 : Fin 2) * 128 + 1 * k.val = k.val; omega
  · intro k
    show (V c main_v47 : S128x128.Idx → EReal) (((cfg1.win 4).blk t).view.emb (ix2 q k)) = (V c main_v47 : S128x128.Idx → EReal) (ix2 q k)
    refine congrArg (V c main_v47 : S128x128.Idx → EReal) (funext fun a => Fin.ext ?_)
    match a with
    | ⟨0, _⟩ => show win1_4.index t (0 : Fin 2) * 128 + 1 * q.val = q.val; omega
    | ⟨1, _⟩ => show win1_4.index t (1 : Fin 2) * 128 + 1 * k.val = k.val; omega
  · show (V c main_v48 : S1x128.Idx → EReal) (((cfg1.win 3).blk t).view.emb (ix2 (0 : Fin 1) q)) = (V c main_v48 : S1x128.Idx → EReal) (ix2 (0 : Fin 1) q)
    refine congrArg (V c main_v48 : S1x128.Idx → EReal) (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega

/-- An index of the output array is in point `t`'s block iff each coordinate is in the block's range on its axis. -/
theorem mem_block1 (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v49).slice (win1_5.rect t)).set ↔ _
  rw [View.set_slice_whole, Rect.mem_set_unit]
  exact Iff.rfl

/-- Every row is in the block of the point `row / 5000`. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, -, -, e50, e51⟩ := block_index1 t
  refine ⟨t, flush1_5 t, ?_⟩
  rw [mem_block1]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- The region's output array after its ten write-backs. -/
theorem region1_value (c : Dev nD) :
    (dat1 (F := Ideal) V c).arrAt 5 cfg1.N
      = Cert.Sage.arr2 (Cert.Sage.hid128 (V c main_v45) (V c main_v26) (V c main_v46) (V c main_v47) (Cert.Sage.rowOf (V c main_v48))) :=
  (dat1 (F := Ideal) V c).arrAt_eq_of_cover 5 (hidden1 V c) (fun t _ => flushed1_eq V c t) (cover1)

end Cert.KernelIdeal.KVal

end
-- ==== Proof.FinalBody.lean ====
/-
  The last layer's block computation, read entry by entry.

  One grid point holds 5000 rows of the neighbourhood means `agg` and of the features `x`, the two weight
  matrices (47 rows of 128) and the bias as a one-row matrix. The first payload is the block of logits
      z[r,q] = (∑ₖ agg[r,k] · Wl[q,k]) + (∑ₖ x[r,k] · Wr[q,k]) + b[0,q],
  the second its row-wise log-softmax: each row shifted by its maximum, less the logarithm of the sum of the
  exponentials of the shifted row. Both are stated over a block's own rows; the regions' modules place the
  block inside the 50000-row arrays.
-/
import proofs.«146821_j20100446946148_1_alg».proof.Proof.Gen.KernelIdeal.Skeleton
import proofs.«146821_j20100446946148_1_alg».proof.Proof.Spec
import Idealize.ShloMosaic.Lib.ValueLayout
import Idealize.ShloMosaic.PureOps.Ideal.Laws

noncomputable section

namespace Cert.KernelIdeal.KValF

open Cert.KernelIdeal Cert.KernelIdeal.Gen Idealize.ShloMosaic Idealize.ShloMosaic.ValueIdx

/-! ## Two column forms of the layout operations -/

section Columns
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## The two reductions along a row of 47 -/

/-- The maximum over the 47 columns of row `r`, folded from -∞. -/
theorem rowMax_apply (src : FVec Ideal S5000x47 .f32) (h : S5000x47.Reduces [1] S5000)
    (hφ : FKind.Formats .f32) (hacc : (0xFF800000#32 : BitVec 32) = FKind.maximumf.neutral .f32 hφ) (r : Fin 5000) :
    multiReduction .maximumf [1] S5000 src 0xFF800000#32 h hφ hacc (ix1 r) = Cert.Sage.rowMax47 (fun k => src (ix2 r k)) := by
  refine (Ideal.multiReduction_maximumf_single src 0xFF800000#32 h hφ hacc (ix1 r)).trans ?_
  have e : (src ∘ h.lift (ix1 r)) = fun k : Fin 47 => src (ix2 r k) :=
    funext fun k => congrArg src (funext fun a => Fin.ext (by
      match a with
      | ⟨0, _⟩ => rfl
      | ⟨1, _⟩ => rfl))
  rw [e]
  rfl

/-- The sum over the 47 columns of row `r`. -/
theorem rowSum_apply (src : FVec Ideal S5000x47 .f32) (h : S5000x47.Reduces [1] S5000)
    (hφ : FKind.Formats .f32) (hacc : (0x00000000#32 : BitVec 32) = FKind.add.neutral .f32 hφ) (r : Fin 5000) :
    multiReduction .add [1] S5000 src 0x00000000#32 h hφ hacc (ix1 r) = ∑ k : Fin 47, src (ix2 r k) := by
  refine (Ideal.multiReduction_add_single src 0x00000000#32 h hφ hacc (ix1 r)).trans ?_
  refine Finset.sum_congr rfl fun k _ => congrArg src (funext fun a => Fin.ext (by
      match a with
      | ⟨0, _⟩ => rfl
      | ⟨1, _⟩ => rfl))

/-! ## A block of rows times a transposed weight matrix -/

theorem dot_lhs0 (i : S5000x47.Idx) (p : dot_S5000x128_S128x47_S5000x47_1_0_0_1_n_n.contr.Idx) :
    (dot_S5000x128_S128x47_S5000x47_1_0_0_1_n_n.lhsIdx i p 0).val = (i 0).val := by
  unfold DotDims.lhsIdx
  rw [dif_neg (show ¬(0 : Fin S5000x128.rank) ∈ dot_S5000x128_S128x47_S5000x47_1_0_0_1_n_n.lhsBatch by decide), dif_pos (show (0 : Fin S5000x128.rank) ∈ dot_S5000x128_S128x47_S5000x47_1_0_0_1_n_n.lhsNonContracting by decide)]
  rfl
theorem dot_lhs1 (i : S5000x47.Idx) (p : dot_S5000x128_S128x47_S5000x47_1_0_0_1_n_n.contr.Idx) :
    (dot_S5000x128_S128x47_S5000x47_1_0_0_1_n_n.lhsIdx i p 1).val = (p ⟨0, by decide⟩).val :=
  dot_S5000x128_S128x47_S5000x47_1_0_0_1_n_n.lhsIdx_val_of_single rfl i p
theorem dot_rhs0 (i : S5000x47.Idx) (p : dot_S5000x128_S128x47_S5000x47_1_0_0_1_n_n.contr.Idx) :
    (dot_S5000x128_S128x47_S5000x47_1_0_0_1_n_n.rhsIdx i p 0).val = (p ⟨0, by decide⟩).val :=
  dot_S5000x128_S128x47_S5000x47_1_0_0_1_n_n.rhsIdx_val_of_single rfl i p
theorem dot_rhs1 (i : S5000x47.Idx) (p : dot_S5000x128_S128x47_S5000x47_1_0_0_1_n_n.contr.Idx) :
    (dot_S5000x128_S128x47_S5000x47_1_0_0_1_n_n.rhsIdx i p 1).val = (i 1).val := by
  unfold DotDims.rhsIdx
  rw [dif_neg (show ¬(1 : Fin S128x47.rank) ∈ dot_S5000x128_S128x47_S5000x47_1_0_0_1_n_n.rhsBatch by decide), dif_pos (show (1 : Fin S128x47.rank) ∈ dot_S5000x128_S128x47_S5000x47_1_0_0_1_n_n.rhsNonContracting by decide)]
  rfl

/-- The product of a block of rows with the transpose of a 47-row weight matrix, into the zero accumulator, at
    row `r` and column `q`: the row of the block against row `q` of the matrix. The change of float format of
    the block is the identity on the extended reals. -/
theorem matmul_rows (a : FVec Ideal S5000x128 .f32) (w : FVec Ideal S47x128 .bf16) (hlt : FTy.bits .bf16 < FTy.bits .f32)
    (hT : S47x128.Transposes [1, 0] S128x47) (r : Fin 5000) (q : Fin 47) :
    matmul dot_S5000x128_S128x47_S5000x47_1_0_0_1_n_n none (truncf .bf16 a hlt) (transpose S128x47 [1, 0] w hT) (constant S5000x47 .f32 0x00000000#32) (ix2 r q)
      = ∑ k : Fin 128, a (ix2 r k) * w (ix2 q k) := by
  refine (Ideal.matmul_constant_zero_apply dot_S5000x128_S128x47_S5000x47_1_0_0_1_n_n none (truncf .bf16 a hlt) (transpose S128x47 [1, 0] w hT) (ix2 r q)).trans ?_
  rw [← Equiv.sum_comp (contrEquiv1 dot_S5000x128_S128x47_S5000x47_1_0_0_1_n_n 128 rfl rfl).symm]
  refine Finset.sum_congr rfl fun k _ => ?_
  have hk := contrEquiv1_symm_val dot_S5000x128_S128x47_S5000x47_1_0_0_1_n_n 128 rfl rfl k
  have el : dot_S5000x128_S128x47_S5000x47_1_0_0_1_n_n.lhsIdx (ix2 r q) ((contrEquiv1 dot_S5000x128_S128x47_S5000x47_1_0_0_1_n_n 128 rfl rfl).symm k) = ix2 r k := funext fun b => Fin.ext (by
    match b with
    | ⟨0, _⟩ => exact dot_lhs0 _ _
    | ⟨1, _⟩ => exact (dot_lhs1 _ _).trans hk)
  have er : dot_S5000x128_S128x47_S5000x47_1_0_0_1_n_n.rhsIdx (ix2 r q) ((contrEquiv1 dot_S5000x128_S128x47_S5000x47_1_0_0_1_n_n 128 rfl rfl).symm k) = ix2 k q := funext fun b => Fin.ext (by
    match b with
    | ⟨0, _⟩ => exact (dot_rhs0 _ _).trans hk
    | ⟨1, _⟩ => exact dot_rhs1 _ _)
  rw [el, er, transpose_ix2_apply]
  rfl

/-! ## The logits of a block -/

/-- The logits of one block at row `r`, column `q`, from the block's rows of `agg` and `x`, the two weight
    matrices and the bias row. -/
def blockLogit (agg x : Cert.Sage.Arr 5000 128) (Wl Wr : Cert.Sage.Arr 47 128) (b : Cert.Sage.Arr 1 47) (r : Fin 5000) (q : Fin 47) : EReal :=
  (∑ k : Fin 128, agg (ix2 r k) * Wl (ix2 q k)) + (∑ k : Fin 128, x (ix2 r k) * Wr (ix2 q k)) + b (ix2 (0 : Fin 1) q)

/-- The first payload at `(r, q)` is the block's logit there. -/
theorem logits_apply (x0 x3 : Vec Ideal S5000x128 .f32) (x6 x8 : Vec Ideal S47x128 .bf16) (x10 : Vec Ideal S1x47 .f32)
    (r : Fin 5000) (q : Fin 47) :
    k2_pay1 (F := Ideal) x0 x3 x6 x8 x10 (ix2 r q) = blockLogit x0 x3 x6 x8 x10 r q := by
  unfold k2_pay1 blockLogit
  simp only [shapeCast_self]
  refine (addf_apply _ _ _).trans ?_
  refine congrArg₂ (· + ·) ((addf_apply _ _ _).trans (congrArg₂ (· + ·) (matmul_rows x0 x6 _ _ r q) (matmul_rows x3 x8 _ _ r q)))
    (broadcastTo_1b_ab_apply x10 _ r q)

/-! ## The log-softmax of a block of logits -/

/-- The body's log-softmax steps on a block `Z` of logits, at `(r, q)`: the specification's log-softmax of row
    `r` of `Z` at column `q`. -/
theorem logSoftmax_apply (Z : FVec Ideal S5000x47 .f32) (hR : S5000x47.Reduces [1] S5000) (hC : S5000.ShapeCasts S5000x1)
    (hB : S5000x1.Broadcasts S5000x47) (hφ : FKind.Formats .f32)
    (hm : (0xFF800000#32 : BitVec 32) = FKind.maximumf.neutral .f32 hφ) (ha : (0x00000000#32 : BitVec 32) = FKind.add.neutral .f32 hφ)
    (r : Fin 5000) (q : Fin 47) :
    subf (subf Z (broadcastTo S5000x47 (shapeCast S5000x1 (multiReduction .maximumf [1] S5000 Z 0xFF800000#32 hR hφ hm) hC) hB))
        (broadcastTo S5000x47 (log (shapeCast S5000x1 (multiReduction .add [1] S5000
          (exp (subf Z (broadcastTo S5000x47 (shapeCast S5000x1 (multiReduction .maximumf [1] S5000 Z 0xFF800000#32 hR hφ hm) hC) hB)))
          0x00000000#32 hR hφ ha) hC)) hB) (ix2 r q)
      = Cert.Sage.logSoftmax47 (fun k => Z (ix2 r k)) q := by
  have hsub : ∀ (r' : Fin 5000) (q' : Fin 47),
      subf Z (broadcastTo S5000x47 (shapeCast S5000x1 (multiReduction .maximumf [1] S5000 Z 0xFF800000#32 hR hφ hm) hC) hB) (ix2 r' q')
        = Z (ix2 r' q') - Cert.Sage.rowMax47 (fun k => Z (ix2 r' k)) := fun r' q' =>
    (subf_apply _ _ _).trans (congrArg (Z (ix2 r' q') - ·)
      ((broadcastTo_a1_ab_apply _ hB r' q').trans ((shapeCast_a_a1_apply _ hC r' 0).trans (rowMax_apply Z hR hφ hm r'))))
  unfold Cert.Sage.logSoftmax47
  refine (subf_apply _ _ _).trans ?_
  refine congrArg₂ (· - ·) (hsub r q) ?_
  refine (broadcastTo_a1_ab_apply _ hB r q).trans ?_
  show Ideal.log (shapeCast S5000x1 _ hC (ix2 r (0 : Fin 1))) = _
  refine congrArg Ideal.log ?_
  refine (shapeCast_a_a1_apply _ hC r 0).trans ?_
  refine (rowSum_apply _ hR hφ ha r).trans ?_
  refine Finset.sum_congr rfl fun k _ => ?_
  show Ideal.exp (subf Z _ (ix2 r k)) = _
  exact congrArg Ideal.exp (hsub r k)

/-- The second payload at `(r, q)` is the log-softmax of row `r` of the block's logits at column `q`. -/
theorem logSoftmaxPay_apply (x0 x3 : Vec Ideal S5000x128 .f32) (x6 x8 : Vec Ideal S47x128 .bf16) (x10 : Vec Ideal S1x47 .f32)
    (r : Fin 5000) (q : Fin 47) :
    k2_pay2 (F := Ideal) x0 x3 x6 x8 x10 (ix2 r q) = Cert.Sage.logSoftmax47 (fun k => blockLogit x0 x3 x6 x8 x10 r k) q := by
  unfold k2_pay2
  refine (logSoftmax_apply (k2_pay1 (F := Ideal) x0 x3 x6 x8 x10) _ _ _ (.inl rfl) rfl rfl r q).trans ?_
  exact congrArg (fun z => Cert.Sage.logSoftmax47 z q) (funext fun k => logits_apply x0 x3 x6 x8 x10 r k)

/-! ## The same text under the other region's names -/

theorem k6_pay1_eq : @k6_pay1 = @k2_pay1 := rfl
theorem k6_pay2_eq : @k6_pay2 = @k2_pay2 := rfl

end Cert.KernelIdeal.KValF

end
-- ==== Proof.FinalRegion2.lean ====
/-
  The last-layer pass number one (the clean input): its two result arrays, entry by entry.

  The grid has 10 points; point `t` holds rows `5000·t … 5000·t + 4999` of the neighbourhood means and of the
  features, and the whole of the two weight matrices and of the bias row. What a point writes back is its block
  of the specification's logits, and of their row-wise log-softmax; the ten blocks tile the 50000 rows, so each
  result array is the specification's function of the region's input arrays.
-/
import proofs.«146821_j20100446946148_1_alg».proof.Proof.Gen.KernelIdeal.Frame
import proofs.«146821_j20100446946148_1_alg».proof.Proof.FinalBody
import Idealize.ShloMosaic.Lib.Pipeline.Value

noncomputable section

namespace Cert.KernelIdeal.KValF.R2

open Cert.KernelIdeal Cert.KernelIdeal.Gen Idealize.ShloMosaic Idealize.ShloMosaic.TcCoe Idealize.SL.Sem
open Idealize.ShloMosaic.ValueIdx Cert.KernelIdeal.KValF
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: the two row-blocked inputs and the two outputs move with the point along
    the rows; the weights and the bias stay at block zero. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Row `r` of the block at point `t`, as a row of the 50000. -/
def rowAt (t : Fin cfg2.N) (r : Fin 5000) : Fin 50000 :=
  ⟨t.val * 5000 + r.val, by have h := t.isLt; have hN : cfg2.N = 10 := N_2; have hr := r.isLt; omega⟩

theorem rowAt_val (t : Fin cfg2.N) (r : Fin 5000) : (rowAt t r).val = t.val * 5000 + r.val := rfl

/-! ## The input blocks as rows of the arrays -/

theorem agg_blk (c : Dev nD) (t : Fin cfg2.N) (r : Fin 5000) (k : Fin 128) :
    (iblk2 V c 0 t) (ix2 r k) = (V c main_v68 : Cert.Sage.Arr 50000 128) (ix2 (rowAt t r) k) := by
  obtain ⟨e0, e1, -⟩ := idx_facts t
  show V c main_v68 (((cfg2.win 0).blk t).view.emb (ix2 r k)) = V c main_v68 (ix2 (rowAt t r) k)
  refine congrArg (V c main_v68) (funext fun a => Fin.ext ?_)
  match a with
  | ⟨0, _⟩ => show win2_0.index t (0 : Fin 2) * 5000 + 1 * r.val = t.val * 5000 + r.val; omega
  | ⟨1, _⟩ => show win2_0.index t (1 : Fin 2) * 128 + 1 * k.val = k.val; omega

theorem x_blk (c : Dev nD) (t : Fin cfg2.N) (r : Fin 5000) (k : Fin 128) :
    (iblk2 V c 1 t) (ix2 r k) = (V c main_v49 : Cert.Sage.Arr 50000 128) (ix2 (rowAt t r) k) := by
  obtain ⟨-, -, e0, e1, -⟩ := idx_facts t
  show V c main_v49 (((cfg2.win 1).blk t).view.emb (ix2 r k)) = V c main_v49 (ix2 (rowAt t r) k)
  refine congrArg (V c main_v49) (funext fun a => Fin.ext ?_)
  match a with
  | ⟨0, _⟩ => show win2_1.index t (0 : Fin 2) * 5000 + 1 * r.val = t.val * 5000 + r.val; omega
  | ⟨1, _⟩ => show win2_1.index t (1 : Fin 2) * 128 + 1 * k.val = k.val; omega

theorem wl_blk (c : Dev nD) (t : Fin cfg2.N) (q : Fin 47) (k : Fin 128) :
    (iblk2 V c 2 t) (ix2 q k) = (V c main_v69 : Cert.Sage.Arr 47 128) (ix2 q k) := by
  obtain ⟨-, -, -, -, e0, e1, -⟩ := idx_facts t
  show V c main_v69 (((cfg2.win 2).blk t).view.emb (ix2 q k)) = V c main_v69 (ix2 q k)
  refine congrArg (V c main_v69) (funext fun a => Fin.ext ?_)
  match a with
  | ⟨0, _⟩ => show win2_2.index t (0 : Fin 2) * 47 + 1 * q.val = q.val; omega
  | ⟨1, _⟩ => show win2_2.index t (1 : Fin 2) * 128 + 1 * k.val = k.val; omega

theorem b_blk (c : Dev nD) (t : Fin cfg2.N) (q : Fin 47) :
    (iblk2 V c 3 t) (ix2 (0 : Fin 1) q) = (V c main_v71 : Cert.Sage.Arr 1 47) (ix2 (0 : Fin 1) q) := by
  obtain ⟨-, -, -, -, -, -, e0, e1, -⟩ := idx_facts t
  show V c main_v71 (((cfg2.win 3).blk t).view.emb (ix2 (0 : Fin 1) q)) = V c main_v71 (ix2 (0 : Fin 1) q)
  refine congrArg (V c main_v71) (funext fun a => Fin.ext ?_)
  match a with
  | ⟨0, _⟩ => show win2_3.index t (0 : Fin 2) * 1 + 1 * 0 = 0; omega
  | ⟨1, _⟩ => show win2_3.index t (1 : Fin 2) * 47 + 1 * q.val = q.val; omega

theorem wr_blk (c : Dev nD) (t : Fin cfg2.N) (q : Fin 47) (k : Fin 128) :
    (iblk2 V c 4 t) (ix2 q k) = (V c main_v70 : Cert.Sage.Arr 47 128) (ix2 q k) := by
  obtain ⟨-, -, -, -, -, -, -, -, e0, e1, -⟩ := idx_facts t
  show V c main_v70 (((cfg2.win 4).blk t).view.emb (ix2 q k)) = V c main_v70 (ix2 q k)
  refine congrArg (V c main_v70) (funext fun a => Fin.ext ?_)
  match a with
  | ⟨0, _⟩ => show win2_4.index t (0 : Fin 2) * 47 + 1 * q.val = q.val; omega
  | ⟨1, _⟩ => show win2_4.index t (1 : Fin 2) * 128 + 1 * k.val = k.val; omega

/-- The logits of the block at point `t` are the specification's logits at the block's rows. -/
theorem blockLogit_eq (c : Dev nD) (t : Fin cfg2.N) (r : Fin 5000) (q : Fin 47) :
    blockLogit (iblk2 V c 0 t) (iblk2 V c 1 t) (iblk2 V c 2 t) (iblk2 V c 4 t) (iblk2 V c 3 t) r q
      = Cert.Sage.lin47 (V c main_v68) (V c main_v49) (V c main_v69) (V c main_v70) (Cert.Sage.rowOf (V c main_v71)) (rowAt t r) q := by
  unfold blockLogit Cert.Sage.lin47
  refine congrArg₂ (· + ·) (congrArg₂ (· + ·)
    (Finset.sum_congr rfl fun k _ => congrArg₂ (· * ·) (agg_blk V c t r k) (wl_blk V c t q k))
    (Finset.sum_congr rfl fun k _ => congrArg₂ (· * ·) (x_blk V c t r k) (wr_blk V c t q k))) ?_
  exact (b_blk V c t q).trans (Cert.Sage.rowOf_ix1 _ q).symm

/-! ## The output blocks inside the result arrays -/

theorem z_emb (t : Fin cfg2.N) (r : Fin 5000) (q : Fin 47) :
    ((cfg2.win 5).blk t).view.emb (ix2 r q) = (ix2 (rowAt t r) q : S50000x47.Idx) := by
  obtain ⟨-, -, -, -, -, -, -, -, -, -, e0, e1, -⟩ := idx_facts t
  refine funext fun a => Fin.ext ?_
  match a with
  | ⟨0, _⟩ => show win2_5.index t (0 : Fin 2) * 5000 + 1 * r.val = t.val * 5000 + r.val; omega
  | ⟨1, _⟩ => show win2_5.index t (1 : Fin 2) * 47 + 1 * q.val = q.val; omega

theorem y_emb (t : Fin cfg2.N) (r : Fin 5000) (q : Fin 47) :
    ((cfg2.win 6).blk t).view.emb (ix2 r q) = (ix2 (rowAt t r) q : S50000x47.Idx) := by
  obtain ⟨-, -, -, -, -, -, -, -, -, -, -, -, e0, e1⟩ := idx_facts t
  refine funext fun a => Fin.ext ?_
  match a with
  | ⟨0, _⟩ => show win2_6.index t (0 : Fin 2) * 5000 + 1 * r.val = t.val * 5000 + r.val; omega
  | ⟨1, _⟩ => show win2_6.index t (1 : Fin 2) * 47 + 1 * q.val = q.val; omega

/-- The logits array of the specification, from the region's input arrays. -/
abbrev zSpec (c : Dev nD) : Cert.Sage.Arr 50000 47 :=
  Cert.Sage.arr2 (Cert.Sage.lin47 (V c main_v68) (V c main_v49) (V c main_v69) (V c main_v70) (Cert.Sage.rowOf (V c main_v71)))

/-- The log-softmax array of the specification, from the region's input arrays. -/
abbrev ySpec (c : Dev nD) : Cert.Sage.Arr 50000 47 :=
  Cert.Sage.arr2 (fun r q => Cert.Sage.logSoftmax47 (fun k =>
    Cert.Sage.lin47 (V c main_v68) (V c main_v49) (V c main_v69) (V c main_v70) (Cert.Sage.rowOf (V c main_v71)) r k) q)

/-- What point `t` writes back to the logits array is block `t` of the specification's logits. -/
theorem flushed_z (c : Dev nD) (t : Fin cfg2.N) :
    (dat2 (F := Ideal) V c).flushed 5 t = ((cfg2.win 5).blk t).view.read (Elt Ideal) (zSpec V c) := by
  show (cfg2.win 5).cut (grid2.coords t) ((dat2 (F := Ideal) V c).after 5 t) = _
  rw [after2_5]
  unfold out2_5
  rw [View.canon_unit_zero zero_offsets]
  simp only [View.ld_unit_zero (S := S5000x128) zero_offsets, View.ld_unit_zero (S := S47x128) zero_offsets,
    View.ld_unit_zero (S := S1x47) zero_offsets]
  funext j
  obtain ⟨r, q, rfl⟩ : ∃ (r : Fin 5000) (q : Fin 47), j = ix2 r q := ⟨j 0, j 1, eq_ix2 j⟩
  show k2_pay1 (F := Ideal) (iblk2 V c 0 t) (iblk2 V c 1 t) (iblk2 V c 2 t) (iblk2 V c 4 t) (iblk2 V c 3 t) (ix2 r q)
    = zSpec V c (((cfg2.win 5).blk t).view.emb (ix2 r q))
  rw [z_emb]
  refine (logits_apply (iblk2 V c 0 t) (iblk2 V c 1 t) (iblk2 V c 2 t) (iblk2 V c 4 t) (iblk2 V c 3 t) r q).trans ?_
  exact blockLogit_eq V c t r q

/-- What point `t` writes back to the log-softmax array is block `t` of the specification's log-softmax. -/
theorem flushed_y (c : Dev nD) (t : Fin cfg2.N) :
    (dat2 (F := Ideal) V c).flushed 6 t = ((cfg2.win 6).blk t).view.read (Elt Ideal) (ySpec V c) := by
  show (cfg2.win 6).cut (grid2.coords t) ((dat2 (F := Ideal) V c).after 6 t) = _
  rw [after2_6]
  unfold out2_6
  rw [View.canon_unit_zero zero_offsets]
  simp only [View.ld_unit_zero (S := S5000x128) zero_offsets, View.ld_unit_zero (S := S47x128) zero_offsets,
    View.ld_unit_zero (S := S1x47) zero_offsets]
  funext j
  obtain ⟨r, q, rfl⟩ : ∃ (r : Fin 5000) (q : Fin 47), j = ix2 r q := ⟨j 0, j 1, eq_ix2 j⟩
  show k2_pay2 (F := Ideal) (iblk2 V c 0 t) (iblk2 V c 1 t) (iblk2 V c 2 t) (iblk2 V c 4 t) (iblk2 V c 3 t) (ix2 r q)
    = ySpec V c (((cfg2.win 6).blk t).view.emb (ix2 r q))
  rw [y_emb]
  refine (logSoftmaxPay_apply (iblk2 V c 0 t) (iblk2 V c 1 t) (iblk2 V c 2 t) (iblk2 V c 4 t) (iblk2 V c 3 t) r q).trans ?_
  exact congrArg (fun z => Cert.Sage.logSoftmax47 z q) (funext fun k => blockLogit_eq V c t r k)

/-! ## The ten blocks tile the 50000 rows -/

theorem mem_blk_z (t : Fin cfg2.N) (i : S50000x47.Idx) :
    i ∈ ((cfg2.win 5).blk t).view.set ↔ ∀ a : Fin 2, win2_5.index t a * S5000x47.size a ≤ (i a).val ∧ (i a).val < win2_5.index t a * S5000x47.size a + S5000x47.size a := by
  show i ∈ ((View.whole main_v72_0).slice (win2_5.rect t)).set ↔ _
  rw [View.set_slice_whole, Rect.mem_set_unit]
  exact Iff.rfl

theorem mem_blk_y (t : Fin cfg2.N) (i : S50000x47.Idx) :
    i ∈ ((cfg2.win 6).blk t).view.set ↔ ∀ a : Fin 2, win2_6.index t a * S5000x47.size a ≤ (i a).val ∧ (i a).val < win2_6.index t a * S5000x47.size a + S5000x47.size a := by
  show i ∈ ((View.whole main_v72_1).slice (win2_6.rect t)).set ↔ _
  rw [View.set_slice_whole, Rect.mem_set_unit]
  exact Iff.rfl

/-- Row `i 0` lies in the block of point `(i 0) / 5000`. -/
theorem cover_z (i : S50000x47.Idx) : ∃ t : Fin cfg2.N, (cfg2.win 5).flush t = true ∧ i ∈ ((cfg2.win 5).blk t).view.set := by
  have hi0 : (i 0).val < 50000 := (i 0).isLt
  have hi1 : (i 1).val < 47 := (i 1).isLt
  have hN : cfg2.N = 10 := N_2
  obtain ⟨t, ht⟩ : ∃ t : Fin cfg2.N, t.val = (i 0).val / 5000 := ⟨⟨(i 0).val / 5000, by omega⟩, rfl⟩
  obtain ⟨-, -, -, -, -, -, -, -, -, -, e0, e1, -⟩ := idx_facts t
  refine ⟨t, flush2_5 t, ?_⟩
  rw [mem_blk_z]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 47 ≤ (i 1).val ∧ (i 1).val < win2_5.index t (1 : Fin 2) * 47 + 47; omega

theorem cover_y (i : S50000x47.Idx) : ∃ t : Fin cfg2.N, (cfg2.win 6).flush t = true ∧ i ∈ ((cfg2.win 6).blk t).view.set := by
  have hi0 : (i 0).val < 50000 := (i 0).isLt
  have hi1 : (i 1).val < 47 := (i 1).isLt
  have hN : cfg2.N = 10 := N_2
  obtain ⟨t, ht⟩ : ∃ t : Fin cfg2.N, t.val = (i 0).val / 5000 := ⟨⟨(i 0).val / 5000, by omega⟩, rfl⟩
  obtain ⟨-, -, -, -, -, -, -, -, -, -, -, -, e0, e1⟩ := idx_facts t
  refine ⟨t, flush2_6 t, ?_⟩
  rw [mem_blk_y]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 47 ≤ (i 1).val ∧ (i 1).val < win2_6.index t (1 : Fin 2) * 47 + 47; omega

end Cert.KernelIdeal.KValF.R2

namespace Cert.KernelIdeal.KValF

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- After the region, the logits array holds the specification's logits of the region's input arrays. -/
theorem region2_z (c : Dev nD) :
    (Gen.dat2 (F := Ideal) V c).arrAt 5 cfg2.N
      = Cert.Sage.arr2 (Cert.Sage.lin47 (V c main_v68) (V c main_v49) (V c main_v69) (V c main_v70) (Cert.Sage.rowOf (V c main_v71))) :=
  (Gen.dat2 (F := Ideal) V c).arrAt_eq_of_cover 5 (R2.zSpec V c) (fun t _ => R2.flushed_z V c t) R2.cover_z

/-- After the region, the log-softmax array holds the specification's row-wise log-softmax of those logits. -/
theorem region2_y (c : Dev nD) :
    (Gen.dat2 (F := Ideal) V c).arrAt 6 cfg2.N
      = Cert.Sage.arr2 (fun r q => Cert.Sage.logSoftmax47 (fun k =>
          Cert.Sage.lin47 (V c main_v68) (V c main_v49) (V c main_v69) (V c main_v70) (Cert.Sage.rowOf (V c main_v71)) r k) q) :=
  (Gen.dat2 (F := Ideal) V c).arrAt_eq_of_cover 6 (R2.ySpec V c) (fun t _ => R2.flushed_y V c t) R2.cover_y

end Cert.KernelIdeal.KValF

end
-- ==== Proof.KFoldP.lean ====
/-
  The clean branch read back: what each of its launches leaves in its output array, as a function of the launch
  contents of the arguments, and that its three results still hold that at the end of the run.
-/
import proofs.«146821_j20100446946148_1_alg».proof.Proof.KAt
import proofs.«146821_j20100446946148_1_alg».proof.Proof.KKeepVals
import proofs.«146821_j20100446946148_1_alg».proof.Proof.HiddenRegion0
import proofs.«146821_j20100446946148_1_alg».proof.Proof.HiddenRegion1
import proofs.«146821_j20100446946148_1_alg».proof.Proof.FinalRegion2

set_option maxRecDepth 16384

noncomputable section

namespace Cert.KernelIdeal.KFold

open Cert.KernelIdeal Cert.KernelIdeal.Gen
open Idealize.ShloMosaic Idealize.ShloMosaic.TcCoe Idealize.ShloMosaic.Tactic
open Idealize.SL Idealize.SL.Sem
open Cert.Sage

variable (m : (ℓ : Loc nD τ sig) → Buf (Elt Ideal) ℓ) (ρ : Dev nD → PrngReg)

/-! ## The clean branch, layer by layer -/

theorem at2_h1 (c : Dev nD) : W2 m ρ c (Proc.devRef .tc main_v26) = h1 m ρ c := by
  refine (W2_arr m ρ c 5).trans ?_
  rw [Cert.KernelIdeal.KVal.region0_value (V1 m ρ) c]
  dsimp only [V1]
  rw [host0_agg m ρ c, arg0_at1 m ρ c, host0_wl m ρ c, host0_wr m ρ c, host0_b m ρ c]
  rfl

theorem at4_h2 (c : Dev nD) : W4 m ρ c (Proc.devRef .tc main_v49) = h2 m ρ c := by
  refine (W4_arr m ρ c 5).trans ?_
  rw [Cert.KernelIdeal.KVal.region1_value (V3 m ρ) c]
  dsimp only [V3]
  rw [host1_agg m ρ c, host1_wl m ρ c, host1_wr m ρ c, host1_b m ρ c, keep_v26_2_3 m ρ c, at2_h1 m ρ c, src_at2 m ρ c, dst_at2 m ρ c, arg6_at2 m ρ c, arg7_at2 m ρ c, arg8_at2 m ρ c]
  rfl

theorem at6_zP (c : Dev nD) : W6 m ρ c (Proc.devRef .tc main_v72_0) = zP m ρ c := by
  refine (W6_arr m ρ c 5).trans ?_
  rw [Cert.KernelIdeal.KValF.region2_z (V5 m ρ) c]
  dsimp only [V5]
  rw [host2_agg m ρ c, host2_wl m ρ c, host2_wr m ρ c, host2_b m ρ c, keep_v49_4_5 m ρ c, at4_h2 m ρ c, src_at4 m ρ c, dst_at4 m ρ c, arg9_at4 m ρ c, arg10_at4 m ρ c, arg11_at4 m ρ c]
  rfl

theorem at6_yP (c : Dev nD) : W6 m ρ c (Proc.devRef .tc main_v72_1) = yP m ρ c := by
  refine (W6_arr m ρ c 6).trans ?_
  rw [Cert.KernelIdeal.KValF.region2_y (V5 m ρ) c]
  dsimp only [V5]
  rw [host2_agg m ρ c, host2_wl m ρ c, host2_wr m ρ c, host2_b m ρ c, keep_v49_4_5 m ρ c, at4_h2 m ρ c, src_at4 m ρ c, dst_at4 m ρ c, arg9_at4 m ρ c, arg10_at4 m ρ c, arg11_at4 m ρ c]
  rfl

/-! ## The clean branch's three results at the end of the run -/

theorem fin_h2 (c : Dev nD) : W13 m ρ c (Proc.devRef .tc main_v49) = h2 m ρ c :=
  (keep_v49_5_13 m ρ c).trans ((keep_v49_4_5 m ρ c).trans (at4_h2 m ρ c))
theorem fin_zP (c : Dev nD) : W13 m ρ c (Proc.devRef .tc main_v72_0) = zP m ρ c := (keep_v72_0_6_13 m ρ c).trans (at6_zP m ρ c)
theorem fin_yP (c : Dev nD) : W13 m ρ c (Proc.devRef .tc main_v72_1) = yP m ρ c := (keep_v72_1_6_13 m ρ c).trans (at6_yP m ρ c)

end Cert.KernelIdeal.KFold

end
-- ==== Proof.NoiseBody.lean ====
/-
  One element of the perturbation's block.

  At row `r` and column `q` of a block of 5000 rows the body leaves
      x[r,q] + (sign x[r,q] · (n[r,q] / max (√(∑ₖ n[r,k]²)) ε)) · ρ :
  the squares of the noise row are summed along the row, the root of the sum is floored at ε and repeated along the
  row, and the two selects on the order of `x[r,q]` against zero are its sign.
-/
import proofs.«146821_j20100446946148_1_alg».proof.Proof.Spec
import proofs.«146821_j20100446946148_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.KVal

open Cert.KernelIdeal Cert.KernelIdeal.Gen Idealize.ShloMosaic Idealize.ShloMosaic.ValueIdx

/-- Row `r` of a 5000 × 128 block with column `k` put back is the entry `(r, k)`. -/
theorem row_lift (r : Fin 5000) (k : Fin 128) :
    reduces_S5000x128_S5000.lift (ix1 r) k = ix2 r k := by
  funext c
  refine Fin.ext ?_
  match c with
  | ⟨0, _⟩ => rfl
  | ⟨1, _⟩ => rfl

/-- A sum along the rows of a 5000 × 128 block, at row `r`: the sum of that row's 128 entries. -/
theorem row_sum_apply (src : FVec Ideal S5000x128 .f32) (hφ : FKind.Formats .f32)
    (hacc : (0x00000000#32 : BitVec 32) = FKind.add.neutral .f32 hφ) (r : Fin 5000) :
    multiReduction .add [1] S5000 src 0x00000000#32 reduces_S5000x128_S5000 hφ hacc (ix1 r)
      = ∑ k : Fin 128, src (ix2 r k) := by
  refine (Ideal.multiReduction_add_single src 0x00000000#32 reduces_S5000x128_S5000 hφ hacc (ix1 r)).trans ?_
  show ∑ k : Fin 128, src (reduces_S5000x128_S5000.lift (ix1 r) k) = _
  exact Finset.sum_congr rfl fun k _ => congrArg src (row_lift r k)

/-- A vector of 5000 entries read as a column, at row `r`. -/
theorem column_apply (v : FVec Ideal S5000 .f32) (r : Fin 5000) :
    shapeCast S5000x1 v shapeCasts_S5000_S5000x1 (ix2 r (0 : Fin 1)) = v (ix1 r) :=
  shapeCast_apply v shapeCasts_S5000_S5000x1 (ix2 r (0 : Fin 1)) (ix1 r) (by
    rw [Shape.rowMajor_val_one, Shape.rowMajor_val_two]
    show r.val = r.val * 1 + 0
    omega)

/-- A column repeated along the rows, at row `r` and column `q`: the column's entry at row `r`. -/
theorem column_cols_apply (v : FVec Ideal S5000x1 .f32) (r : Fin 5000) (q : Fin 128) :
    broadcastTo S5000x128 v broadcasts_S5000x1_S5000x128 (ix2 r q) = v (ix2 r (0 : Fin 1)) :=
  broadcastTo_apply v broadcasts_S5000x1_S5000x128 (ix2 r q) (ix2 r (0 : Fin 1)) (fun a => match a with
    | ⟨0, _⟩ => rfl
    | ⟨1, _⟩ => rfl)

/-- The floored length of the noise row, as the body repeats it along the row, at row `r` and column `q`. -/
theorem floored_norm_apply (nz : FVec Ideal S5000x128 .f32) (hφ : FKind.Formats .f32)
    (hacc : (0x00000000#32 : BitVec 32) = FKind.add.neutral .f32 hφ) (r : Fin 5000) (q : Fin 128) :
    broadcastTo S5000x128
        (maximumf (sqrt (shapeCast S5000x1 (multiReduction .add [1] S5000 (mulf nz nz) 0x00000000#32 reduces_S5000x128_S5000 hφ hacc)
            shapeCasts_S5000_S5000x1))
          (broadcast S5000x1 (Scalar.ofBits .f32 0x2B8CBCCC#32)))
        broadcasts_S5000x1_S5000x128 (ix2 r q)
      = max (Ideal.sqrt (∑ k : Fin 128, nz (ix2 r k) * nz (ix2 r k))) (Ideal.ofBits .f32 0x2B8CBCCC#32) := by
  refine (column_cols_apply _ r q).trans ?_
  show max (Ideal.sqrt (shapeCast S5000x1 (multiReduction .add [1] S5000 (mulf nz nz) 0x00000000#32 reduces_S5000x128_S5000 hφ hacc)
      shapeCasts_S5000_S5000x1 (ix2 r (0 : Fin 1)))) (Ideal.ofBits .f32 0x2B8CBCCC#32) = _
  refine congrArg (fun z => max (Ideal.sqrt z) (Ideal.ofBits .f32 0x2B8CBCCC#32)) ?_
  refine (column_apply _ r).trans ?_
  exact row_sum_apply (mulf nz nz) hφ hacc r

/-- What the body leaves at row `r`, column `q` of a block, from the loaded blocks of `x` and of the noise. -/
def perturbAt (x nz : Vec Ideal S5000x128 .f32) (r : Fin 5000) (q : Fin 128) : EReal :=
  x (ix2 r q) + (Ideal.sign (x (ix2 r q)) * Ideal.div (nz (ix2 r q))
      (max (Ideal.sqrt (∑ k : Fin 128, nz (ix2 r k) * nz (ix2 r k))) (Ideal.ofBits .f32 0x2B8CBCCC#32)))
    * Ideal.ofBits .f32 0x3DCCCCCD#32

/-- The perturbation's body at an element. -/
theorem k3_pay1_apply (v0 v1 : Vec Ideal S5000x128 .f32) (r : Fin 5000) (q : Fin 128) :
    k3_pay1 (F := Ideal) v0 v1 (ix2 r q) = perturbAt v0 v1 r q := by
  unfold k3_pay1 perturbAt
  simp only []
  rw [addf_apply, mulf_apply, mulf_apply, divf_apply, broadcast_apply]
  refine congrArg (v0 (ix2 r q) + ·) (congrArg₂ (· * ·) (congrArg₂ (· * ·) ?_ (congrArg (Ideal.div (v1 (ix2 r q))) ?_)) rfl)
  · exact Ideal.jnp_sign_eq_sign_f32 (v0 (ix2 r q))
  · exact floored_norm_apply v1 _ _ r q

/-- A block's element against the whole arrays: when row `r` of the two loaded blocks is row `R` of `x` and of the noise,
    the body's element is the perturbed input at row `R`, column `q`. -/
theorem perturbAt_eq_noisy (X N : Cert.Sage.Arr 50000 128) (x0 x1 : Vec Ideal S5000x128 .f32)
    (r : Fin 5000) (q : Fin 128) (R : Fin 50000)
    (h0 : ∀ k : Fin 128, x0 (ix2 r k) = X (ix2 R k)) (h1 : ∀ k : Fin 128, x1 (ix2 r k) = N (ix2 R k)) :
    perturbAt x0 x1 r q = Cert.Sage.noisy X N R q := by
  unfold perturbAt Cert.Sage.noisy
  simp only [h0, h1]

end Cert.KernelIdeal.KVal

end
-- ==== Proof.NoiseRegion.lean ====
/-
  The perturbed input as one array.

  Each of the ten grid points writes back a block of 5000 rows; the block at point `t` is rows `5000 t … 5000 t + 4999` of
  the perturbed input: the two blocks it loads are those rows of `x` and of the noise. The ten blocks cover the 50000
  rows (row `ρ` is in block `ρ / 5000`), so the output array ends holding the perturbation of the arrays the region finds.
-/
import proofs.«146821_j20100446946148_1_alg».proof.Proof.Spec
import proofs.«146821_j20100446946148_1_alg».proof.Proof.NoiseBody
import proofs.«146821_j20100446946148_1_alg».proof.Proof.Gen.KernelIdeal.Frame
import Idealize.ShloMosaic.Lib.Pipeline.Value

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The perturbed input as a function of the arrays the region finds. -/
abbrev perturbed (c : Dev nD) : Cert.Sage.Arr 50000 128 :=
  Cert.Sage.arr2 (Cert.Sage.noisy (V c main_arg0) (V c main_arg2))

theorem origin3 : (![0, 0] : Fin 2 → Nat) = fun _ => 0 := funext fun a => by fin_cases a <;> rfl

/-- The index maps over the grid: all three row blocks move with the point. -/
theorem block_index3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the perturbed input. -/
theorem flushed3_eq (c : Dev nD) (t : Fin cfg3.N) :
    (dat3 (F := Ideal) V c).flushed 2 t = ((cfg3.win 2).blk t).view.read (Elt Ideal) (perturbed V c) := by
  show (cfg3.win 2).cut (grid3.coords t) ((dat3 (F := Ideal) V c).after 2 t) = _
  rw [after3_2]
  unfold out3_2
  rw [View.canon_unit_zero origin3]
  simp only [View.ld_unit_zero (S := S5000x128) origin3]
  obtain ⟨e00, e01, e10, e11, e20, e21⟩ := block_index3 t
  have hN : cfg3.N = 10 := N_3
  have htN : t.val < cfg3.N := t.isLt
  funext j
  obtain ⟨r, q, rfl⟩ : ∃ (r : Fin 5000) (q : Fin 128), j = ix2 r q := ⟨j 0, j 1, eq_ix2 j⟩
  have hr : r.val < 5000 := r.isLt
  have hR : t.val * 5000 + r.val < 50000 := by omega
  show k3_pay1 (F := Ideal) (iblk3 V c 0 t) (iblk3 V c 1 t) (ix2 r q)
      = perturbed V c (((cfg3.win 2).blk t).view.emb (ix2 r q))
  refine (k3_pay1_apply (iblk3 V c 0 t) (iblk3 V c 1 t) r q).trans ?_
  have hemb : ((cfg3.win 2).blk t).view.emb (ix2 r q) = (ix2 (⟨t.val * 5000 + r.val, hR⟩ : Fin 50000) q : S50000x128.Idx) := by
    funext a
    apply Fin.ext
    match a with
    | ⟨0, _⟩ => show win3_2.index t (0 : Fin 2) * 5000 + 1 * r.val = t.val * 5000 + r.val; omega
    | ⟨1, _⟩ => show win3_2.index t (1 : Fin 2) * 128 + 1 * q.val = q.val; omega
  refine Eq.trans ?_ (congrArg (perturbed V c) hemb).symm
  show _ = Cert.Sage.noisy (V c main_arg0) (V c main_arg2) ⟨t.val * 5000 + r.val, hR⟩ q
  refine perturbAt_eq_noisy (V c main_arg0) (V c main_arg2) (iblk3 V c 0 t) (iblk3 V c 1 t) r q ⟨t.val * 5000 + r.val, hR⟩ ?_ ?_
  · intro k
    show (V c main_arg0 : S50000x128.Idx → EReal) (((cfg3.win 0).blk t).view.emb (ix2 r k)) = (V c main_arg0 : S50000x128.Idx → EReal) (ix2 ⟨t.val * 5000 + r.val, hR⟩ k)
    refine congrArg (V c main_arg0 : S50000x128.Idx → EReal) (funext fun a => Fin.ext ?_)
    match a with
    | ⟨0, _⟩ => show win3_0.index t (0 : Fin 2) * 5000 + 1 * r.val = t.val * 5000 + r.val; omega
    | ⟨1, _⟩ => show win3_0.index t (1 : Fin 2) * 128 + 1 * k.val = k.val; omega
  · intro k
    show (V c main_arg2 : S50000x128.Idx → EReal) (((cfg3.win 1).blk t).view.emb (ix2 r k)) = (V c main_arg2 : S50000x128.Idx → EReal) (ix2 ⟨t.val * 5000 + r.val, hR⟩ k)
    refine congrArg (V c main_arg2 : S50000x128.Idx → EReal) (funext fun a => Fin.ext ?_)
    match a with
    | ⟨0, _⟩ => show win3_1.index t (0 : Fin 2) * 5000 + 1 * r.val = t.val * 5000 + r.val; omega
    | ⟨1, _⟩ => show win3_1.index t (1 : Fin 2) * 128 + 1 * k.val = k.val; omega

/-- An index of the output array is in point `t`'s block iff each coordinate is in the block's range on its axis. -/
theorem mem_block3 (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v73).slice (win3_2.rect t)).set ↔ _
  rw [View.set_slice_whole, Rect.mem_set_unit]
  exact Iff.rfl

/-- Every row is in the block of the point `row / 5000`. -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, e20, e21⟩ := block_index3 t
  refine ⟨t, flush3_2 t, ?_⟩
  rw [mem_block3]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 128 ≤ (i 1).val ∧ (i 1).val < win3_2.index t (1 : Fin 2) * 128 + 128
    omega

/-- The region's output array after its ten write-backs. -/
theorem region3_value (c : Dev nD) :
    (dat3 (F := Ideal) V c).arrAt 2 cfg3.N = Cert.Sage.arr2 (Cert.Sage.noisy (V c main_arg0) (V c main_arg2)) :=
  (dat3 (F := Ideal) V c).arrAt_eq_of_cover 2 (perturbed V c) (fun t _ => flushed3_eq V c t) (cover3)

end Cert.KernelIdeal.KVal

end
-- ==== Proof.HiddenRegion4.lean ====
/-
  The hidden layer of region 4 as one array.

  Each of the ten grid points writes back a block of 5000 rows; the block at point `t` is rows `5000 t … 5000 t + 4999` of
  the layer's output: the two row blocks it loads are those rows of the neighbourhood means and of the features, the
  weight blocks and the bias are whole arrays at every point. The ten blocks cover the 50000 rows (row `ρ` is in
  block `ρ / 5000`), so the output array ends holding the layer's function of the arrays the region finds.
-/
import proofs.«146821_j20100446946148_1_alg».proof.Proof.Spec
import proofs.«146821_j20100446946148_1_alg».proof.Proof.HiddenBody
import proofs.«146821_j20100446946148_1_alg».proof.Proof.Gen.KernelIdeal.Frame
import Idealize.ShloMosaic.Lib.Pipeline.Value

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The layer's output as a function of the arrays the region finds. -/
abbrev hidden4 (c : Dev nD) : Cert.Sage.Arr 50000 128 :=
  Cert.Sage.arr2 (Cert.Sage.hid128 (V c main_v92) (V c main_v73) (V c main_v93) (V c main_v94) (Cert.Sage.rowOf (V c main_v95)))

theorem origin4 : (![0, 0] : Fin 2 → Nat) = fun _ => 0 := funext fun a => by fin_cases a <;> rfl

/-- The index maps over the grid: the row blocks move with the point, the weights and the bias stay. -/
theorem block_index4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- What point `t` writes back is block `t` of the layer's output. -/
theorem flushed4_eq (c : Dev nD) (t : Fin cfg4.N) :
    (dat4 (F := Ideal) V c).flushed 5 t = ((cfg4.win 5).blk t).view.read (Elt Ideal) (hidden4 V c) := by
  show (cfg4.win 5).cut (grid4.coords t) ((dat4 (F := Ideal) V c).after 5 t) = _
  rw [after4_5]
  unfold out4_5
  rw [View.canon_unit_zero origin4]
  simp only [View.ld_unit_zero (S := S5000x128) origin4, View.ld_unit_zero (S := S128x128) origin4,
    View.ld_unit_zero (S := S1x128) origin4]
  obtain ⟨e00, e01, e10, e11, e20, e21, e30, e31, e40, e41, e50, e51⟩ := block_index4 t
  have hN : cfg4.N = 10 := N_4
  have htN : t.val < cfg4.N := t.isLt
  funext j
  obtain ⟨r, q, rfl⟩ : ∃ (r : Fin 5000) (q : Fin 128), j = ix2 r q := ⟨j 0, j 1, eq_ix2 j⟩
  have hr : r.val < 5000 := r.isLt
  have hR : t.val * 5000 + r.val < 50000 := by omega
  show k4_pay1 (F := Ideal) (iblk4 V c 0 t) (iblk4 V c 1 t) (iblk4 V c 2 t) (iblk4 V c 4 t) (iblk4 V c 3 t) (ix2 r q)
      = hidden4 V c (((cfg4.win 5).blk t).view.emb (ix2 r q))
  refine (k4_pay1_apply (iblk4 V c 0 t) (iblk4 V c 1 t) (iblk4 V c 2 t) (iblk4 V c 4 t) (iblk4 V c 3 t) r q).trans ?_
  have hemb : ((cfg4.win 5).blk t).view.emb (ix2 r q) = (ix2 (⟨t.val * 5000 + r.val, hR⟩ : Fin 50000) q : S50000x128.Idx) := by
    funext a
    apply Fin.ext
    match a with
    | ⟨0, _⟩ => show win4_5.index t (0 : Fin 2) * 5000 + 1 * r.val = t.val * 5000 + r.val; omega
    | ⟨1, _⟩ => show win4_5.index t (1 : Fin 2) * 128 + 1 * q.val = q.val; omega
  refine Eq.trans ?_ (congrArg (hidden4 V c) hemb).symm
  show _ = Cert.Sage.hid128 (V c main_v92) (V c main_v73) (V c main_v93) (V c main_v94) (Cert.Sage.rowOf (V c main_v95)) ⟨t.val * 5000 + r.val, hR⟩ q
  refine hidAt_eq_hid128 (V c main_v92) (V c main_v73) (V c main_v93) (V c main_v94) (V c main_v95)
    (iblk4 V c 0 t) (iblk4 V c 1 t) (iblk4 V c 2 t) (iblk4 V c 4 t) (iblk4 V c 3 t) r q ⟨t.val * 5000 + r.val, hR⟩ ?_ ?_ ?_ ?_ ?_
  · intro k
    show (V c main_v92 : S50000x128.Idx → EReal) (((cfg4.win 0).blk t).view.emb (ix2 r k)) = (V c main_v92 : S50000x128.Idx → EReal) (ix2 ⟨t.val * 5000 + r.val, hR⟩ k)
    refine congrArg (V c main_v92 : S50000x128.Idx → EReal) (funext fun a => Fin.ext ?_)
    match a with
    | ⟨0, _⟩ => show win4_0.index t (0 : Fin 2) * 5000 + 1 * r.val = t.val * 5000 + r.val; omega
    | ⟨1, _⟩ => show win4_0.index t (1 : Fin 2) * 128 + 1 * k.val = k.val; omega
  · intro k
    show (V c main_v73 : S50000x128.Idx → EReal) (((cfg4.win 1).blk t).view.emb (ix2 r k)) = (V c main_v73 : S50000x128.Idx → EReal) (ix2 ⟨t.val * 5000 + r.val, hR⟩ k)
    refine congrArg (V c main_v73 : S50000x128.Idx → EReal) (funext fun a => Fin.ext ?_)
    match a with
    | ⟨0, _⟩ => show win4_1.index t (0 : Fin 2) * 5000 + 1 * r.val = t.val * 5000 + r.val; omega
    | ⟨1, _⟩ => show win4_1.index t (1 : Fin 2) * 128 + 1 * k.val = k.val; omega
  · intro k
    show (V c main_v93 : S128x128.Idx → EReal) (((cfg4.win 2).blk t).view.emb (ix2 q k)) = (V c main_v93 : S128x128.Idx → EReal) (ix2 q k)
    refine congrArg (V c main_v93 : S128x128.Idx → EReal) (funext fun a => Fin.ext ?_)
    match a with
    | ⟨0, _⟩ => show win4_2.index t (0 : Fin 2) * 128 + 1 * q.val = q.val; omega
    | ⟨1, _⟩ => show win4_2.index t (1 : Fin 2) * 128 + 1 * k.val = k.val; omega
  · intro k
    show (V c main_v94 : S128x128.Idx → EReal) (((cfg4.win 4).blk t).view.emb (ix2 q k)) = (V c main_v94 : S128x128.Idx → EReal) (ix2 q k)
    refine congrArg (V c main_v94 : S128x128.Idx → EReal) (funext fun a => Fin.ext ?_)
    match a with
    | ⟨0, _⟩ => show win4_4.index t (0 : Fin 2) * 128 + 1 * q.val = q.val; omega
    | ⟨1, _⟩ => show win4_4.index t (1 : Fin 2) * 128 + 1 * k.val = k.val; omega
  · show (V c main_v95 : S1x128.Idx → EReal) (((cfg4.win 3).blk t).view.emb (ix2 (0 : Fin 1) q)) = (V c main_v95 : S1x128.Idx → EReal) (ix2 (0 : Fin 1) q)
    refine congrArg (V c main_v95 : S1x128.Idx → EReal) (funext fun a => Fin.ext ?_)
    match a with
    | ⟨0, _⟩ => show win4_3.index t (0 : Fin 2) * 1 + 1 * 0 = 0; omega
    | ⟨1, _⟩ => show win4_3.index t (1 : Fin 2) * 128 + 1 * q.val = q.val; omega

/-- An index of the output array is in point `t`'s block iff each coordinate is in the block's range on its axis. -/
theorem mem_block4 (t : Fin cfg4.N) (i : S50000x128.Idx) :
    i ∈ ((cfg4.win 5).blk t).view.set ↔ ∀ a : Fin 2, win4_5.index t a * S5000x128.size a ≤ (i a).val
      ∧ (i a).val < win4_5.index t a * S5000x128.size a + S5000x128.size a := by
  show i ∈ ((View.whole main_v96).slice (win4_5.rect t)).set ↔ _
  rw [View.set_slice_whole, Rect.mem_set_unit]
  exact Iff.rfl

/-- Every row is in the block of the point `row / 5000`. -/
theorem cover4 (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  have hN : cfg4.N = 10 := N_4
  obtain ⟨t, ht⟩ : ∃ t : Fin cfg4.N, t.val = (i 0).val / 5000 := ⟨⟨(i 0).val / 5000, by rw [hN]; omega⟩, rfl⟩
  obtain ⟨-, -, -, -, -, -, -, -, -, -, e50, e51⟩ := block_index4 t
  refine ⟨t, flush4_5 t, ?_⟩
  rw [mem_block4]
  intro a
  match a with
  | ⟨0, _⟩ =>
    show win4_5.index t (0 : Fin 2) * 5000 ≤ (i 0).val ∧ (i 0).val < win4_5.index t (0 : Fin 2) * 5000 + 5000
    omega
  | ⟨1, _⟩ =>
    show win4_5.index t (1 : Fin 2) * 128 ≤ (i 1).val ∧ (i 1).val < win4_5.index t (1 : Fin 2) * 128 + 128
    omega

/-- The region's output array after its ten write-backs. -/
theorem region4_value (c : Dev nD) :
    (dat4 (F := Ideal) V c).arrAt 5 cfg4.N
      = Cert.Sage.arr2 (Cert.Sage.hid128 (V c main_v92) (V c main_v73) (V c main_v93) (V c main_v94) (Cert.Sage.rowOf (V c main_v95))) :=
  (dat4 (F := Ideal) V c).arrAt_eq_of_cover 5 (hidden4 V c) (fun t _ => flushed4_eq V c t) (cover4)

end Cert.KernelIdeal.KVal

end
-- ==== Proof.HiddenRegion5.lean ====
/-
  The hidden layer of region 5 as one array.

  Each of the ten grid points writes back a block of 5000 rows; the block at point `t` is rows `5000 t … 5000 t + 4999` of
  the layer's output: the two row blocks it loads are those rows of the neighbourhood means and of the features, the
  weight blocks and the bias are whole arrays at every point. The ten blocks cover the 50000 rows (row `ρ` is in
  block `ρ / 5000`), so the output array ends holding the layer's function of the arrays the region finds.
-/
import proofs.«146821_j20100446946148_1_alg».proof.Proof.Spec
import proofs.«146821_j20100446946148_1_alg».proof.Proof.HiddenBody
import proofs.«146821_j20100446946148_1_alg».proof.Proof.Gen.KernelIdeal.Frame
import Idealize.ShloMosaic.Lib.Pipeline.Value

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The layer's output as a function of the arrays the region finds. -/
abbrev hidden5 (c : Dev nD) : Cert.Sage.Arr 50000 128 :=
  Cert.Sage.arr2 (Cert.Sage.hid128 (V c main_v115) (V c main_v96) (V c main_v116) (V c main_v117) (Cert.Sage.rowOf (V c main_v118)))

theorem origin5 : (![0, 0] : Fin 2 → Nat) = fun _ => 0 := funext fun a => by fin_cases a <;> rfl

/-- The index maps over the grid: the row blocks move with the point, the weights and the bias stay. -/
theorem block_index5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- What point `t` writes back is block `t` of the layer's output. -/
theorem flushed5_eq (c : Dev nD) (t : Fin cfg5.N) :
    (dat5 (F := Ideal) V c).flushed 5 t = ((cfg5.win 5).blk t).view.read (Elt Ideal) (hidden5 V c) := by
  show (cfg5.win 5).cut (grid5.coords t) ((dat5 (F := Ideal) V c).after 5 t) = _
  rw [after5_5]
  unfold out5_5
  rw [View.canon_unit_zero origin5]
  simp only [View.ld_unit_zero (S := S5000x128) origin5, View.ld_unit_zero (S := S128x128) origin5,
    View.ld_unit_zero (S := S1x128) origin5]
  obtain ⟨e00, e01, e10, e11, e20, e21, e30, e31, e40, e41, e50, e51⟩ := block_index5 t
  have hN : cfg5.N = 10 := N_5
  have htN : t.val < cfg5.N := t.isLt
  funext j
  obtain ⟨r, q, rfl⟩ : ∃ (r : Fin 5000) (q : Fin 128), j = ix2 r q := ⟨j 0, j 1, eq_ix2 j⟩
  have hr : r.val < 5000 := r.isLt
  have hR : t.val * 5000 + r.val < 50000 := by omega
  show k5_pay1 (F := Ideal) (iblk5 V c 0 t) (iblk5 V c 1 t) (iblk5 V c 2 t) (iblk5 V c 4 t) (iblk5 V c 3 t) (ix2 r q)
      = hidden5 V c (((cfg5.win 5).blk t).view.emb (ix2 r q))
  refine (k5_pay1_apply (iblk5 V c 0 t) (iblk5 V c 1 t) (iblk5 V c 2 t) (iblk5 V c 4 t) (iblk5 V c 3 t) r q).trans ?_
  have hemb : ((cfg5.win 5).blk t).view.emb (ix2 r q) = (ix2 (⟨t.val * 5000 + r.val, hR⟩ : Fin 50000) q : S50000x128.Idx) := by
    funext a
    apply Fin.ext
    match a with
    | ⟨0, _⟩ => show win5_5.index t (0 : Fin 2) * 5000 + 1 * r.val = t.val * 5000 + r.val; omega
    | ⟨1, _⟩ => show win5_5.index t (1 : Fin 2) * 128 + 1 * q.val = q.val; omega
  refine Eq.trans ?_ (congrArg (hidden5 V c) hemb).symm
  show _ = Cert.Sage.hid128 (V c main_v115) (V c main_v96) (V c main_v116) (V c main_v117) (Cert.Sage.rowOf (V c main_v118)) ⟨t.val * 5000 + r.val, hR⟩ q
  refine hidAt_eq_hid128 (V c main_v115) (V c main_v96) (V c main_v116) (V c main_v117) (V c main_v118)
    (iblk5 V c 0 t) (iblk5 V c 1 t) (iblk5 V c 2 t) (iblk5 V c 4 t) (iblk5 V c 3 t) r q ⟨t.val * 5000 + r.val, hR⟩ ?_ ?_ ?_ ?_ ?_
  · intro k
    show (V c main_v115 : S50000x128.Idx → EReal) (((cfg5.win 0).blk t).view.emb (ix2 r k)) = (V c main_v115 : S50000x128.Idx → EReal) (ix2 ⟨t.val * 5000 + r.val, hR⟩ k)
    refine congrArg (V c main_v115 : S50000x128.Idx → EReal) (funext fun a => Fin.ext ?_)
    match a with
    | ⟨0, _⟩ => show win5_0.index t (0 : Fin 2) * 5000 + 1 * r.val = t.val * 5000 + r.val; omega
    | ⟨1, _⟩ => show win5_0.index t (1 : Fin 2) * 128 + 1 * k.val = k.val; omega
  · intro k
    show (V c main_v96 : S50000x128.Idx → EReal) (((cfg5.win 1).blk t).view.emb (ix2 r k)) = (V c main_v96 : S50000x128.Idx → EReal) (ix2 ⟨t.val * 5000 + r.val, hR⟩ k)
    refine congrArg (V c main_v96 : S50000x128.Idx → EReal) (funext fun a => Fin.ext ?_)
    match a with
    | ⟨0, _⟩ => show win5_1.index t (0 : Fin 2) * 5000 + 1 * r.val = t.val * 5000 + r.val; omega
    | ⟨1, _⟩ => show win5_1.index t (1 : Fin 2) * 128 + 1 * k.val = k.val; omega
  · intro k
    show (V c main_v116 : S128x128.Idx → EReal) (((cfg5.win 2).blk t).view.emb (ix2 q k)) = (V c main_v116 : S128x128.Idx → EReal) (ix2 q k)
    refine congrArg (V c main_v116 : S128x128.Idx → EReal) (funext fun a => Fin.ext ?_)
    match a with
    | ⟨0, _⟩ => show win5_2.index t (0 : Fin 2) * 128 + 1 * q.val = q.val; omega
    | ⟨1, _⟩ => show win5_2.index t (1 : Fin 2) * 128 + 1 * k.val = k.val; omega
  · intro k
    show (V c main_v117 : S128x128.Idx → EReal) (((cfg5.win 4).blk t).view.emb (ix2 q k)) = (V c main_v117 : S128x128.Idx → EReal) (ix2 q k)
    refine congrArg (V c main_v117 : S128x128.Idx → EReal) (funext fun a => Fin.ext ?_)
    match a with
    | ⟨0, _⟩ => show win5_4.index t (0 : Fin 2) * 128 + 1 * q.val = q.val; omega
    | ⟨1, _⟩ => show win5_4.index t (1 : Fin 2) * 128 + 1 * k.val = k.val; omega
  · show (V c main_v118 : S1x128.Idx → EReal) (((cfg5.win 3).blk t).view.emb (ix2 (0 : Fin 1) q)) = (V c main_v118 : S1x128.Idx → EReal) (ix2 (0 : Fin 1) q)
    refine congrArg (V c main_v118 : S1x128.Idx → EReal) (funext fun a => Fin.ext ?_)
    match a with
    | ⟨0, _⟩ => show win5_3.index t (0 : Fin 2) * 1 + 1 * 0 = 0; omega
    | ⟨1, _⟩ => show win5_3.index t (1 : Fin 2) * 128 + 1 * q.val = q.val; omega

/-- An index of the output array is in point `t`'s block iff each coordinate is in the block's range on its axis. -/
theorem mem_block5 (t : Fin cfg5.N) (i : S50000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole main_v119).slice (win5_5.rect t)).set ↔ _
  rw [View.set_slice_whole, Rect.mem_set_unit]
  exact Iff.rfl

/-- Every row is in the block of the point `row / 5000`. -/
theorem cover5 (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  have hN : cfg5.N = 10 := N_5
  obtain ⟨t, ht⟩ : ∃ t : Fin cfg5.N, t.val = (i 0).val / 5000 := ⟨⟨(i 0).val / 5000, by rw [hN]; omega⟩, rfl⟩
  obtain ⟨-, -, -, -, -, -, -, -, -, -, e50, e51⟩ := block_index5 t
  refine ⟨t, flush5_5 t, ?_⟩
  rw [mem_block5]
  intro a
  match a with
  | ⟨0, _⟩ =>
    show win5_5.index t (0 : Fin 2) * 5000 ≤ (i 0).val ∧ (i 0).val < win5_5.index t (0 : Fin 2) * 5000 + 5000
    omega
  | ⟨1, _⟩ =>
    show win5_5.index t (1 : Fin 2) * 128 ≤ (i 1).val ∧ (i 1).val < win5_5.index t (1 : Fin 2) * 128 + 128
    omega

/-- The region's output array after its ten write-backs. -/
theorem region5_value (c : Dev nD) :
    (dat5 (F := Ideal) V c).arrAt 5 cfg5.N
      = Cert.Sage.arr2 (Cert.Sage.hid128 (V c main_v115) (V c main_v96) (V c main_v116) (V c main_v117) (Cert.Sage.rowOf (V c main_v118))) :=
  (dat5 (F := Ideal) V c).arrAt_eq_of_cover 5 (hidden5 V c) (fun t _ => flushed5_eq V c t) (cover5)

end Cert.KernelIdeal.KVal

end
-- ==== Proof.FinalRegion6.lean ====
/-
  The last-layer pass number two (the perturbed input): its two result arrays, entry by entry.

  The grid has 10 points; point `t` holds rows `5000·t … 5000·t + 4999` of the neighbourhood means and of the
  features, and the whole of the two weight matrices and of the bias row. What a point writes back is its block
  of the specification's logits, and of their row-wise log-softmax; the ten blocks tile the 50000 rows, so each
  result array is the specification's function of the region's input arrays.
-/
import proofs.«146821_j20100446946148_1_alg».proof.Proof.Gen.KernelIdeal.Frame
import proofs.«146821_j20100446946148_1_alg».proof.Proof.FinalBody
import Idealize.ShloMosaic.Lib.Pipeline.Value

noncomputable section

namespace Cert.KernelIdeal.KValF.R6

open Cert.KernelIdeal Cert.KernelIdeal.Gen Idealize.ShloMosaic Idealize.ShloMosaic.TcCoe Idealize.SL.Sem
open Idealize.ShloMosaic.ValueIdx Cert.KernelIdeal.KValF
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: the two row-blocked inputs and the two outputs move with the point along
    the rows; the weights and the bias stay at block zero. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0
    ∧ win6_6.index t (0 : Fin 2) = t.val ∧ win6_6.index t (1 : Fin 2) = 0 :=
  (by decide +kernel : ∀ t : Fin grid6.N, _)

/-- Row `r` of the block at point `t`, as a row of the 50000. -/
def rowAt (t : Fin cfg6.N) (r : Fin 5000) : Fin 50000 :=
  ⟨t.val * 5000 + r.val, by have h := t.isLt; have hN : cfg6.N = 10 := N_6; have hr := r.isLt; omega⟩

theorem rowAt_val (t : Fin cfg6.N) (r : Fin 5000) : (rowAt t r).val = t.val * 5000 + r.val := rfl

/-! ## The input blocks as rows of the arrays -/

theorem agg_blk (c : Dev nD) (t : Fin cfg6.N) (r : Fin 5000) (k : Fin 128) :
    (iblk6 V c 0 t) (ix2 r k) = (V c main_v138 : Cert.Sage.Arr 50000 128) (ix2 (rowAt t r) k) := by
  obtain ⟨e0, e1, -⟩ := idx_facts t
  show V c main_v138 (((cfg6.win 0).blk t).view.emb (ix2 r k)) = V c main_v138 (ix2 (rowAt t r) k)
  refine congrArg (V c main_v138) (funext fun a => Fin.ext ?_)
  match a with
  | ⟨0, _⟩ => show win6_0.index t (0 : Fin 2) * 5000 + 1 * r.val = t.val * 5000 + r.val; omega
  | ⟨1, _⟩ => show win6_0.index t (1 : Fin 2) * 128 + 1 * k.val = k.val; omega

theorem x_blk (c : Dev nD) (t : Fin cfg6.N) (r : Fin 5000) (k : Fin 128) :
    (iblk6 V c 1 t) (ix2 r k) = (V c main_v119 : Cert.Sage.Arr 50000 128) (ix2 (rowAt t r) k) := by
  obtain ⟨-, -, e0, e1, -⟩ := idx_facts t
  show V c main_v119 (((cfg6.win 1).blk t).view.emb (ix2 r k)) = V c main_v119 (ix2 (rowAt t r) k)
  refine congrArg (V c main_v119) (funext fun a => Fin.ext ?_)
  match a with
  | ⟨0, _⟩ => show win6_1.index t (0 : Fin 2) * 5000 + 1 * r.val = t.val * 5000 + r.val; omega
  | ⟨1, _⟩ => show win6_1.index t (1 : Fin 2) * 128 + 1 * k.val = k.val; omega

theorem wl_blk (c : Dev nD) (t : Fin cfg6.N) (q : Fin 47) (k : Fin 128) :
    (iblk6 V c 2 t) (ix2 q k) = (V c main_v139 : Cert.Sage.Arr 47 128) (ix2 q k) := by
  obtain ⟨-, -, -, -, e0, e1, -⟩ := idx_facts t
  show V c main_v139 (((cfg6.win 2).blk t).view.emb (ix2 q k)) = V c main_v139 (ix2 q k)
  refine congrArg (V c main_v139) (funext fun a => Fin.ext ?_)
  match a with
  | ⟨0, _⟩ => show win6_2.index t (0 : Fin 2) * 47 + 1 * q.val = q.val; omega
  | ⟨1, _⟩ => show win6_2.index t (1 : Fin 2) * 128 + 1 * k.val = k.val; omega

theorem b_blk (c : Dev nD) (t : Fin cfg6.N) (q : Fin 47) :
    (iblk6 V c 3 t) (ix2 (0 : Fin 1) q) = (V c main_v141 : Cert.Sage.Arr 1 47) (ix2 (0 : Fin 1) q) := by
  obtain ⟨-, -, -, -, -, -, e0, e1, -⟩ := idx_facts t
  show V c main_v141 (((cfg6.win 3).blk t).view.emb (ix2 (0 : Fin 1) q)) = V c main_v141 (ix2 (0 : Fin 1) q)
  refine congrArg (V c main_v141) (funext fun a => Fin.ext ?_)
  match a with
  | ⟨0, _⟩ => show win6_3.index t (0 : Fin 2) * 1 + 1 * 0 = 0; omega
  | ⟨1, _⟩ => show win6_3.index t (1 : Fin 2) * 47 + 1 * q.val = q.val; omega

theorem wr_blk (c : Dev nD) (t : Fin cfg6.N) (q : Fin 47) (k : Fin 128) :
    (iblk6 V c 4 t) (ix2 q k) = (V c main_v140 : Cert.Sage.Arr 47 128) (ix2 q k) := by
  obtain ⟨-, -, -, -, -, -, -, -, e0, e1, -⟩ := idx_facts t
  show V c main_v140 (((cfg6.win 4).blk t).view.emb (ix2 q k)) = V c main_v140 (ix2 q k)
  refine congrArg (V c main_v140) (funext fun a => Fin.ext ?_)
  match a with
  | ⟨0, _⟩ => show win6_4.index t (0 : Fin 2) * 47 + 1 * q.val = q.val; omega
  | ⟨1, _⟩ => show win6_4.index t (1 : Fin 2) * 128 + 1 * k.val = k.val; omega

/-- The logits of the block at point `t` are the specification's logits at the block's rows. -/
theorem blockLogit_eq (c : Dev nD) (t : Fin cfg6.N) (r : Fin 5000) (q : Fin 47) :
    blockLogit (iblk6 V c 0 t) (iblk6 V c 1 t) (iblk6 V c 2 t) (iblk6 V c 4 t) (iblk6 V c 3 t) r q
      = Cert.Sage.lin47 (V c main_v138) (V c main_v119) (V c main_v139) (V c main_v140) (Cert.Sage.rowOf (V c main_v141)) (rowAt t r) q := by
  unfold blockLogit Cert.Sage.lin47
  refine congrArg₂ (· + ·) (congrArg₂ (· + ·)
    (Finset.sum_congr rfl fun k _ => congrArg₂ (· * ·) (agg_blk V c t r k) (wl_blk V c t q k))
    (Finset.sum_congr rfl fun k _ => congrArg₂ (· * ·) (x_blk V c t r k) (wr_blk V c t q k))) ?_
  exact (b_blk V c t q).trans (Cert.Sage.rowOf_ix1 _ q).symm

/-! ## The output blocks inside the result arrays -/

theorem z_emb (t : Fin cfg6.N) (r : Fin 5000) (q : Fin 47) :
    ((cfg6.win 5).blk t).view.emb (ix2 r q) = (ix2 (rowAt t r) q : S50000x47.Idx) := by
  obtain ⟨-, -, -, -, -, -, -, -, -, -, e0, e1, -⟩ := idx_facts t
  refine funext fun a => Fin.ext ?_
  match a with
  | ⟨0, _⟩ => show win6_5.index t (0 : Fin 2) * 5000 + 1 * r.val = t.val * 5000 + r.val; omega
  | ⟨1, _⟩ => show win6_5.index t (1 : Fin 2) * 47 + 1 * q.val = q.val; omega

theorem y_emb (t : Fin cfg6.N) (r : Fin 5000) (q : Fin 47) :
    ((cfg6.win 6).blk t).view.emb (ix2 r q) = (ix2 (rowAt t r) q : S50000x47.Idx) := by
  obtain ⟨-, -, -, -, -, -, -, -, -, -, -, -, e0, e1⟩ := idx_facts t
  refine funext fun a => Fin.ext ?_
  match a with
  | ⟨0, _⟩ => show win6_6.index t (0 : Fin 2) * 5000 + 1 * r.val = t.val * 5000 + r.val; omega
  | ⟨1, _⟩ => show win6_6.index t (1 : Fin 2) * 47 + 1 * q.val = q.val; omega

/-- The logits array of the specification, from the region's input arrays. -/
abbrev zSpec (c : Dev nD) : Cert.Sage.Arr 50000 47 :=
  Cert.Sage.arr2 (Cert.Sage.lin47 (V c main_v138) (V c main_v119) (V c main_v139) (V c main_v140) (Cert.Sage.rowOf (V c main_v141)))

/-- The log-softmax array of the specification, from the region's input arrays. -/
abbrev ySpec (c : Dev nD) : Cert.Sage.Arr 50000 47 :=
  Cert.Sage.arr2 (fun r q => Cert.Sage.logSoftmax47 (fun k =>
    Cert.Sage.lin47 (V c main_v138) (V c main_v119) (V c main_v139) (V c main_v140) (Cert.Sage.rowOf (V c main_v141)) r k) q)

/-- What point `t` writes back to the logits array is block `t` of the specification's logits. -/
theorem flushed_z (c : Dev nD) (t : Fin cfg6.N) :
    (dat6 (F := Ideal) V c).flushed 5 t = ((cfg6.win 5).blk t).view.read (Elt Ideal) (zSpec V c) := by
  show (cfg6.win 5).cut (grid6.coords t) ((dat6 (F := Ideal) V c).after 5 t) = _
  rw [after6_5]
  unfold out6_5
  rw [View.canon_unit_zero zero_offsets]
  simp only [View.ld_unit_zero (S := S5000x128) zero_offsets, View.ld_unit_zero (S := S47x128) zero_offsets,
    View.ld_unit_zero (S := S1x47) zero_offsets]
  rw [k6_pay1_eq]
  funext j
  obtain ⟨r, q, rfl⟩ : ∃ (r : Fin 5000) (q : Fin 47), j = ix2 r q := ⟨j 0, j 1, eq_ix2 j⟩
  show k2_pay1 (F := Ideal) (iblk6 V c 0 t) (iblk6 V c 1 t) (iblk6 V c 2 t) (iblk6 V c 4 t) (iblk6 V c 3 t) (ix2 r q)
    = zSpec V c (((cfg6.win 5).blk t).view.emb (ix2 r q))
  rw [z_emb]
  refine (logits_apply (iblk6 V c 0 t) (iblk6 V c 1 t) (iblk6 V c 2 t) (iblk6 V c 4 t) (iblk6 V c 3 t) r q).trans ?_
  exact blockLogit_eq V c t r q

/-- What point `t` writes back to the log-softmax array is block `t` of the specification's log-softmax. -/
theorem flushed_y (c : Dev nD) (t : Fin cfg6.N) :
    (dat6 (F := Ideal) V c).flushed 6 t = ((cfg6.win 6).blk t).view.read (Elt Ideal) (ySpec V c) := by
  show (cfg6.win 6).cut (grid6.coords t) ((dat6 (F := Ideal) V c).after 6 t) = _
  rw [after6_6]
  unfold out6_6
  rw [View.canon_unit_zero zero_offsets]
  simp only [View.ld_unit_zero (S := S5000x128) zero_offsets, View.ld_unit_zero (S := S47x128) zero_offsets,
    View.ld_unit_zero (S := S1x47) zero_offsets]
  rw [k6_pay2_eq]
  funext j
  obtain ⟨r, q, rfl⟩ : ∃ (r : Fin 5000) (q : Fin 47), j = ix2 r q := ⟨j 0, j 1, eq_ix2 j⟩
  show k2_pay2 (F := Ideal) (iblk6 V c 0 t) (iblk6 V c 1 t) (iblk6 V c 2 t) (iblk6 V c 4 t) (iblk6 V c 3 t) (ix2 r q)
    = ySpec V c (((cfg6.win 6).blk t).view.emb (ix2 r q))
  rw [y_emb]
  refine (logSoftmaxPay_apply (iblk6 V c 0 t) (iblk6 V c 1 t) (iblk6 V c 2 t) (iblk6 V c 4 t) (iblk6 V c 3 t) r q).trans ?_
  exact congrArg (fun z => Cert.Sage.logSoftmax47 z q) (funext fun k => blockLogit_eq V c t r k)

/-! ## The ten blocks tile the 50000 rows -/

theorem mem_blk_z (t : Fin cfg6.N) (i : S50000x47.Idx) :
    i ∈ ((cfg6.win 5).blk t).view.set ↔ ∀ a : Fin 2, win6_5.index t a * S5000x47.size a ≤ (i a).val ∧ (i a).val < win6_5.index t a * S5000x47.size a + S5000x47.size a := by
  show i ∈ ((View.whole main_v142_0).slice (win6_5.rect t)).set ↔ _
  rw [View.set_slice_whole, Rect.mem_set_unit]
  exact Iff.rfl

theorem mem_blk_y (t : Fin cfg6.N) (i : S50000x47.Idx) :
    i ∈ ((cfg6.win 6).blk t).view.set ↔ ∀ a : Fin 2, win6_6.index t a * S5000x47.size a ≤ (i a).val ∧ (i a).val < win6_6.index t a * S5000x47.size a + S5000x47.size a := by
  show i ∈ ((View.whole main_v142_1).slice (win6_6.rect t)).set ↔ _
  rw [View.set_slice_whole, Rect.mem_set_unit]
  exact Iff.rfl

/-- Row `i 0` lies in the block of point `(i 0) / 5000`. -/
theorem cover_z (i : S50000x47.Idx) : ∃ t : Fin cfg6.N, (cfg6.win 5).flush t = true ∧ i ∈ ((cfg6.win 5).blk t).view.set := by
  have hi0 : (i 0).val < 50000 := (i 0).isLt
  have hi1 : (i 1).val < 47 := (i 1).isLt
  have hN : cfg6.N = 10 := N_6
  obtain ⟨t, ht⟩ : ∃ t : Fin cfg6.N, t.val = (i 0).val / 5000 := ⟨⟨(i 0).val / 5000, by omega⟩, rfl⟩
  obtain ⟨-, -, -, -, -, -, -, -, -, -, e0, e1, -⟩ := idx_facts t
  refine ⟨t, flush6_5 t, ?_⟩
  rw [mem_blk_z]
  intro a
  match a with
  | ⟨0, _⟩ => show win6_5.index t (0 : Fin 2) * 5000 ≤ (i 0).val ∧ (i 0).val < win6_5.index t (0 : Fin 2) * 5000 + 5000; omega
  | ⟨1, _⟩ => show win6_5.index t (1 : Fin 2) * 47 ≤ (i 1).val ∧ (i 1).val < win6_5.index t (1 : Fin 2) * 47 + 47; omega

theorem cover_y (i : S50000x47.Idx) : ∃ t : Fin cfg6.N, (cfg6.win 6).flush t = true ∧ i ∈ ((cfg6.win 6).blk t).view.set := by
  have hi0 : (i 0).val < 50000 := (i 0).isLt
  have hi1 : (i 1).val < 47 := (i 1).isLt
  have hN : cfg6.N = 10 := N_6
  obtain ⟨t, ht⟩ : ∃ t : Fin cfg6.N, t.val = (i 0).val / 5000 := ⟨⟨(i 0).val / 5000, by omega⟩, rfl⟩
  obtain ⟨-, -, -, -, -, -, -, -, -, -, -, -, e0, e1⟩ := idx_facts t
  refine ⟨t, flush6_6 t, ?_⟩
  rw [mem_blk_y]
  intro a
  match a with
  | ⟨0, _⟩ => show win6_6.index t (0 : Fin 2) * 5000 ≤ (i 0).val ∧ (i 0).val < win6_6.index t (0 : Fin 2) * 5000 + 5000; omega
  | ⟨1, _⟩ => show win6_6.index t (1 : Fin 2) * 47 ≤ (i 1).val ∧ (i 1).val < win6_6.index t (1 : Fin 2) * 47 + 47; omega

end Cert.KernelIdeal.KValF.R6

namespace Cert.KernelIdeal.KValF

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- After the region, the logits array holds the specification's logits of the region's input arrays. -/
theorem region6_z (c : Dev nD) :
    (Gen.dat6 (F := Ideal) V c).arrAt 5 cfg6.N
      = Cert.Sage.arr2 (Cert.Sage.lin47 (V c main_v138) (V c main_v119) (V c main_v139) (V c main_v140) (Cert.Sage.rowOf (V c main_v141))) :=
  (Gen.dat6 (F := Ideal) V c).arrAt_eq_of_cover 5 (R6.zSpec V c) (fun t _ => R6.flushed_z V c t) R6.cover_z

/-- After the region, the log-softmax array holds the specification's row-wise log-softmax of those logits. -/
theorem region6_y (c : Dev nD) :
    (Gen.dat6 (F := Ideal) V c).arrAt 6 cfg6.N
      = Cert.Sage.arr2 (fun r q => Cert.Sage.logSoftmax47 (fun k =>
          Cert.Sage.lin47 (V c main_v138) (V c main_v119) (V c main_v139) (V c main_v140) (Cert.Sage.rowOf (V c main_v141)) r k) q) :=
  (Gen.dat6 (F := Ideal) V c).arrAt_eq_of_cover 6 (R6.ySpec V c) (fun t _ => R6.flushed_y V c t) R6.cover_y

end Cert.KernelIdeal.KValF

end
-- ==== Proof.KFoldN.lean ====
/-
  The perturbed branch read back: the perturbation's output and then each layer's, as functions of the launch
  contents of the arguments; its hidden result carried to the end of the run.
-/
import proofs.«146821_j20100446946148_1_alg».proof.Proof.KAt
import proofs.«146821_j20100446946148_1_alg».proof.Proof.KKeepVals
import proofs.«146821_j20100446946148_1_alg».proof.Proof.NoiseRegion
import proofs.«146821_j20100446946148_1_alg».proof.Proof.HiddenRegion4
import proofs.«146821_j20100446946148_1_alg».proof.Proof.HiddenRegion5
import proofs.«146821_j20100446946148_1_alg».proof.Proof.FinalRegion6

set_option maxRecDepth 16384

noncomputable section

namespace Cert.KernelIdeal.KFold

open Cert.KernelIdeal Cert.KernelIdeal.Gen
open Idealize.ShloMosaic Idealize.ShloMosaic.TcCoe Idealize.ShloMosaic.Tactic
open Idealize.SL Idealize.SL.Sem
open Cert.Sage

variable (m : (ℓ : Loc nD τ sig) → Buf (Elt Ideal) ℓ) (ρ : Dev nD → PrngReg)

/-! ## The perturbed branch: the perturbation, then the three layers -/

theorem at7_xN (c : Dev nD) : W7 m ρ c (Proc.devRef .tc main_v73) = xN m ρ c := by
  refine (W7_arr m ρ c 2).trans ?_
  rw [Cert.KernelIdeal.KVal.region3_value (V6 m ρ) c]
  dsimp only [V6]
  rw [arg0_at6 m ρ c, arg2_at6 m ρ c]
  rfl

theorem at9_h1N (c : Dev nD) : W9 m ρ c (Proc.devRef .tc main_v96) = h1N m ρ c := by
  refine (W9_arr m ρ c 5).trans ?_
  rw [Cert.KernelIdeal.KVal.region4_value (V8 m ρ) c]
  dsimp only [V8]
  rw [host4_agg m ρ c, host4_wl m ρ c, host4_wr m ρ c, host4_b m ρ c, keep_v73_7_8 m ρ c, at7_xN m ρ c, src_at7 m ρ c, dst_at7 m ρ c, arg3_at7 m ρ c, arg4_at7 m ρ c, arg5_at7 m ρ c]
  rfl

theorem at11_h2N (c : Dev nD) : W11 m ρ c (Proc.devRef .tc main_v119) = h2N m ρ c := by
  refine (W11_arr m ρ c 5).trans ?_
  rw [Cert.KernelIdeal.KVal.region5_value (V10 m ρ) c]
  dsimp only [V10]
  rw [host5_agg m ρ c, host5_wl m ρ c, host5_wr m ρ c, host5_b m ρ c, keep_v96_9_10 m ρ c, at9_h1N m ρ c, src_at9 m ρ c, dst_at9 m ρ c, arg6_at9 m ρ c, arg7_at9 m ρ c, arg8_at9 m ρ c]
  rfl

theorem fin_zN (c : Dev nD) : W13 m ρ c (Proc.devRef .tc main_v142_0) = zN m ρ c := by
  refine (W13_arr m ρ c 5).trans ?_
  rw [Cert.KernelIdeal.KValF.region6_z (V12 m ρ) c]
  dsimp only [V12]
  rw [host6_agg m ρ c, host6_wl m ρ c, host6_wr m ρ c, host6_b m ρ c, keep_v119_11_12 m ρ c, at11_h2N m ρ c, src_at11 m ρ c, dst_at11 m ρ c, arg9_at11 m ρ c, arg10_at11 m ρ c, arg11_at11 m ρ c]
  rfl

theorem fin_yN (c : Dev nD) : W13 m ρ c (Proc.devRef .tc main_v142_1) = yN m ρ c := by
  refine (W13_arr m ρ c 6).trans ?_
  rw [Cert.KernelIdeal.KValF.region6_y (V12 m ρ) c]
  dsimp only [V12]
  rw [host6_agg m ρ c, host6_wl m ρ c, host6_wr m ρ c, host6_b m ρ c, keep_v119_11_12 m ρ c, at11_h2N m ρ c, src_at11 m ρ c, dst_at11 m ρ c, arg9_at11 m ρ c, arg10_at11 m ρ c, arg11_at11 m ρ c]
  rfl

theorem fin_h2N (c : Dev nD) : W13 m ρ c (Proc.devRef .tc main_v119) = h2N m ρ c :=
  (keep_v119_12_13 m ρ c).trans ((keep_v119_11_12 m ρ c).trans (at11_h2N m ρ c))

end Cert.KernelIdeal.KFold

end
-- ==== Proof.KRes.lean ====
/-
  The idealized kernel program's six results are the reference's compositions of the same argument arrays.

  Layer by layer: each of the kernel program's stages is the reference's stage (the bridge lemmas), applied to what
  the previous stage gave, which by the previous step is the reference's composition so far. The edge list is cut
  into its two endpoint columns the same way in both programs.
-/
import proofs.«146821_j20100446946148_1_alg».proof.Proof.Bridge
import proofs.«146821_j20100446946148_1_alg».proof.Proof.RefStages
import proofs.«146821_j20100446946148_1_alg».proof.Proof.KFoldP
import proofs.«146821_j20100446946148_1_alg».proof.Proof.KFoldN

set_option maxRecDepth 16384

noncomputable section

namespace Cert.KernelIdeal.KFold

open Cert.KernelIdeal Cert.KernelIdeal.Gen
open Idealize.ShloMosaic Idealize.ShloMosaic.TcCoe Idealize.ShloMosaic.Tactic
open Idealize.SL Idealize.SL.Sem
open Cert.Sage Cert.Bridge Cert.ReferenceIdeal.RefVal

variable (m : (ℓ : Loc nD τ sig) → Buf (Elt Ideal) ℓ) (ρ : Dev nD → PrngReg)

theorem k_h1 (c : Dev nD) : h1 m ρ c = layerR (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  unfold h1
  rw [layerK_eq]
  rfl

theorem k_h2 (c : Dev nD) : h2 m ρ c = hid2R (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold h2
  rw [layerK_eq, k_h1]
  rfl

theorem k_zP (c : Dev nD) : zP m ρ c = zR (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold zP
  rw [logitsK_eq, k_h2]
  rfl

theorem k_yP (c : Dev nD) : yP m ρ c = yR (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold yP
  rw [logprobK_eq, k_h2]
  rfl

theorem k_xN (c : Dev nD) : xN m ρ c = noiseR (m ((c.tc : Thread nD τ).loc main_arg0)) (m ((c.tc : Thread nD τ).loc main_arg2)) := by
  unfold xN
  rw [noisyK_eq]

theorem k_h1N (c : Dev nD) : h1N m ρ c = layerR (noiseR (m ((c.tc : Thread nD τ).loc main_arg0)) (m ((c.tc : Thread nD τ).loc main_arg2))) (m ((c.tc : Thread nD τ).loc main_arg1)) (m ((c.tc : Thread nD τ).loc main_arg3)) (m ((c.tc : Thread nD τ).loc main_arg4)) (m ((c.tc : Thread nD τ).loc main_arg5)) := by
  unfold h1N
  rw [layerK_eq, k_xN]
  rfl

theorem k_h2N (c : Dev nD) : h2N m ρ c = hid2R (noiseR (m ((c.tc : Thread nD τ).loc main_arg0)) (m ((c.tc : Thread nD τ).loc main_arg2))) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold h2N
  rw [layerK_eq, k_h1N]
  rfl

theorem k_zN (c : Dev nD) : zN m ρ c = zR (noiseR (m ((c.tc : Thread nD τ).loc main_arg0)) (m ((c.tc : Thread nD τ).loc main_arg2))) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold zN
  rw [logitsK_eq, k_h2N]
  rfl

theorem k_yN (c : Dev nD) : yN m ρ c = yR (noiseR (m ((c.tc : Thread nD τ).loc main_arg0)) (m ((c.tc : Thread nD τ).loc main_arg2))) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold yN
  rw [logprobK_eq, k_h2N]
  rfl

end Cert.KernelIdeal.KFold

end
-- ==== Proof.RefChunks.lean ====
/-
  The reference program's operation list cut into its eight stages, and the buffer contents at the cuts.

  The list is the concatenation of the stages' lists, and running a concatenation from some contents is running the
  second part from what the first part leaves. So the contents the whole list ends at are reached through eight
  boundaries, each a short list's effect on the one before.
-/
import proofs.«146821_j20100446946148_1_alg».proof.Proof.RefOpsP
import Idealize.ShloMosaic.PureOps.Ideal

set_option maxRecDepth 16384

noncomputable section

namespace Idealize.ShloMosaic.StableHlo

variable {τ : Topo} {sig : RefSig} {Val : EltTy → Type}

/-- Running two lists one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo

namespace Cert.ReferenceIdeal.RefRun

open Cert.ReferenceIdeal Cert.ReferenceIdeal.Gen Idealize.ShloMosaic Idealize.ShloMosaic.TcCoe Idealize.SL.Sem Idealize.ShloMosaic.StableHlo

section
variable {F : FTy → Type} [FloatOps F]

/-- Operations 0 to 3 of the reference: the two endpoint columns cut out of the edge list. -/
abbrev chunk0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000 ]

/-- Operations 4 to 38 of the reference: the clean branch's first hidden layer. -/
abbrev chunk1 : List (HloOp τ sig (Elt F)) :=
  [ nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v14 (broadcastInDim S800000x1 ![] bcast_S_S800000x1 : (⟨S_, .f32⟩ : BufTy).Contents (Elt F) → (⟨S800000x1, .f32⟩ : BufTy).Contents (Elt F)),
    nullary main_cst_2 (constant S_ .f32 0x00000000#32),
    unary main_cst_2 main_v15 (broadcastInDim S50000x1 ![] bcast_S_S50000x1 : (⟨S_, .f32⟩ : BufTy).Contents (Elt F) → (⟨S50000x1, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_3 (constant S_ .f32 0x3F800000#32),
    unary main_cst_3 main_v18 (broadcastInDim S50000x1 ![] bcast_S_S50000x1 : (⟨S_, .f32⟩ : BufTy).Contents (Elt F) → (⟨S50000x1, .f32⟩ : BufTy).Contents (Elt F)),
    binary main_v17 main_v18 main_v19 (maximumf : (⟨S50000x1, .f32⟩ : BufTy).Contents (Elt F) → (⟨S50000x1, .f32⟩ : BufTy).Contents (Elt F) → (⟨S50000x1, .f32⟩ : BufTy).Contents (Elt F)),
    unary main_v19 main_v20 (broadcastInDim S50000x128 ![0, 1] bcast_S50000x1_S50000x128_0_1 : (⟨S50000x1, .f32⟩ : BufTy).Contents (Elt F) → (⟨S50000x128, .f32⟩ : BufTy).Contents (Elt F)),
    binary main_v13 main_v20 main_v21 (Host.divf : (⟨S50000x128, .f32⟩ : BufTy).Contents (Elt F) → (⟨S50000x128, .f32⟩ : BufTy).Contents (Elt F) → (⟨S50000x128, .f32⟩ : BufTy).Contents (Elt F)),
    unary main_arg3 main_v22 ((transpose S128x128 [1, 0] · transposes_S128x128_S128x128_1_0) : (⟨S128x128, .f32⟩ : BufTy).Contents (Elt F) → (⟨S128x128, .f32⟩ : BufTy).Contents (Elt F)),
    binary main_v21 main_v22 main_v23 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v24 (broadcastInDim S1x128 ![1] bcast_S128_S1x128_1 : (⟨S128, .f32⟩ : BufTy).Contents (Elt F) → (⟨S1x128, .f32⟩ : BufTy).Contents (Elt F)),
    unary main_v24 main_v25 (broadcastInDim S50000x128 ![0, 1] bcast_S1x128_S50000x128_0_1 : (⟨S1x128, .f32⟩ : BufTy).Contents (Elt F) → (⟨S50000x128, .f32⟩ : BufTy).Contents (Elt F)),
    binary main_v23 main_v25 main_v26 (addf : (⟨S50000x128, .f32⟩ : BufTy).Contents (Elt F) → (⟨S50000x128, .f32⟩ : BufTy).Contents (Elt F) → (⟨S50000x128, .f32⟩ : BufTy).Contents (Elt F)),
    unary main_arg5 main_v27 ((transpose S128x128 [1, 0] · transposes_S128x128_S128x128_1_0) : (⟨S128x128, .f32⟩ : BufTy).Contents (Elt F) → (⟨S128x128, .f32⟩ : BufTy).Contents (Elt F)),
    binary main_arg0 main_v27 main_v28 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v26 main_v28 main_v29 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v29) (TRef.of (T := ⟨S50000x128, .f32⟩) main_call0_v0) (TRef.of (T := ⟨S50000x128, .f32⟩) main_v30) maximumf ]

/-- Operations 39 to 73 of the reference: the clean branch's second hidden layer. -/
abbrev chunk2 : List (HloOp τ sig (Elt F)) :=
  [ nullary main_c_4 (constantI S_ 32 0#32),
    unary main_c_4 main_v31 (broadcastInDim S800000 ![] bcast_S_S800000 : (⟨S_, .i32⟩ : BufTy).Contents (Elt F) → (⟨S800000, .i32⟩ : BufTy).Contents (Elt F)),
    binary main_v1 main_v31 main_v32 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v33 (broadcastInDim S800000 ![] bcast_S_S800000 : (⟨S_, .i32⟩ : BufTy).Contents (Elt F) → (⟨S800000, .i32⟩ : BufTy).Contents (Elt F)),
    binary main_v1 main_v33 main_v34 (addi : (⟨S800000, .i32⟩ : BufTy).Contents (Elt F) → (⟨S800000, .i32⟩ : BufTy).Contents (Elt F) → (⟨S800000, .i32⟩ : BufTy).Contents (Elt F)),
    ternary main_v32 main_v34 main_v1 main_v35 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v35 main_v36 (broadcastInDim S800000x1 ![0] bcast_S800000_S800000x1_0 : (⟨S800000, .i32⟩ : BufTy).Contents (Elt F) → (⟨S800000x1, .i32⟩ : BufTy).Contents (Elt F)),
    binary main_v30 main_v36 main_v37 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_6 (constant S_ .f32 0x00000000#32),
    unary main_cst_6 main_v38 (broadcastInDim S50000x128 ![] bcast_S_S50000x128 : (⟨S_, .f32⟩ : BufTy).Contents (Elt F) → (⟨S50000x128, .f32⟩ : BufTy).Contents (Elt F)),
    unary main_v3 main_v39 (broadcastInDim S800000x1 ![0] bcast_S800000_S800000x1_0 : (⟨S800000, .i32⟩ : BufTy).Contents (Elt F) → (⟨S800000x1, .i32⟩ : BufTy).Contents (Elt F)),
    ternary main_v38 main_v39 main_v37 main_v40 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_7 (constant S_ .f32 0x3F800000#32),
    unary main_cst_7 main_v41 (broadcastInDim S800000x1 ![] bcast_S_S800000x1 : (⟨S_, .f32⟩ : BufTy).Contents (Elt F) → (⟨S800000x1, .f32⟩ : BufTy).Contents (Elt F)),
    nullary main_cst_8 (constant S_ .f32 0x00000000#32),
    unary main_cst_8 main_v42 (broadcastInDim S50000x1 ![] bcast_S_S50000x1 : (⟨S_, .f32⟩ : BufTy).Contents (Elt F) → (⟨S50000x1, .f32⟩ : BufTy).Contents (Elt F)),
    unary main_v3 main_v43 (broadcastInDim S800000x1 ![0] bcast_S800000_S800000x1_0 : (⟨S800000, .i32⟩ : BufTy).Contents (Elt F) → (⟨S800000x1, .i32⟩ : BufTy).Contents (Elt F)),
    ternary main_v42 main_v43 main_v41 main_v44 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_9 (constant S_ .f32 0x3F800000#32),
    unary main_cst_9 main_v45 (broadcastInDim S50000x1 ![] bcast_S_S50000x1 : (⟨S_, .f32⟩ : BufTy).Contents (Elt F) → (⟨S50000x1, .f32⟩ : BufTy).Contents (Elt F)),
    binary main_v44 main_v45 main_v46 (maximumf : (⟨S50000x1, .f32⟩ : BufTy).Contents (Elt F) → (⟨S50000x1, .f32⟩ : BufTy).Contents (Elt F) → (⟨S50000x1, .f32⟩ : BufTy).Contents (Elt F)),
    unary main_v46 main_v47 (broadcastInDim S50000x128 ![0, 1] bcast_S50000x1_S50000x128_0_1 : (⟨S50000x1, .f32⟩ : BufTy).Contents (Elt F) → (⟨S50000x128, .f32⟩ : BufTy).Contents (Elt F)),
    binary main_v40 main_v47 main_v48 (Host.divf : (⟨S50000x128, .f32⟩ : BufTy).Contents (Elt F) → (⟨S50000x128, .f32⟩ : BufTy).Contents (Elt F) → (⟨S50000x128, .f32⟩ : BufTy).Contents (Elt F)),
    unary main_arg6 main_v49 ((transpose S128x128 [1, 0] · transposes_S128x128_S128x128_1_0) : (⟨S128x128, .f32⟩ : BufTy).Contents (Elt F) → (⟨S128x128, .f32⟩ : BufTy).Contents (Elt F)),
    binary main_v48 main_v49 main_v50 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v51 (broadcastInDim S1x128 ![1] bcast_S128_S1x128_1 : (⟨S128, .f32⟩ : BufTy).Contents (Elt F) → (⟨S1x128, .f32⟩ : BufTy).Contents (Elt F)),
    unary main_v51 main_v52 (broadcastInDim S50000x128 ![0, 1] bcast_S1x128_S50000x128_0_1 : (⟨S1x128, .f32⟩ : BufTy).Contents (Elt F) → (⟨S50000x128, .f32⟩ : BufTy).Contents (Elt F)),
    binary main_v50 main_v52 main_v53 (addf : (⟨S50000x128, .f32⟩ : BufTy).Contents (Elt F) → (⟨S50000x128, .f32⟩ : BufTy).Contents (Elt F) → (⟨S50000x128, .f32⟩ : BufTy).Contents (Elt F)),
    unary main_arg8 main_v54 ((transpose S128x128 [1, 0] · transposes_S128x128_S128x128_1_0) : (⟨S128x128, .f32⟩ : BufTy).Contents (Elt F) → (⟨S128x128, .f32⟩ : BufTy).Contents (Elt F)),
    binary main_v30 main_v54 main_v55 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v53 main_v55 main_v56 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v56) (TRef.of (T := ⟨S50000x128, .f32⟩) main_call1_v0) (TRef.of (T := ⟨S50000x128, .f32⟩) main_v57) maximumf ]

/-- Operations 74 to 120 of the reference: the clean branch's logits and their log-softmax. -/
abbrev chunk3 : List (HloOp τ sig (Elt F)) :=
  [ nullary main_c_10 (constantI S_ 32 0#32),
    unary main_c_10 main_v58 (broadcastInDim S800000 ![] bcast_S_S800000 : (⟨S_, .i32⟩ : BufTy).Contents (Elt F) → (⟨S800000, .i32⟩ : BufTy).Contents (Elt F)),
    binary main_v1 main_v58 main_v59 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v60 (broadcastInDim S800000 ![] bcast_S_S800000 : (⟨S_, .i32⟩ : BufTy).Contents (Elt F) → (⟨S800000, .i32⟩ : BufTy).Contents (Elt F)),
    binary main_v1 main_v60 main_v61 (addi : (⟨S800000, .i32⟩ : BufTy).Contents (Elt F) → (⟨S800000, .i32⟩ : BufTy).Contents (Elt F) → (⟨S800000, .i32⟩ : BufTy).Contents (Elt F)),
    ternary main_v59 main_v61 main_v1 main_v62 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v62 main_v63 (broadcastInDim S800000x1 ![0] bcast_S800000_S800000x1_0 : (⟨S800000, .i32⟩ : BufTy).Contents (Elt F) → (⟨S800000x1, .i32⟩ : BufTy).Contents (Elt F)),
    binary main_v57 main_v63 main_v64 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_12 (constant S_ .f32 0x00000000#32),
    unary main_cst_12 main_v65 (broadcastInDim S50000x128 ![] bcast_S_S50000x128 : (⟨S_, .f32⟩ : BufTy).Contents (Elt F) → (⟨S50000x128, .f32⟩ : BufTy).Contents (Elt F)),
    unary main_v3 main_v66 (broadcastInDim S800000x1 ![0] bcast_S800000_S800000x1_0 : (⟨S800000, .i32⟩ : BufTy).Contents (Elt F) → (⟨S800000x1, .i32⟩ : BufTy).Contents (Elt F)),
    ternary main_v65 main_v66 main_v64 main_v67 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_13 (constant S_ .f32 0x3F800000#32),
    unary main_cst_13 main_v68 (broadcastInDim S800000x1 ![] bcast_S_S800000x1 : (⟨S_, .f32⟩ : BufTy).Contents (Elt F) → (⟨S800000x1, .f32⟩ : BufTy).Contents (Elt F)),
    nullary main_cst_14 (constant S_ .f32 0x00000000#32),
    unary main_cst_14 main_v69 (broadcastInDim S50000x1 ![] bcast_S_S50000x1 : (⟨S_, .f32⟩ : BufTy).Contents (Elt F) → (⟨S50000x1, .f32⟩ : BufTy).Contents (Elt F)),
    unary main_v3 main_v70 (broadcastInDim S800000x1 ![0] bcast_S800000_S800000x1_0 : (⟨S800000, .i32⟩ : BufTy).Contents (Elt F) → (⟨S800000x1, .i32⟩ : BufTy).Contents (Elt F)),
    ternary main_v69 main_v70 main_v68 main_v71 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_15 (constant S_ .f32 0x3F800000#32),
    unary main_cst_15 main_v72 (broadcastInDim S50000x1 ![] bcast_S_S50000x1 : (⟨S_, .f32⟩ : BufTy).Contents (Elt F) → (⟨S50000x1, .f32⟩ : BufTy).Contents (Elt F)),
    binary main_v71 main_v72 main_v73 (maximumf : (⟨S50000x1, .f32⟩ : BufTy).Contents (Elt F) → (⟨S50000x1, .f32⟩ : BufTy).Contents (Elt F) → (⟨S50000x1, .f32⟩ : BufTy).Contents (Elt F)),
    unary main_v73 main_v74 (broadcastInDim S50000x128 ![0, 1] bcast_S50000x1_S50000x128_0_1 : (⟨S50000x1, .f32⟩ : BufTy).Contents (Elt F) → (⟨S50000x128, .f32⟩ : BufTy).Contents (Elt F)),
    binary main_v67 main_v74 main_v75 (Host.divf : (⟨S50000x128, .f32⟩ : BufTy).Contents (Elt F) → (⟨S50000x128, .f32⟩ : BufTy).Contents (Elt F) → (⟨S50000x128, .f32⟩ : BufTy).Contents (Elt F)),
    unary main_arg9 main_v76 ((transpose S128x47 [1, 0] · transposes_S47x128_S128x47_1_0) : (⟨S47x128, .f32⟩ : BufTy).Contents (Elt F) → (⟨S128x47, .f32⟩ : BufTy).Contents (Elt F)),
    binary main_v75 main_v76 main_v77 ((fun l r => Host.dotGeneral dot_S50000x128_S128x47_S50000x47_1_0_0_1_n_n none l r) : (⟨S50000x128, .f32⟩ : BufTy).Contents (Elt F) → (⟨S128x47, .f32⟩ : BufTy).Contents (Elt F) → (⟨S50000x47, .f32⟩ : BufTy).Contents (Elt F)),
    unary main_arg10 main_v78 (broadcastInDim S1x47 ![1] bcast_S47_S1x47_1 : (⟨S47, .f32⟩ : BufTy).Contents (Elt F) → (⟨S1x47, .f32⟩ : BufTy).Contents (Elt F)),
    unary main_v78 main_v79 (broadcastInDim S50000x47 ![0, 1] bcast_S1x47_S50000x47_0_1 : (⟨S1x47, .f32⟩ : BufTy).Contents (Elt F) → (⟨S50000x47, .f32⟩ : BufTy).Contents (Elt F)),
    binary main_v77 main_v79 main_v80 (addf : (⟨S50000x47, .f32⟩ : BufTy).Contents (Elt F) → (⟨S50000x47, .f32⟩ : BufTy).Contents (Elt F) → (⟨S50000x47, .f32⟩ : BufTy).Contents (Elt F)),
    unary main_arg11 main_v81 ((transpose S128x47 [1, 0] · transposes_S47x128_S128x47_1_0) : (⟨S47x128, .f32⟩ : BufTy).Contents (Elt F) → (⟨S128x47, .f32⟩ : BufTy).Contents (Elt F)),
    binary main_v57 main_v81 main_v82 ((fun l r => Host.dotGeneral dot_S50000x128_S128x47_S50000x47_1_0_0_1_n_n none l r) : (⟨S50000x128, .f32⟩ : BufTy).Contents (Elt F) → (⟨S128x47, .f32⟩ : BufTy).Contents (Elt F) → (⟨S50000x47, .f32⟩ : BufTy).Contents (Elt F)),
    binary main_v80 main_v82 main_v83 (addf : (⟨S50000x47, .f32⟩ : BufTy).Contents (Elt F) → (⟨S50000x47, .f32⟩ : BufTy).Contents (Elt F) → (⟨S50000x47, .f32⟩ : BufTy).Contents (Elt F)),
    TRef.nullary (TRef.of (T := ⟨S_, .f32⟩) main_call2_cst) (constant S_ .f32 0xFF800000#32),
    TRef.binary (TRef.of (T := ⟨S50000x47, .f32⟩) main_v83) (TRef.of (T := ⟨S_, .f32⟩) main_call2_cst) (TRef.of (T := ⟨S50000, .f32⟩) main_call2_v0) (fun x v => Host.reduce FloatOps.maximumf x v reducesTo_S50000x47_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x47, .f32⟩) main_call2_v4) (broadcastInDim S50000x47 ![0, 1] bcast_S50000x1_S50000x47_0_1),
    TRef.binary (TRef.of (T := ⟨S50000x47, .f32⟩) main_v83) (TRef.of (T := ⟨S50000x47, .f32⟩) main_call2_v4) (TRef.of (T := ⟨S50000x47, .f32⟩) main_call2_v5) subf,
    TRef.unary (TRef.of (T := ⟨S50000x47, .f32⟩) main_call2_v5) (TRef.of (T := ⟨S50000x47, .f32⟩) main_call2_v6) Host.exp,
    TRef.nullary (TRef.of (T := ⟨S_, .f32⟩) main_call2_cst_1) (constant S_ .f32 0x00000000#32),
    TRef.binary (TRef.of (T := ⟨S50000x47, .f32⟩) main_call2_v6) (TRef.of (T := ⟨S_, .f32⟩) main_call2_cst_1) (TRef.of (T := ⟨S50000, .f32⟩) main_call2_v7) (fun x v => Host.reduceAdd x v reducesTo_S50000x47_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x47, .f32⟩) main_call2_v10) (broadcastInDim S50000x47 ![0, 1] bcast_S50000x1_S50000x47_0_1),
    TRef.binary (TRef.of (T := ⟨S50000x47, .f32⟩) main_call2_v5) (TRef.of (T := ⟨S50000x47, .f32⟩) main_call2_v10) (TRef.of (T := ⟨S50000x47, .f32⟩) main_v84) subf ]

/-- Operations 121 to 136 of the reference: the perturbation of the input. -/
abbrev chunk4 : List (HloOp τ sig (Elt F)) :=
  [ binary main_arg2 main_arg2 main_v85 (mulf : (⟨S50000x128, .f32⟩ : BufTy).Contents (Elt F) → (⟨S50000x128, .f32⟩ : BufTy).Contents (Elt F) → (⟨S50000x128, .f32⟩ : BufTy).Contents (Elt F)),
    nullary main_cst_16 (constant S_ .f32 0x00000000#32),
    binary main_v85 main_cst_16 main_v86 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v86 main_v87 (broadcastInDim S50000x1 ![0] bcast_S50000_S50000x1_0 : (⟨S50000, .f32⟩ : BufTy).Contents (Elt F) → (⟨S50000x1, .f32⟩ : BufTy).Contents (Elt F)),
    unary main_v87 main_v88 (Host.sqrt : (⟨S50000x1, .f32⟩ : BufTy).Contents (Elt F) → (⟨S50000x1, .f32⟩ : BufTy).Contents (Elt F)),
    nullary main_cst_17 (constant S_ .f32 0x2B8CBCCC#32),
    unary main_cst_17 main_v89 (broadcastInDim S50000x1 ![] bcast_S_S50000x1 : (⟨S_, .f32⟩ : BufTy).Contents (Elt F) → (⟨S50000x1, .f32⟩ : BufTy).Contents (Elt F)),
    binary main_v88 main_v89 main_v90 (maximumf : (⟨S50000x1, .f32⟩ : BufTy).Contents (Elt F) → (⟨S50000x1, .f32⟩ : BufTy).Contents (Elt F) → (⟨S50000x1, .f32⟩ : BufTy).Contents (Elt F)),
    unary main_v90 main_v91 (broadcastInDim S50000x128 ![0, 1] bcast_S50000x1_S50000x128_0_1 : (⟨S50000x1, .f32⟩ : BufTy).Contents (Elt F) → (⟨S50000x128, .f32⟩ : BufTy).Contents (Elt F)),
    binary main_arg2 main_v91 main_v92 (Host.divf : (⟨S50000x128, .f32⟩ : BufTy).Contents (Elt F) → (⟨S50000x128, .f32⟩ : BufTy).Contents (Elt F) → (⟨S50000x128, .f32⟩ : BufTy).Contents (Elt F)),
    unary main_arg0 main_v93 (Host.sign : (⟨S50000x128, .f32⟩ : BufTy).Contents (Elt F) → (⟨S50000x128, .f32⟩ : BufTy).Contents (Elt F)),
    binary main_v93 main_v92 main_v94 (mulf : (⟨S50000x128, .f32⟩ : BufTy).Contents (Elt F) → (⟨S50000x128, .f32⟩ : BufTy).Contents (Elt F) → (⟨S50000x128, .f32⟩ : BufTy).Contents (Elt F)),
    nullary main_cst_18 (constant S_ .f32 0x3DCCCCCD#32),
    unary main_cst_18 main_v95 (broadcastInDim S50000x128 ![] bcast_S_S50000x128 : (⟨S_, .f32⟩ : BufTy).Contents (Elt F) → (⟨S50000x128, .f32⟩ : BufTy).Contents (Elt F)),
    binary main_v94 main_v95 main_v96 (mulf : (⟨S50000x128, .f32⟩ : BufTy).Contents (Elt F) → (⟨S50000x128, .f32⟩ : BufTy).Contents (Elt F) → (⟨S50000x128, .f32⟩ : BufTy).Contents (Elt F)),
    binary main_arg0 main_v96 main_v97 (addf : (⟨S50000x128, .f32⟩ : BufTy).Contents (Elt F) → (⟨S50000x128, .f32⟩ : BufTy).Contents (Elt F) → (⟨S50000x128, .f32⟩ : BufTy).Contents (Elt F)) ]

/-- Operations 137 to 171 of the reference: the perturbed branch's first hidden layer. -/
abbrev chunk5 : List (HloOp τ sig (Elt F)) :=
  [ nullary main_c_19 (constantI S_ 32 0#32),
    unary main_c_19 main_v98 (broadcastInDim S800000 ![] bcast_S_S800000 : (⟨S_, .i32⟩ : BufTy).Contents (Elt F) → (⟨S800000, .i32⟩ : BufTy).Contents (Elt F)),
    binary main_v1 main_v98 main_v99 (cmpi .slt : (⟨S800000, .i32⟩ : BufTy).Contents (Elt F) → (⟨S800000, .i32⟩ : BufTy).Contents (Elt F) → (⟨S800000, .i1⟩ : BufTy).Contents (Elt F)),
    nullary main_c_20 (constantI S_ 32 50000#32),
    unary main_c_20 main_v100 (broadcastInDim S800000 ![] bcast_S_S800000 : (⟨S_, .i32⟩ : BufTy).Contents (Elt F) → (⟨S800000, .i32⟩ : BufTy).Contents (Elt F)),
    binary main_v1 main_v100 main_v101 (addi : (⟨S800000, .i32⟩ : BufTy).Contents (Elt F) → (⟨S800000, .i32⟩ : BufTy).Contents (Elt F) → (⟨S800000, .i32⟩ : BufTy).Contents (Elt F)),
    ternary main_v99 main_v101 main_v1 main_v102 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v102 main_v103 (broadcastInDim S800000x1 ![0] bcast_S800000_S800000x1_0 : (⟨S800000, .i32⟩ : BufTy).Contents (Elt F) → (⟨S800000x1, .i32⟩ : BufTy).Contents (Elt F)),
    binary main_v97 main_v103 main_v104 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_21 (constant S_ .f32 0x00000000#32),
    unary main_cst_21 main_v105 (broadcastInDim S50000x128 ![] bcast_S_S50000x128 : (⟨S_, .f32⟩ : BufTy).Contents (Elt F) → (⟨S50000x128, .f32⟩ : BufTy).Contents (Elt F)),
    unary main_v3 main_v106 (broadcastInDim S800000x1 ![0] bcast_S800000_S800000x1_0 : (⟨S800000, .i32⟩ : BufTy).Contents (Elt F) → (⟨S800000x1, .i32⟩ : BufTy).Contents (Elt F)),
    ternary main_v105 main_v106 main_v104 main_v107 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_22 (constant S_ .f32 0x3F800000#32),
    unary main_cst_22 main_v108 (broadcastInDim S800000x1 ![] bcast_S_S800000x1 : (⟨S_, .f32⟩ : BufTy).Contents (Elt F) → (⟨S800000x1, .f32⟩ : BufTy).Contents (Elt F)),
    nullary main_cst_23 (constant S_ .f32 0x00000000#32),
    unary main_cst_23 main_v109 (broadcastInDim S50000x1 ![] bcast_S_S50000x1 : (⟨S_, .f32⟩ : BufTy).Contents (Elt F) → (⟨S50000x1, .f32⟩ : BufTy).Contents (Elt F)),
    unary main_v3 main_v110 (broadcastInDim S800000x1 ![0] bcast_S800000_S800000x1_0 : (⟨S800000, .i32⟩ : BufTy).Contents (Elt F) → (⟨S800000x1, .i32⟩ : BufTy).Contents (Elt F)),
    ternary main_v109 main_v110 main_v108 main_v111 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_24 (constant S_ .f32 0x3F800000#32),
    unary main_cst_24 main_v112 (broadcastInDim S50000x1 ![] bcast_S_S50000x1 : (⟨S_, .f32⟩ : BufTy).Contents (Elt F) → (⟨S50000x1, .f32⟩ : BufTy).Contents (Elt F)),
    binary main_v111 main_v112 main_v113 (maximumf : (⟨S50000x1, .f32⟩ : BufTy).Contents (Elt F) → (⟨S50000x1, .f32⟩ : BufTy).Contents (Elt F) → (⟨S50000x1, .f32⟩ : BufTy).Contents (Elt F)),
    unary main_v113 main_v114 (broadcastInDim S50000x128 ![0, 1] bcast_S50000x1_S50000x128_0_1 : (⟨S50000x1, .f32⟩ : BufTy).Contents (Elt F) → (⟨S50000x128, .f32⟩ : BufTy).Contents (Elt F)),
    binary main_v107 main_v114 main_v115 (Host.divf : (⟨S50000x128, .f32⟩ : BufTy).Contents (Elt F) → (⟨S50000x128, .f32⟩ : BufTy).Contents (Elt F) → (⟨S50000x128, .f32⟩ : BufTy).Contents (Elt F)),
    unary main_arg3 main_v116 ((transpose S128x128 [1, 0] · transposes_S128x128_S128x128_1_0) : (⟨S128x128, .f32⟩ : BufTy).Contents (Elt F) → (⟨S128x128, .f32⟩ : BufTy).Contents (Elt F)),
    binary main_v115 main_v116 main_v117 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v118 (broadcastInDim S1x128 ![1] bcast_S128_S1x128_1 : (⟨S128, .f32⟩ : BufTy).Contents (Elt F) → (⟨S1x128, .f32⟩ : BufTy).Contents (Elt F)),
    unary main_v118 main_v119 (broadcastInDim S50000x128 ![0, 1] bcast_S1x128_S50000x128_0_1 : (⟨S1x128, .f32⟩ : BufTy).Contents (Elt F) → (⟨S50000x128, .f32⟩ : BufTy).Contents (Elt F)),
    binary main_v117 main_v119 main_v120 (addf : (⟨S50000x128, .f32⟩ : BufTy).Contents (Elt F) → (⟨S50000x128, .f32⟩ : BufTy).Contents (Elt F) → (⟨S50000x128, .f32⟩ : BufTy).Contents (Elt F)),
    unary main_arg5 main_v121 ((transpose S128x128 [1, 0] · transposes_S128x128_S128x128_1_0) : (⟨S128x128, .f32⟩ : BufTy).Contents (Elt F) → (⟨S128x128, .f32⟩ : BufTy).Contents (Elt F)),
    binary main_v97 main_v121 main_v122 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v120 main_v122 main_v123 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v123) (TRef.of (T := ⟨S50000x128, .f32⟩) main_call3_v0) (TRef.of (T := ⟨S50000x128, .f32⟩) main_v124) maximumf ]

/-- Operations 172 to 206 of the reference: the perturbed branch's second hidden layer. -/
abbrev chunk6 : List (HloOp τ sig (Elt F)) :=
  [ nullary main_c_25 (constantI S_ 32 0#32),
    unary main_c_25 main_v125 (broadcastInDim S800000 ![] bcast_S_S800000 : (⟨S_, .i32⟩ : BufTy).Contents (Elt F) → (⟨S800000, .i32⟩ : BufTy).Contents (Elt F)),
    binary main_v1 main_v125 main_v126 (cmpi .slt : (⟨S800000, .i32⟩ : BufTy).Contents (Elt F) → (⟨S800000, .i32⟩ : BufTy).Contents (Elt F) → (⟨S800000, .i1⟩ : BufTy).Contents (Elt F)),
    nullary main_c_26 (constantI S_ 32 50000#32),
    unary main_c_26 main_v127 (broadcastInDim S800000 ![] bcast_S_S800000 : (⟨S_, .i32⟩ : BufTy).Contents (Elt F) → (⟨S800000, .i32⟩ : BufTy).Contents (Elt F)),
    binary main_v1 main_v127 main_v128 (addi : (⟨S800000, .i32⟩ : BufTy).Contents (Elt F) → (⟨S800000, .i32⟩ : BufTy).Contents (Elt F) → (⟨S800000, .i32⟩ : BufTy).Contents (Elt F)),
    ternary main_v126 main_v128 main_v1 main_v129 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v129 main_v130 (broadcastInDim S800000x1 ![0] bcast_S800000_S800000x1_0 : (⟨S800000, .i32⟩ : BufTy).Contents (Elt F) → (⟨S800000x1, .i32⟩ : BufTy).Contents (Elt F)),
    binary main_v124 main_v130 main_v131 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_27 (constant S_ .f32 0x00000000#32),
    unary main_cst_27 main_v132 (broadcastInDim S50000x128 ![] bcast_S_S50000x128 : (⟨S_, .f32⟩ : BufTy).Contents (Elt F) → (⟨S50000x128, .f32⟩ : BufTy).Contents (Elt F)),
    unary main_v3 main_v133 (broadcastInDim S800000x1 ![0] bcast_S800000_S800000x1_0 : (⟨S800000, .i32⟩ : BufTy).Contents (Elt F) → (⟨S800000x1, .i32⟩ : BufTy).Contents (Elt F)),
    ternary main_v132 main_v133 main_v131 main_v134 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_28 (constant S_ .f32 0x3F800000#32),
    unary main_cst_28 main_v135 (broadcastInDim S800000x1 ![] bcast_S_S800000x1 : (⟨S_, .f32⟩ : BufTy).Contents (Elt F) → (⟨S800000x1, .f32⟩ : BufTy).Contents (Elt F)),
    nullary main_cst_29 (constant S_ .f32 0x00000000#32),
    unary main_cst_29 main_v136 (broadcastInDim S50000x1 ![] bcast_S_S50000x1 : (⟨S_, .f32⟩ : BufTy).Contents (Elt F) → (⟨S50000x1, .f32⟩ : BufTy).Contents (Elt F)),
    unary main_v3 main_v137 (broadcastInDim S800000x1 ![0] bcast_S800000_S800000x1_0 : (⟨S800000, .i32⟩ : BufTy).Contents (Elt F) → (⟨S800000x1, .i32⟩ : BufTy).Contents (Elt F)),
    ternary main_v136 main_v137 main_v135 main_v138 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_30 (constant S_ .f32 0x3F800000#32),
    unary main_cst_30 main_v139 (broadcastInDim S50000x1 ![] bcast_S_S50000x1 : (⟨S_, .f32⟩ : BufTy).Contents (Elt F) → (⟨S50000x1, .f32⟩ : BufTy).Contents (Elt F)),
    binary main_v138 main_v139 main_v140 (maximumf : (⟨S50000x1, .f32⟩ : BufTy).Contents (Elt F) → (⟨S50000x1, .f32⟩ : BufTy).Contents (Elt F) → (⟨S50000x1, .f32⟩ : BufTy).Contents (Elt F)),
    unary main_v140 main_v141 (broadcastInDim S50000x128 ![0, 1] bcast_S50000x1_S50000x128_0_1 : (⟨S50000x1, .f32⟩ : BufTy).Contents (Elt F) → (⟨S50000x128, .f32⟩ : BufTy).Contents (Elt F)),
    binary main_v134 main_v141 main_v142 (Host.divf : (⟨S50000x128, .f32⟩ : BufTy).Contents (Elt F) → (⟨S50000x128, .f32⟩ : BufTy).Contents (Elt F) → (⟨S50000x128, .f32⟩ : BufTy).Contents (Elt F)),
    unary main_arg6 main_v143 ((transpose S128x128 [1, 0] · transposes_S128x128_S128x128_1_0) : (⟨S128x128, .f32⟩ : BufTy).Contents (Elt F) → (⟨S128x128, .f32⟩ : BufTy).Contents (Elt F)),
    binary main_v142 main_v143 main_v144 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v145 (broadcastInDim S1x128 ![1] bcast_S128_S1x128_1 : (⟨S128, .f32⟩ : BufTy).Contents (Elt F) → (⟨S1x128, .f32⟩ : BufTy).Contents (Elt F)),
    unary main_v145 main_v146 (broadcastInDim S50000x128 ![0, 1] bcast_S1x128_S50000x128_0_1 : (⟨S1x128, .f32⟩ : BufTy).Contents (Elt F) → (⟨S50000x128, .f32⟩ : BufTy).Contents (Elt F)),
    binary main_v144 main_v146 main_v147 (addf : (⟨S50000x128, .f32⟩ : BufTy).Contents (Elt F) → (⟨S50000x128, .f32⟩ : BufTy).Contents (Elt F) → (⟨S50000x128, .f32⟩ : BufTy).Contents (Elt F)),
    unary main_arg8 main_v148 ((transpose S128x128 [1, 0] · transposes_S128x128_S128x128_1_0) : (⟨S128x128, .f32⟩ : BufTy).Contents (Elt F) → (⟨S128x128, .f32⟩ : BufTy).Contents (Elt F)),
    binary main_v124 main_v148 main_v149 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v147 main_v149 main_v150 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v150) (TRef.of (T := ⟨S50000x128, .f32⟩) main_call4_v0) (TRef.of (T := ⟨S50000x128, .f32⟩) main_v151) maximumf ]

/-- Operations 207 to 253 of the reference: the perturbed branch's logits and their log-softmax. -/
abbrev chunk7 : List (HloOp τ sig (Elt F)) :=
  [ nullary main_c_31 (constantI S_ 32 0#32),
    unary main_c_31 main_v152 (broadcastInDim S800000 ![] bcast_S_S800000 : (⟨S_, .i32⟩ : BufTy).Contents (Elt F) → (⟨S800000, .i32⟩ : BufTy).Contents (Elt F)),
    binary main_v1 main_v152 main_v153 (cmpi .slt : (⟨S800000, .i32⟩ : BufTy).Contents (Elt F) → (⟨S800000, .i32⟩ : BufTy).Contents (Elt F) → (⟨S800000, .i1⟩ : BufTy).Contents (Elt F)),
    nullary main_c_32 (constantI S_ 32 50000#32),
    unary main_c_32 main_v154 (broadcastInDim S800000 ![] bcast_S_S800000 : (⟨S_, .i32⟩ : BufTy).Contents (Elt F) → (⟨S800000, .i32⟩ : BufTy).Contents (Elt F)),
    binary main_v1 main_v154 main_v155 (addi : (⟨S800000, .i32⟩ : BufTy).Contents (Elt F) → (⟨S800000, .i32⟩ : BufTy).Contents (Elt F) → (⟨S800000, .i32⟩ : BufTy).Contents (Elt F)),
    ternary main_v153 main_v155 main_v1 main_v156 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v156 main_v157 (broadcastInDim S800000x1 ![0] bcast_S800000_S800000x1_0 : (⟨S800000, .i32⟩ : BufTy).Contents (Elt F) → (⟨S800000x1, .i32⟩ : BufTy).Contents (Elt F)),
    binary main_v151 main_v157 main_v158 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_33 (constant S_ .f32 0x00000000#32),
    unary main_cst_33 main_v159 (broadcastInDim S50000x128 ![] bcast_S_S50000x128 : (⟨S_, .f32⟩ : BufTy).Contents (Elt F) → (⟨S50000x128, .f32⟩ : BufTy).Contents (Elt F)),
    unary main_v3 main_v160 (broadcastInDim S800000x1 ![0] bcast_S800000_S800000x1_0 : (⟨S800000, .i32⟩ : BufTy).Contents (Elt F) → (⟨S800000x1, .i32⟩ : BufTy).Contents (Elt F)),
    ternary main_v159 main_v160 main_v158 main_v161 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_34 (constant S_ .f32 0x3F800000#32),
    unary main_cst_34 main_v162 (broadcastInDim S800000x1 ![] bcast_S_S800000x1 : (⟨S_, .f32⟩ : BufTy).Contents (Elt F) → (⟨S800000x1, .f32⟩ : BufTy).Contents (Elt F)),
    nullary main_cst_35 (constant S_ .f32 0x00000000#32),
    unary main_cst_35 main_v163 (broadcastInDim S50000x1 ![] bcast_S_S50000x1 : (⟨S_, .f32⟩ : BufTy).Contents (Elt F) → (⟨S50000x1, .f32⟩ : BufTy).Contents (Elt F)),
    unary main_v3 main_v164 (broadcastInDim S800000x1 ![0] bcast_S800000_S800000x1_0 : (⟨S800000, .i32⟩ : BufTy).Contents (Elt F) → (⟨S800000x1, .i32⟩ : BufTy).Contents (Elt F)),
    ternary main_v163 main_v164 main_v162 main_v165 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_36 (constant S_ .f32 0x3F800000#32),
    unary main_cst_36 main_v166 (broadcastInDim S50000x1 ![] bcast_S_S50000x1 : (⟨S_, .f32⟩ : BufTy).Contents (Elt F) → (⟨S50000x1, .f32⟩ : BufTy).Contents (Elt F)),
    binary main_v165 main_v166 main_v167 (maximumf : (⟨S50000x1, .f32⟩ : BufTy).Contents (Elt F) → (⟨S50000x1, .f32⟩ : BufTy).Contents (Elt F) → (⟨S50000x1, .f32⟩ : BufTy).Contents (Elt F)),
    unary main_v167 main_v168 (broadcastInDim S50000x128 ![0, 1] bcast_S50000x1_S50000x128_0_1 : (⟨S50000x1, .f32⟩ : BufTy).Contents (Elt F) → (⟨S50000x128, .f32⟩ : BufTy).Contents (Elt F)),
    binary main_v161 main_v168 main_v169 (Host.divf : (⟨S50000x128, .f32⟩ : BufTy).Contents (Elt F) → (⟨S50000x128, .f32⟩ : BufTy).Contents (Elt F) → (⟨S50000x128, .f32⟩ : BufTy).Contents (Elt F)),
    unary main_arg9 main_v170 ((transpose S128x47 [1, 0] · transposes_S47x128_S128x47_1_0) : (⟨S47x128, .f32⟩ : BufTy).Contents (Elt F) → (⟨S128x47, .f32⟩ : BufTy).Contents (Elt F)),
    binary main_v169 main_v170 main_v171 ((fun l r => Host.dotGeneral dot_S50000x128_S128x47_S50000x47_1_0_0_1_n_n none l r) : (⟨S50000x128, .f32⟩ : BufTy).Contents (Elt F) → (⟨S128x47, .f32⟩ : BufTy).Contents (Elt F) → (⟨S50000x47, .f32⟩ : BufTy).Contents (Elt F)),
    unary main_arg10 main_v172 (broadcastInDim S1x47 ![1] bcast_S47_S1x47_1 : (⟨S47, .f32⟩ : BufTy).Contents (Elt F) → (⟨S1x47, .f32⟩ : BufTy).Contents (Elt F)),
    unary main_v172 main_v173 (broadcastInDim S50000x47 ![0, 1] bcast_S1x47_S50000x47_0_1 : (⟨S1x47, .f32⟩ : BufTy).Contents (Elt F) → (⟨S50000x47, .f32⟩ : BufTy).Contents (Elt F)),
    binary main_v171 main_v173 main_v174 (addf : (⟨S50000x47, .f32⟩ : BufTy).Contents (Elt F) → (⟨S50000x47, .f32⟩ : BufTy).Contents (Elt F) → (⟨S50000x47, .f32⟩ : BufTy).Contents (Elt F)),
    unary main_arg11 main_v175 ((transpose S128x47 [1, 0] · transposes_S47x128_S128x47_1_0) : (⟨S47x128, .f32⟩ : BufTy).Contents (Elt F) → (⟨S128x47, .f32⟩ : BufTy).Contents (Elt F)),
    binary main_v151 main_v175 main_v176 ((fun l r => Host.dotGeneral dot_S50000x128_S128x47_S50000x47_1_0_0_1_n_n none l r) : (⟨S50000x128, .f32⟩ : BufTy).Contents (Elt F) → (⟨S128x47, .f32⟩ : BufTy).Contents (Elt F) → (⟨S50000x47, .f32⟩ : BufTy).Contents (Elt F)),
    binary main_v174 main_v176 main_v177 (addf : (⟨S50000x47, .f32⟩ : BufTy).Contents (Elt F) → (⟨S50000x47, .f32⟩ : BufTy).Contents (Elt F) → (⟨S50000x47, .f32⟩ : BufTy).Contents (Elt F)),
    TRef.nullary (TRef.of (T := ⟨S_, .f32⟩) main_call5_cst) (constant S_ .f32 0xFF800000#32),
    TRef.binary (TRef.of (T := ⟨S50000x47, .f32⟩) main_v177) (TRef.of (T := ⟨S_, .f32⟩) main_call5_cst) (TRef.of (T := ⟨S50000, .f32⟩) main_call5_v0) (fun x v => Host.reduce FloatOps.maximumf x v reducesTo_S50000x47_S50000_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S50000, .f32⟩) main_call5_v1) (broadcastInDim S50000 ![] bcast_S_S50000),
    TRef.binary (TRef.of (T := ⟨S50000, .f32⟩) main_call5_v1) (TRef.of (T := ⟨S50000, .f32⟩) main_call5_v0) (TRef.of (T := ⟨S50000, .f32⟩) main_call5_v2) maximumf,
    TRef.unary (TRef.of (T := ⟨S50000, .f32⟩) main_call5_v2) (TRef.of (T := ⟨S50000x1, .f32⟩) main_call5_v3) (broadcastInDim S50000x1 ![0] bcast_S50000_S50000x1_0),
    TRef.unary (TRef.of (T := ⟨S50000x1, .f32⟩) main_call5_v3) (TRef.of (T := ⟨S50000x47, .f32⟩) main_call5_v4) (broadcastInDim S50000x47 ![0, 1] bcast_S50000x1_S50000x47_0_1),
    TRef.binary (TRef.of (T := ⟨S50000x47, .f32⟩) main_v177) (TRef.of (T := ⟨S50000x47, .f32⟩) main_call5_v4) (TRef.of (T := ⟨S50000x47, .f32⟩) main_call5_v5) subf,
    TRef.unary (TRef.of (T := ⟨S50000x47, .f32⟩) main_call5_v5) (TRef.of (T := ⟨S50000x47, .f32⟩) main_call5_v6) Host.exp,
    TRef.nullary (TRef.of (T := ⟨S_, .f32⟩) main_call5_cst_1) (constant S_ .f32 0x00000000#32),
    TRef.binary (TRef.of (T := ⟨S50000x47, .f32⟩) main_call5_v6) (TRef.of (T := ⟨S_, .f32⟩) main_call5_cst_1) (TRef.of (T := ⟨S50000, .f32⟩) main_call5_v7) (fun x v => Host.reduceAdd x v reducesTo_S50000x47_S50000_d1 h_S_),
    TRef.unary (TRef.of (T := ⟨S50000, .f32⟩) main_call5_v7) (TRef.of (T := ⟨S50000x1, .f32⟩) main_call5_v8) (broadcastInDim S50000x1 ![0] bcast_S50000_S50000x1_0),
    TRef.unary (TRef.of (T := ⟨S50000x1, .f32⟩) main_call5_v8) (TRef.of (T := ⟨S50000x1, .f32⟩) main_call5_v9) Host.log,
    TRef.unary (TRef.of (T := ⟨S50000x1, .f32⟩) main_call5_v9) (TRef.of (T := ⟨S50000x47, .f32⟩) main_call5_v10) (broadcastInDim S50000x47 ![0, 1] bcast_S50000x1_S50000x47_0_1),
    TRef.binary (TRef.of (T := ⟨S50000x47, .f32⟩) main_call5_v5) (TRef.of (T := ⟨S50000x47, .f32⟩) main_call5_v10) (TRef.of (T := ⟨S50000x47, .f32⟩) main_v178) subf ]

/-- The whole list is the eight stages in order. -/
theorem ops_eq : (Cert.ReferenceIdeal.OpsP.ops : List (HloOp τ sig (Elt F)))
    = chunk0 ++ chunk1 ++ chunk2 ++ chunk3 ++ chunk4 ++ chunk5 ++ chunk6 ++ chunk7 := rfl

end

variable (m : (ℓ : Loc nD τ sig) → Buf (Elt Ideal) ℓ)

/-- Core `c`'s buffer contents at launch, and after each stage. -/
abbrev R0 (c : Dev nD) : Valuation τ sig (Elt Ideal) := launchContents m c
def R1 (c : Dev nD) : Valuation τ sig (Elt Ideal) := after chunk0 (R0 m c)
def R2 (c : Dev nD) : Valuation τ sig (Elt Ideal) := after chunk1 (R1 m c)
def R3 (c : Dev nD) : Valuation τ sig (Elt Ideal) := after chunk2 (R2 m c)
def R4 (c : Dev nD) : Valuation τ sig (Elt Ideal) := after chunk3 (R3 m c)
def R5 (c : Dev nD) : Valuation τ sig (Elt Ideal) := after chunk4 (R4 m c)
def R6 (c : Dev nD) : Valuation τ sig (Elt Ideal) := after chunk5 (R5 m c)
def R7 (c : Dev nD) : Valuation τ sig (Elt Ideal) := after chunk6 (R6 m c)
def R8 (c : Dev nD) : Valuation τ sig (Elt Ideal) := after chunk7 (R7 m c)

/-- The contents the whole list ends at are the last boundary's. -/
theorem after_ops (c : Dev nD) : after (Cert.ReferenceIdeal.OpsP.ops : List (HloOp τ sig (Elt Ideal))) (launchContents m c) = R8 m c := by
  rw [ops_eq]
  simp only [after_append]
  rfl

end Cert.ReferenceIdeal.RefRun

end
-- ==== Proof.RefChunkVals.lean ====
/-
  What each stage of the reference leaves in its output buffer, as the stage's function of the contents it started from.
-/
import proofs.«146821_j20100446946148_1_alg».proof.Proof.RefChunks
import proofs.«146821_j20100446946148_1_alg».proof.Proof.RefAgg
import proofs.«146821_j20100446946148_1_alg».proof.Proof.RefLayers
import proofs.«146821_j20100446946148_1_alg».proof.Proof.RefFinal

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefVal

variable (m : (ℓ : Loc nD τ sig) → Buf (Elt Ideal) ℓ)

/-! A function outlined by the compiler (the clamp, the log-softmax) reads and writes its buffers through typed
    references, which transport contents along an equality of buffer types that holds by computation: reading back what
    was written is the identity, and a transported value is the value. The proofs below strip those transports first, so
    that what remains is a comparison of two spellings of one term. -/

/-- Reading back through a typed reference what was written through it gives the value. -/
theorem ofBuf_toBuf {T : BufTy} (x : TRef sig T) (v : T.Contents (Elt Ideal)) : x.ofBuf (x.toBuf v) = v := by
  unfold TRef.ofBuf TRef.toBuf
  exact cast_cast _ _ v |>.trans (cast_eq _ v)

theorem c0_src (c : Dev nD) :
    R1 m c (Proc.devRef .tc main_v1) = srcR (R0 m c (Proc.devRef .tc main_arg1)) := by
  show after chunk0 (R0 m c) (Proc.devRef .tc main_v1) = _
  after_results <;> rfl

theorem c0_dst (c : Dev nD) :
    R1 m c (Proc.devRef .tc main_v3) = dstR (R0 m c (Proc.devRef .tc main_arg1)) := by
  show after chunk0 (R0 m c) (Proc.devRef .tc main_v3) = _
  after_results <;> rfl

set_option maxHeartbeats 4000000 in
theorem c1_h (c : Dev nD) :
    R2 m c (Proc.devRef .tc main_v30) = reluR (linR128 (aggR (R1 m c (Proc.devRef .tc main_arg0)) (R1 m c (Proc.devRef .tc main_v1)) (R1 m c (Proc.devRef .tc main_v3))) (R1 m c (Proc.devRef .tc main_arg0)) (R1 m c (Proc.devRef .tc main_arg3)) (R1 m c (Proc.devRef .tc main_arg4)) (R1 m c (Proc.devRef .tc main_arg5))) := by
  show after chunk1 (R1 m c) (Proc.devRef .tc main_v30) = _
  after_results_simp
  unfold reluR
  refine cast_eq_iff_heq.mpr (heq_of_eq ?_)
  refine congrArg₂ maximumf ?_ ?_
  · exact cast_eq_iff_heq.mpr (heq_of_eq rfl)
  · simp only [ofBuf_toBuf]

set_option maxHeartbeats 4000000 in
theorem c2_h (c : Dev nD) :
    R3 m c (Proc.devRef .tc main_v57) = reluR (linR128 (aggR (R2 m c (Proc.devRef .tc main_v30)) (R2 m c (Proc.devRef .tc main_v1)) (R2 m c (Proc.devRef .tc main_v3))) (R2 m c (Proc.devRef .tc main_v30)) (R2 m c (Proc.devRef .tc main_arg6)) (R2 m c (Proc.devRef .tc main_arg7)) (R2 m c (Proc.devRef .tc main_arg8))) := by
  show after chunk2 (R2 m c) (Proc.devRef .tc main_v57) = _
  after_results_simp
  unfold reluR
  refine cast_eq_iff_heq.mpr (heq_of_eq ?_)
  refine congrArg₂ maximumf ?_ ?_
  · exact cast_eq_iff_heq.mpr (heq_of_eq rfl)
  · simp only [ofBuf_toBuf]

set_option maxHeartbeats 4000000 in
theorem c3_z (c : Dev nD) :
    R4 m c (Proc.devRef .tc main_v83) = linR47 (aggR (R3 m c (Proc.devRef .tc main_v57)) (R3 m c (Proc.devRef .tc main_v1)) (R3 m c (Proc.devRef .tc main_v3))) (R3 m c (Proc.devRef .tc main_v57)) (R3 m c (Proc.devRef .tc main_arg9)) (R3 m c (Proc.devRef .tc main_arg10)) (R3 m c (Proc.devRef .tc main_arg11)) := by
  show after chunk3 (R3 m c) (Proc.devRef .tc main_v83) = _
  after_results_simp <;> rfl

set_option maxHeartbeats 4000000 in
theorem c3_y (c : Dev nD) :
    R4 m c (Proc.devRef .tc main_v84) = lsmR (linR47 (aggR (R3 m c (Proc.devRef .tc main_v57)) (R3 m c (Proc.devRef .tc main_v1)) (R3 m c (Proc.devRef .tc main_v3))) (R3 m c (Proc.devRef .tc main_v57)) (R3 m c (Proc.devRef .tc main_arg9)) (R3 m c (Proc.devRef .tc main_arg10)) (R3 m c (Proc.devRef .tc main_arg11))) := by
  show after chunk3 (R3 m c) (Proc.devRef .tc main_v84) = _
  after_results_simp
  simp only [ofBuf_toBuf]
  refine cast_eq_iff_heq.mpr (heq_of_eq ?_)
  generalize hZ : (TRef.of (T := ⟨S50000x47, .f32⟩) main_v83 _ _ _).ofBuf _ = Z
  have hz : Z = linR47 (aggR (R3 m c (Proc.devRef .tc main_v57)) (R3 m c (Proc.devRef .tc main_v1)) (R3 m c (Proc.devRef .tc main_v3))) (R3 m c (Proc.devRef .tc main_v57)) (R3 m c (Proc.devRef .tc main_arg9)) (R3 m c (Proc.devRef .tc main_arg10)) (R3 m c (Proc.devRef .tc main_arg11)) := hZ.symm.trans (cast_eq_iff_heq.mpr (heq_of_eq rfl))
  subst hz
  rfl

set_option maxHeartbeats 4000000 in
theorem c4_x (c : Dev nD) :
    R5 m c (Proc.devRef .tc main_v97) = noiseR (R4 m c (Proc.devRef .tc main_arg0)) (R4 m c (Proc.devRef .tc main_arg2)) := by
  show after chunk4 (R4 m c) (Proc.devRef .tc main_v97) = _
  after_results_simp <;> rfl

set_option maxHeartbeats 4000000 in
theorem c5_h (c : Dev nD) :
    R6 m c (Proc.devRef .tc main_v124) = reluR (linR128 (aggR (R5 m c (Proc.devRef .tc main_v97)) (R5 m c (Proc.devRef .tc main_v1)) (R5 m c (Proc.devRef .tc main_v3))) (R5 m c (Proc.devRef .tc main_v97)) (R5 m c (Proc.devRef .tc main_arg3)) (R5 m c (Proc.devRef .tc main_arg4)) (R5 m c (Proc.devRef .tc main_arg5))) := by
  show after chunk5 (R5 m c) (Proc.devRef .tc main_v124) = _
  after_results_simp
  unfold reluR
  refine cast_eq_iff_heq.mpr (heq_of_eq ?_)
  refine congrArg₂ maximumf ?_ ?_
  · exact cast_eq_iff_heq.mpr (heq_of_eq rfl)
  · simp only [ofBuf_toBuf]

set_option maxHeartbeats 4000000 in
theorem c6_h (c : Dev nD) :
    R7 m c (Proc.devRef .tc main_v151) = reluR (linR128 (aggR (R6 m c (Proc.devRef .tc main_v124)) (R6 m c (Proc.devRef .tc main_v1)) (R6 m c (Proc.devRef .tc main_v3))) (R6 m c (Proc.devRef .tc main_v124)) (R6 m c (Proc.devRef .tc main_arg6)) (R6 m c (Proc.devRef .tc main_arg7)) (R6 m c (Proc.devRef .tc main_arg8))) := by
  show after chunk6 (R6 m c) (Proc.devRef .tc main_v151) = _
  after_results_simp
  unfold reluR
  refine cast_eq_iff_heq.mpr (heq_of_eq ?_)
  refine congrArg₂ maximumf ?_ ?_
  · exact cast_eq_iff_heq.mpr (heq_of_eq rfl)
  · simp only [ofBuf_toBuf]

set_option maxHeartbeats 4000000 in
theorem c7_z (c : Dev nD) :
    R8 m c (Proc.devRef .tc main_v177) = linR47 (aggR (R7 m c (Proc.devRef .tc main_v151)) (R7 m c (Proc.devRef .tc main_v1)) (R7 m c (Proc.devRef .tc main_v3))) (R7 m c (Proc.devRef .tc main_v151)) (R7 m c (Proc.devRef .tc main_arg9)) (R7 m c (Proc.devRef .tc main_arg10)) (R7 m c (Proc.devRef .tc main_arg11)) := by
  show after chunk7 (R7 m c) (Proc.devRef .tc main_v177) = _
  after_results_simp <;> rfl

set_option maxHeartbeats 4000000 in
theorem c7_y (c : Dev nD) :
    R8 m c (Proc.devRef .tc main_v178) = lsmR (linR47 (aggR (R7 m c (Proc.devRef .tc main_v151)) (R7 m c (Proc.devRef .tc main_v1)) (R7 m c (Proc.devRef .tc main_v3))) (R7 m c (Proc.devRef .tc main_v151)) (R7 m c (Proc.devRef .tc main_arg9)) (R7 m c (Proc.devRef .tc main_arg10)) (R7 m c (Proc.devRef .tc main_arg11))) := by
  show after chunk7 (R7 m c) (Proc.devRef .tc main_v178) = _
  after_results_simp
  simp only [ofBuf_toBuf]
  refine cast_eq_iff_heq.mpr (heq_of_eq ?_)
  generalize hZ : (TRef.of (T := ⟨S50000x47, .f32⟩) main_v177 _ _ _).ofBuf _ = Z
  have hz : Z = linR47 (aggR (R7 m c (Proc.devRef .tc main_v151)) (R7 m c (Proc.devRef .tc main_v1)) (R7 m c (Proc.devRef .tc main_v3))) (R7 m c (Proc.devRef .tc main_v151)) (R7 m c (Proc.devRef .tc main_arg9)) (R7 m c (Proc.devRef .tc main_arg10)) (R7 m c (Proc.devRef .tc main_arg11)) := hZ.symm.trans (cast_eq_iff_heq.mpr (heq_of_eq rfl))
  subst hz
  rfl

end Cert.ReferenceIdeal.RefRun

end
-- ==== Proof.RefKeepArgs.lean ====
/-
  No operation of the reference writes an argument's buffer, so at every boundary an argument still holds what the
  boundary before held.
-/
import proofs.«146821_j20100446946148_1_alg».proof.Proof.RefChunks

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ)

theorem keep_arg0_0_1 (c : Dev nD) : R1 m c (Proc.devRef .tc main_arg0) = R0 m c (Proc.devRef .tc main_arg0) :=
  calc R1 m c (Proc.devRef .tc main_arg0)
    _ = R0 m c (Proc.devRef .tc main_arg0) := StableHlo.after_of_forall_not_mem (b := (Proc.devRef .tc main_arg0)) _ _ (List.forall_iff_forall_mem.mp (by
          simp only [chunk0, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_arg0_1_4 (c : Dev nD) : R4 m c (Proc.devRef .tc main_arg0) = R1 m c (Proc.devRef .tc main_arg0) :=
  calc R4 m c (Proc.devRef .tc main_arg0)
    _ = R3 m c (Proc.devRef .tc main_arg0) := StableHlo.after_of_forall_not_mem (b := (Proc.devRef .tc main_arg0)) _ _ (List.forall_iff_forall_mem.mp (by
          simp only [chunk3, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R2 m c (Proc.devRef .tc main_arg0) := StableHlo.after_of_forall_not_mem (b := (Proc.devRef .tc main_arg0)) _ _ (List.forall_iff_forall_mem.mp (by
          simp only [chunk2, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R1 m c (Proc.devRef .tc main_arg0) := StableHlo.after_of_forall_not_mem (b := (Proc.devRef .tc main_arg0)) _ _ (List.forall_iff_forall_mem.mp (by
          simp only [chunk1, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_arg0_4_8 (c : Dev nD) : R8 m c (Proc.devRef .tc main_arg0) = R4 m c (Proc.devRef .tc main_arg0) :=
  calc R8 m c (Proc.devRef .tc main_arg0)
    _ = R7 m c (Proc.devRef .tc main_arg0) := StableHlo.after_of_forall_not_mem (b := (Proc.devRef .tc main_arg0)) _ _ (List.forall_iff_forall_mem.mp (by
          simp only [chunk7, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R6 m c (Proc.devRef .tc main_arg0) := StableHlo.after_of_forall_not_mem (b := (Proc.devRef .tc main_arg0)) _ _ (List.forall_iff_forall_mem.mp (by
          simp only [chunk6, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R5 m c (Proc.devRef .tc main_arg0) := StableHlo.after_of_forall_not_mem (b := (Proc.devRef .tc main_arg0)) _ _ (List.forall_iff_forall_mem.mp (by
          simp only [chunk5, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R4 m c (Proc.devRef .tc main_arg0) := StableHlo.after_of_forall_not_mem (b := (Proc.devRef .tc main_arg0)) _ _ (List.forall_iff_forall_mem.mp (by
          simp only [chunk4, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_arg1_0_8 (c : Dev nD) : R8 m c (Proc.devRef .tc main_arg1) = R0 m c (Proc.devRef .tc main_arg1) :=
  calc R8 m c (Proc.devRef .tc main_arg1)
    _ = R7 m c (Proc.devRef .tc main_arg1) := StableHlo.after_of_forall_not_mem (b := (Proc.devRef .tc main_arg1)) _ _ (List.forall_iff_forall_mem.mp (by
          simp only [chunk7, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R6 m c (Proc.devRef .tc main_arg1) := StableHlo.after_of_forall_not_mem (b := (Proc.devRef .tc main_arg1)) _ _ (List.forall_iff_forall_mem.mp (by
          simp only [chunk6, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R5 m c (Proc.devRef .tc main_arg1) := StableHlo.after_of_forall_not_mem (b := (Proc.devRef .tc main_arg1)) _ _ (List.forall_iff_forall_mem.mp (by
          simp only [chunk5, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R4 m c (Proc.devRef .tc main_arg1) := StableHlo.after_of_forall_not_mem (b := (Proc.devRef .tc main_arg1)) _ _ (List.forall_iff_forall_mem.mp (by
          simp only [chunk4, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R3 m c (Proc.devRef .tc main_arg1) := StableHlo.after_of_forall_not_mem (b := (Proc.devRef .tc main_arg1)) _ _ (List.forall_iff_forall_mem.mp (by
          simp only [chunk3, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R2 m c (Proc.devRef .tc main_arg1) := StableHlo.after_of_forall_not_mem (b := (Proc.devRef .tc main_arg1)) _ _ (List.forall_iff_forall_mem.mp (by
          simp only [chunk2, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R1 m c (Proc.devRef .tc main_arg1) := StableHlo.after_of_forall_not_mem (b := (Proc.devRef .tc main_arg1)) _ _ (List.forall_iff_forall_mem.mp (by
          simp only [chunk1, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R0 m c (Proc.devRef .tc main_arg1) := StableHlo.after_of_forall_not_mem (b := (Proc.devRef .tc main_arg1)) _ _ (List.forall_iff_forall_mem.mp (by
          simp only [chunk0, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_arg2_0_4 (c : Dev nD) : R4 m c (Proc.devRef .tc main_arg2) = R0 m c (Proc.devRef .tc main_arg2) :=
  calc R4 m c (Proc.devRef .tc main_arg2)
    _ = R3 m c (Proc.devRef .tc main_arg2) := StableHlo.after_of_forall_not_mem (b := (Proc.devRef .tc main_arg2)) _ _ (List.forall_iff_forall_mem.mp (by
          simp only [chunk3, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R2 m c (Proc.devRef .tc main_arg2) := StableHlo.after_of_forall_not_mem (b := (Proc.devRef .tc main_arg2)) _ _ (List.forall_iff_forall_mem.mp (by
          simp only [chunk2, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R1 m c (Proc.devRef .tc main_arg2) := StableHlo.after_of_forall_not_mem (b := (Proc.devRef .tc main_arg2)) _ _ (List.forall_iff_forall_mem.mp (by
          simp only [chunk1, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R0 m c (Proc.devRef .tc main_arg2) := StableHlo.after_of_forall_not_mem (b := (Proc.devRef .tc main_arg2)) _ _ (List.forall_iff_forall_mem.mp (by
          simp only [chunk0, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_arg2_4_8 (c : Dev nD) : R8 m c (Proc.devRef .tc main_arg2) = R4 m c (Proc.devRef .tc main_arg2) :=
  calc R8 m c (Proc.devRef .tc main_arg2)
    _ = R7 m c (Proc.devRef .tc main_arg2) := StableHlo.after_of_forall_not_mem (b := (Proc.devRef .tc main_arg2)) _ _ (List.forall_iff_forall_mem.mp (by
          simp only [chunk7, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R6 m c (Proc.devRef .tc main_arg2) := StableHlo.after_of_forall_not_mem (b := (Proc.devRef .tc main_arg2)) _ _ (List.forall_iff_forall_mem.mp (by
          simp only [chunk6, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R5 m c (Proc.devRef .tc main_arg2) := StableHlo.after_of_forall_not_mem (b := (Proc.devRef .tc main_arg2)) _ _ (List.forall_iff_forall_mem.mp (by
          simp only [chunk5, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R4 m c (Proc.devRef .tc main_arg2) := StableHlo.after_of_forall_not_mem (b := (Proc.devRef .tc main_arg2)) _ _ (List.forall_iff_forall_mem.mp (by
          simp only [chunk4, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_arg3_0_1 (c : Dev nD) : R1 m c (Proc.devRef .tc main_arg3) = R0 m c (Proc.devRef .tc main_arg3) :=
  calc R1 m c (Proc.devRef .tc main_arg3)
    _ = R0 m c (Proc.devRef .tc main_arg3) := StableHlo.after_of_forall_not_mem (b := (Proc.devRef .tc main_arg3)) _ _ (List.forall_iff_forall_mem.mp (by
          simp only [chunk0, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_arg3_1_5 (c : Dev nD) : R5 m c (Proc.devRef .tc main_arg3) = R1 m c (Proc.devRef .tc main_arg3) :=
  calc R5 m c (Proc.devRef .tc main_arg3)
    _ = R4 m c (Proc.devRef .tc main_arg3) := StableHlo.after_of_forall_not_mem (b := (Proc.devRef .tc main_arg3)) _ _ (List.forall_iff_forall_mem.mp (by
          simp only [chunk4, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R3 m c (Proc.devRef .tc main_arg3) := StableHlo.after_of_forall_not_mem (b := (Proc.devRef .tc main_arg3)) _ _ (List.forall_iff_forall_mem.mp (by
          simp only [chunk3, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R2 m c (Proc.devRef .tc main_arg3) := StableHlo.after_of_forall_not_mem (b := (Proc.devRef .tc main_arg3)) _ _ (List.forall_iff_forall_mem.mp (by
          simp only [chunk2, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R1 m c (Proc.devRef .tc main_arg3) := StableHlo.after_of_forall_not_mem (b := (Proc.devRef .tc main_arg3)) _ _ (List.forall_iff_forall_mem.mp (by
          simp only [chunk1, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_arg3_5_8 (c : Dev nD) : R8 m c (Proc.devRef .tc main_arg3) = R5 m c (Proc.devRef .tc main_arg3) :=
  calc R8 m c (Proc.devRef .tc main_arg3)
    _ = R7 m c (Proc.devRef .tc main_arg3) := StableHlo.after_of_forall_not_mem (b := (Proc.devRef .tc main_arg3)) _ _ (List.forall_iff_forall_mem.mp (by
          simp only [chunk7, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R6 m c (Proc.devRef .tc main_arg3) := StableHlo.after_of_forall_not_mem (b := (Proc.devRef .tc main_arg3)) _ _ (List.forall_iff_forall_mem.mp (by
          simp only [chunk6, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R5 m c (Proc.devRef .tc main_arg3) := StableHlo.after_of_forall_not_mem (b := (Proc.devRef .tc main_arg3)) _ _ (List.forall_iff_forall_mem.mp (by
          simp only [chunk5, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_arg4_0_1 (c : Dev nD) : R1 m c (Proc.devRef .tc main_arg4) = R0 m c (Proc.devRef .tc main_arg4) :=
  calc R1 m c (Proc.devRef .tc main_arg4)
    _ = R0 m c (Proc.devRef .tc main_arg4) := StableHlo.after_of_forall_not_mem (b := (Proc.devRef .tc main_arg4)) _ _ (List.forall_iff_forall_mem.mp (by
          simp only [chunk0, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_arg4_1_5 (c : Dev nD) : R5 m c (Proc.devRef .tc main_arg4) = R1 m c (Proc.devRef .tc main_arg4) :=
  calc R5 m c (Proc.devRef .tc main_arg4)
    _ = R4 m c (Proc.devRef .tc main_arg4) := StableHlo.after_of_forall_not_mem (b := (Proc.devRef .tc main_arg4)) _ _ (List.forall_iff_forall_mem.mp (by
          simp only [chunk4, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R3 m c (Proc.devRef .tc main_arg4) := StableHlo.after_of_forall_not_mem (b := (Proc.devRef .tc main_arg4)) _ _ (List.forall_iff_forall_mem.mp (by
          simp only [chunk3, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R2 m c (Proc.devRef .tc main_arg4) := StableHlo.after_of_forall_not_mem (b := (Proc.devRef .tc main_arg4)) _ _ (List.forall_iff_forall_mem.mp (by
          simp only [chunk2, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R1 m c (Proc.devRef .tc main_arg4) := StableHlo.after_of_forall_not_mem (b := (Proc.devRef .tc main_arg4)) _ _ (List.forall_iff_forall_mem.mp (by
          simp only [chunk1, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_arg4_5_8 (c : Dev nD) : R8 m c (Proc.devRef .tc main_arg4) = R5 m c (Proc.devRef .tc main_arg4) :=
  calc R8 m c (Proc.devRef .tc main_arg4)
    _ = R7 m c (Proc.devRef .tc main_arg4) := StableHlo.after_of_forall_not_mem (b := (Proc.devRef .tc main_arg4)) _ _ (List.forall_iff_forall_mem.mp (by
          simp only [chunk7, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R6 m c (Proc.devRef .tc main_arg4) := StableHlo.after_of_forall_not_mem (b := (Proc.devRef .tc main_arg4)) _ _ (List.forall_iff_forall_mem.mp (by
          simp only [chunk6, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R5 m c (Proc.devRef .tc main_arg4) := StableHlo.after_of_forall_not_mem (b := (Proc.devRef .tc main_arg4)) _ _ (List.forall_iff_forall_mem.mp (by
          simp only [chunk5, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_arg5_0_1 (c : Dev nD) : R1 m c (Proc.devRef .tc main_arg5) = R0 m c (Proc.devRef .tc main_arg5) :=
  calc R1 m c (Proc.devRef .tc main_arg5)
    _ = R0 m c (Proc.devRef .tc main_arg5) := StableHlo.after_of_forall_not_mem (b := (Proc.devRef .tc main_arg5)) _ _ (List.forall_iff_forall_mem.mp (by
          simp only [chunk0, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_arg5_1_5 (c : Dev nD) : R5 m c (Proc.devRef .tc main_arg5) = R1 m c (Proc.devRef .tc main_arg5) :=
  calc R5 m c (Proc.devRef .tc main_arg5)
    _ = R4 m c (Proc.devRef .tc main_arg5) := StableHlo.after_of_forall_not_mem (b := (Proc.devRef .tc main_arg5)) _ _ (List.forall_iff_forall_mem.mp (by
          simp only [chunk4, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R3 m c (Proc.devRef .tc main_arg5) := StableHlo.after_of_forall_not_mem (b := (Proc.devRef .tc main_arg5)) _ _ (List.forall_iff_forall_mem.mp (by
          simp only [chunk3, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R2 m c (Proc.devRef .tc main_arg5) := StableHlo.after_of_forall_not_mem (b := (Proc.devRef .tc main_arg5)) _ _ (List.forall_iff_forall_mem.mp (by
          simp only [chunk2, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R1 m c (Proc.devRef .tc main_arg5) := StableHlo.after_of_forall_not_mem (b := (Proc.devRef .tc main_arg5)) _ _ (List.forall_iff_forall_mem.mp (by
          simp only [chunk1, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_arg5_5_8 (c : Dev nD) : R8 m c (Proc.devRef .tc main_arg5) = R5 m c (Proc.devRef .tc main_arg5) :=
  calc R8 m c (Proc.devRef .tc main_arg5)
    _ = R7 m c (Proc.devRef .tc main_arg5) := StableHlo.after_of_forall_not_mem (b := (Proc.devRef .tc main_arg5)) _ _ (List.forall_iff_forall_mem.mp (by
          simp only [chunk7, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R6 m c (Proc.devRef .tc main_arg5) := StableHlo.after_of_forall_not_mem (b := (Proc.devRef .tc main_arg5)) _ _ (List.forall_iff_forall_mem.mp (by
          simp only [chunk6, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R5 m c (Proc.devRef .tc main_arg5) := StableHlo.after_of_forall_not_mem (b := (Proc.devRef .tc main_arg5)) _ _ (List.forall_iff_forall_mem.mp (by
          simp only [chunk5, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_arg6_0_2 (c : Dev nD) : R2 m c (Proc.devRef .tc main_arg6) = R0 m c (Proc.devRef .tc main_arg6) :=
  calc R2 m c (Proc.devRef .tc main_arg6)
    _ = R1 m c (Proc.devRef .tc main_arg6) := StableHlo.after_of_forall_not_mem (b := (Proc.devRef .tc main_arg6)) _ _ (List.forall_iff_forall_mem.mp (by
          simp only [chunk1, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R0 m c (Proc.devRef .tc main_arg6) := StableHlo.after_of_forall_not_mem (b := (Proc.devRef .tc main_arg6)) _ _ (List.forall_iff_forall_mem.mp (by
          simp only [chunk0, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_arg6_2_6 (c : Dev nD) : R6 m c (Proc.devRef .tc main_arg6) = R2 m c (Proc.devRef .tc main_arg6) :=
  calc R6 m c (Proc.devRef .tc main_arg6)
    _ = R5 m c (Proc.devRef .tc main_arg6) := StableHlo.after_of_forall_not_mem (b := (Proc.devRef .tc main_arg6)) _ _ (List.forall_iff_forall_mem.mp (by
          simp only [chunk5, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R4 m c (Proc.devRef .tc main_arg6) := StableHlo.after_of_forall_not_mem (b := (Proc.devRef .tc main_arg6)) _ _ (List.forall_iff_forall_mem.mp (by
          simp only [chunk4, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R3 m c (Proc.devRef .tc main_arg6) := StableHlo.after_of_forall_not_mem (b := (Proc.devRef .tc main_arg6)) _ _ (List.forall_iff_forall_mem.mp (by
          simp only [chunk3, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R2 m c (Proc.devRef .tc main_arg6) := StableHlo.after_of_forall_not_mem (b := (Proc.devRef .tc main_arg6)) _ _ (List.forall_iff_forall_mem.mp (by
          simp only [chunk2, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_arg6_6_8 (c : Dev nD) : R8 m c (Proc.devRef .tc main_arg6) = R6 m c (Proc.devRef .tc main_arg6) :=
  calc R8 m c (Proc.devRef .tc main_arg6)
    _ = R7 m c (Proc.devRef .tc main_arg6) := StableHlo.after_of_forall_not_mem (b := (Proc.devRef .tc main_arg6)) _ _ (List.forall_iff_forall_mem.mp (by
          simp only [chunk7, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R6 m c (Proc.devRef .tc main_arg6) := StableHlo.after_of_forall_not_mem (b := (Proc.devRef .tc main_arg6)) _ _ (List.forall_iff_forall_mem.mp (by
          simp only [chunk6, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_arg7_0_2 (c : Dev nD) : R2 m c (Proc.devRef .tc main_arg7) = R0 m c (Proc.devRef .tc main_arg7) :=
  calc R2 m c (Proc.devRef .tc main_arg7)
    _ = R1 m c (Proc.devRef .tc main_arg7) := StableHlo.after_of_forall_not_mem (b := (Proc.devRef .tc main_arg7)) _ _ (List.forall_iff_forall_mem.mp (by
          simp only [chunk1, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R0 m c (Proc.devRef .tc main_arg7) := StableHlo.after_of_forall_not_mem (b := (Proc.devRef .tc main_arg7)) _ _ (List.forall_iff_forall_mem.mp (by
          simp only [chunk0, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_arg7_2_6 (c : Dev nD) : R6 m c (Proc.devRef .tc main_arg7) = R2 m c (Proc.devRef .tc main_arg7) :=
  calc R6 m c (Proc.devRef .tc main_arg7)
    _ = R5 m c (Proc.devRef .tc main_arg7) := StableHlo.after_of_forall_not_mem (b := (Proc.devRef .tc main_arg7)) _ _ (List.forall_iff_forall_mem.mp (by
          simp only [chunk5, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R4 m c (Proc.devRef .tc main_arg7) := StableHlo.after_of_forall_not_mem (b := (Proc.devRef .tc main_arg7)) _ _ (List.forall_iff_forall_mem.mp (by
          simp only [chunk4, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R3 m c (Proc.devRef .tc main_arg7) := StableHlo.after_of_forall_not_mem (b := (Proc.devRef .tc main_arg7)) _ _ (List.forall_iff_forall_mem.mp (by
          simp only [chunk3, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R2 m c (Proc.devRef .tc main_arg7) := StableHlo.after_of_forall_not_mem (b := (Proc.devRef .tc main_arg7)) _ _ (List.forall_iff_forall_mem.mp (by
          simp only [chunk2, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_arg7_6_8 (c : Dev nD) : R8 m c (Proc.devRef .tc main_arg7) = R6 m c (Proc.devRef .tc main_arg7) :=
  calc R8 m c (Proc.devRef .tc main_arg7)
    _ = R7 m c (Proc.devRef .tc main_arg7) := StableHlo.after_of_forall_not_mem (b := (Proc.devRef .tc main_arg7)) _ _ (List.forall_iff_forall_mem.mp (by
          simp only [chunk7, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R6 m c (Proc.devRef .tc main_arg7) := StableHlo.after_of_forall_not_mem (b := (Proc.devRef .tc main_arg7)) _ _ (List.forall_iff_forall_mem.mp (by
          simp only [chunk6, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_arg8_0_2 (c : Dev nD) : R2 m c (Proc.devRef .tc main_arg8) = R0 m c (Proc.devRef .tc main_arg8) :=
  calc R2 m c (Proc.devRef .tc main_arg8)
    _ = R1 m c (Proc.devRef .tc main_arg8) := StableHlo.after_of_forall_not_mem (b := (Proc.devRef .tc main_arg8)) _ _ (List.forall_iff_forall_mem.mp (by
          simp only [chunk1, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R0 m c (Proc.devRef .tc main_arg8) := StableHlo.after_of_forall_not_mem (b := (Proc.devRef .tc main_arg8)) _ _ (List.forall_iff_forall_mem.mp (by
          simp only [chunk0, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_arg8_2_6 (c : Dev nD) : R6 m c (Proc.devRef .tc main_arg8) = R2 m c (Proc.devRef .tc main_arg8) :=
  calc R6 m c (Proc.devRef .tc main_arg8)
    _ = R5 m c (Proc.devRef .tc main_arg8) := StableHlo.after_of_forall_not_mem (b := (Proc.devRef .tc main_arg8)) _ _ (List.forall_iff_forall_mem.mp (by
          simp only [chunk5, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R4 m c (Proc.devRef .tc main_arg8) := StableHlo.after_of_forall_not_mem (b := (Proc.devRef .tc main_arg8)) _ _ (List.forall_iff_forall_mem.mp (by
          simp only [chunk4, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R3 m c (Proc.devRef .tc main_arg8) := StableHlo.after_of_forall_not_mem (b := (Proc.devRef .tc main_arg8)) _ _ (List.forall_iff_forall_mem.mp (by
          simp only [chunk3, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R2 m c (Proc.devRef .tc main_arg8) := StableHlo.after_of_forall_not_mem (b := (Proc.devRef .tc main_arg8)) _ _ (List.forall_iff_forall_mem.mp (by
          simp only [chunk2, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_arg8_6_8 (c : Dev nD) : R8 m c (Proc.devRef .tc main_arg8) = R6 m c (Proc.devRef .tc main_arg8) :=
  calc R8 m c (Proc.devRef .tc main_arg8)
    _ = R7 m c (Proc.devRef .tc main_arg8) := StableHlo.after_of_forall_not_mem (b := (Proc.devRef .tc main_arg8)) _ _ (List.forall_iff_forall_mem.mp (by
          simp only [chunk7, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R6 m c (Proc.devRef .tc main_arg8) := StableHlo.after_of_forall_not_mem (b := (Proc.devRef .tc main_arg8)) _ _ (List.forall_iff_forall_mem.mp (by
          simp only [chunk6, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_arg9_0_3 (c : Dev nD) : R3 m c (Proc.devRef .tc main_arg9) = R0 m c (Proc.devRef .tc main_arg9) :=
  calc R3 m c (Proc.devRef .tc main_arg9)
    _ = R2 m c (Proc.devRef .tc main_arg9) := StableHlo.after_of_forall_not_mem (b := (Proc.devRef .tc main_arg9)) _ _ (List.forall_iff_forall_mem.mp (by
          simp only [chunk2, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R1 m c (Proc.devRef .tc main_arg9) := StableHlo.after_of_forall_not_mem (b := (Proc.devRef .tc main_arg9)) _ _ (List.forall_iff_forall_mem.mp (by
          simp only [chunk1, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R0 m c (Proc.devRef .tc main_arg9) := StableHlo.after_of_forall_not_mem (b := (Proc.devRef .tc main_arg9)) _ _ (List.forall_iff_forall_mem.mp (by
          simp only [chunk0, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_arg9_3_7 (c : Dev nD) : R7 m c (Proc.devRef .tc main_arg9) = R3 m c (Proc.devRef .tc main_arg9) :=
  calc R7 m c (Proc.devRef .tc main_arg9)
    _ = R6 m c (Proc.devRef .tc main_arg9) := StableHlo.after_of_forall_not_mem (b := (Proc.devRef .tc main_arg9)) _ _ (List.forall_iff_forall_mem.mp (by
          simp only [chunk6, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R5 m c (Proc.devRef .tc main_arg9) := StableHlo.after_of_forall_not_mem (b := (Proc.devRef .tc main_arg9)) _ _ (List.forall_iff_forall_mem.mp (by
          simp only [chunk5, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R4 m c (Proc.devRef .tc main_arg9) := StableHlo.after_of_forall_not_mem (b := (Proc.devRef .tc main_arg9)) _ _ (List.forall_iff_forall_mem.mp (by
          simp only [chunk4, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R3 m c (Proc.devRef .tc main_arg9) := StableHlo.after_of_forall_not_mem (b := (Proc.devRef .tc main_arg9)) _ _ (List.forall_iff_forall_mem.mp (by
          simp only [chunk3, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_arg9_7_8 (c : Dev nD) : R8 m c (Proc.devRef .tc main_arg9) = R7 m c (Proc.devRef .tc main_arg9) :=
  calc R8 m c (Proc.devRef .tc main_arg9)
    _ = R7 m c (Proc.devRef .tc main_arg9) := StableHlo.after_of_forall_not_mem (b := (Proc.devRef .tc main_arg9)) _ _ (List.forall_iff_forall_mem.mp (by
          simp only [chunk7, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_arg10_0_3 (c : Dev nD) : R3 m c (Proc.devRef .tc main_arg10) = R0 m c (Proc.devRef .tc main_arg10) :=
  calc R3 m c (Proc.devRef .tc main_arg10)
    _ = R2 m c (Proc.devRef .tc main_arg10) := StableHlo.after_of_forall_not_mem (b := (Proc.devRef .tc main_arg10)) _ _ (List.forall_iff_forall_mem.mp (by
          simp only [chunk2, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R1 m c (Proc.devRef .tc main_arg10) := StableHlo.after_of_forall_not_mem (b := (Proc.devRef .tc main_arg10)) _ _ (List.forall_iff_forall_mem.mp (by
          simp only [chunk1, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R0 m c (Proc.devRef .tc main_arg10) := StableHlo.after_of_forall_not_mem (b := (Proc.devRef .tc main_arg10)) _ _ (List.forall_iff_forall_mem.mp (by
          simp only [chunk0, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_arg10_3_7 (c : Dev nD) : R7 m c (Proc.devRef .tc main_arg10) = R3 m c (Proc.devRef .tc main_arg10) :=
  calc R7 m c (Proc.devRef .tc main_arg10)
    _ = R6 m c (Proc.devRef .tc main_arg10) := StableHlo.after_of_forall_not_mem (b := (Proc.devRef .tc main_arg10)) _ _ (List.forall_iff_forall_mem.mp (by
          simp only [chunk6, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R5 m c (Proc.devRef .tc main_arg10) := StableHlo.after_of_forall_not_mem (b := (Proc.devRef .tc main_arg10)) _ _ (List.forall_iff_forall_mem.mp (by
          simp only [chunk5, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R4 m c (Proc.devRef .tc main_arg10) := StableHlo.after_of_forall_not_mem (b := (Proc.devRef .tc main_arg10)) _ _ (List.forall_iff_forall_mem.mp (by
          simp only [chunk4, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R3 m c (Proc.devRef .tc main_arg10) := StableHlo.after_of_forall_not_mem (b := (Proc.devRef .tc main_arg10)) _ _ (List.forall_iff_forall_mem.mp (by
          simp only [chunk3, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_arg10_7_8 (c : Dev nD) : R8 m c (Proc.devRef .tc main_arg10) = R7 m c (Proc.devRef .tc main_arg10) :=
  calc R8 m c (Proc.devRef .tc main_arg10)
    _ = R7 m c (Proc.devRef .tc main_arg10) := StableHlo.after_of_forall_not_mem (b := (Proc.devRef .tc main_arg10)) _ _ (List.forall_iff_forall_mem.mp (by
          simp only [chunk7, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_arg11_0_3 (c : Dev nD) : R3 m c (Proc.devRef .tc main_arg11) = R0 m c (Proc.devRef .tc main_arg11) :=
  calc R3 m c (Proc.devRef .tc main_arg11)
    _ = R2 m c (Proc.devRef .tc main_arg11) := StableHlo.after_of_forall_not_mem (b := (Proc.devRef .tc main_arg11)) _ _ (List.forall_iff_forall_mem.mp (by
          simp only [chunk2, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R1 m c (Proc.devRef .tc main_arg11) := StableHlo.after_of_forall_not_mem (b := (Proc.devRef .tc main_arg11)) _ _ (List.forall_iff_forall_mem.mp (by
          simp only [chunk1, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R0 m c (Proc.devRef .tc main_arg11) := StableHlo.after_of_forall_not_mem (b := (Proc.devRef .tc main_arg11)) _ _ (List.forall_iff_forall_mem.mp (by
          simp only [chunk0, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_arg11_3_7 (c : Dev nD) : R7 m c (Proc.devRef .tc main_arg11) = R3 m c (Proc.devRef .tc main_arg11) :=
  calc R7 m c (Proc.devRef .tc main_arg11)
    _ = R6 m c (Proc.devRef .tc main_arg11) := StableHlo.after_of_forall_not_mem (b := (Proc.devRef .tc main_arg11)) _ _ (List.forall_iff_forall_mem.mp (by
          simp only [chunk6, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R5 m c (Proc.devRef .tc main_arg11) := StableHlo.after_of_forall_not_mem (b := (Proc.devRef .tc main_arg11)) _ _ (List.forall_iff_forall_mem.mp (by
          simp only [chunk5, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R4 m c (Proc.devRef .tc main_arg11) := StableHlo.after_of_forall_not_mem (b := (Proc.devRef .tc main_arg11)) _ _ (List.forall_iff_forall_mem.mp (by
          simp only [chunk4, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R3 m c (Proc.devRef .tc main_arg11) := StableHlo.after_of_forall_not_mem (b := (Proc.devRef .tc main_arg11)) _ _ (List.forall_iff_forall_mem.mp (by
          simp only [chunk3, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_arg11_7_8 (c : Dev nD) : R8 m c (Proc.devRef .tc main_arg11) = R7 m c (Proc.devRef .tc main_arg11) :=
  calc R8 m c (Proc.devRef .tc main_arg11)
    _ = R7 m c (Proc.devRef .tc main_arg11) := StableHlo.after_of_forall_not_mem (b := (Proc.devRef .tc main_arg11)) _ _ (List.forall_iff_forall_mem.mp (by
          simp only [chunk7, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

end Cert.ReferenceIdeal.RefRun

end
-- ==== Proof.RefKeepVals.lean ====
/-
  The endpoint columns are written once, by the first stage, and each stage's output by that stage alone: later
  stages only read them, and those that are results of the program stay to the end.
-/
import proofs.«146821_j20100446946148_1_alg».proof.Proof.RefChunks

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ)

theorem keep_v1_1_2 (c : Dev nD) : R2 m c (Proc.devRef .tc main_v1) = R1 m c (Proc.devRef .tc main_v1) :=
  calc R2 m c (Proc.devRef .tc main_v1)
    _ = R1 m c (Proc.devRef .tc main_v1) := StableHlo.after_of_forall_not_mem (b := (Proc.devRef .tc main_v1)) _ _ (List.forall_iff_forall_mem.mp (by
          simp only [chunk1, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_v1_2_3 (c : Dev nD) : R3 m c (Proc.devRef .tc main_v1) = R2 m c (Proc.devRef .tc main_v1) :=
  calc R3 m c (Proc.devRef .tc main_v1)
    _ = R2 m c (Proc.devRef .tc main_v1) := StableHlo.after_of_forall_not_mem (b := (Proc.devRef .tc main_v1)) _ _ (List.forall_iff_forall_mem.mp (by
          simp only [chunk2, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_v1_3_5 (c : Dev nD) : R5 m c (Proc.devRef .tc main_v1) = R3 m c (Proc.devRef .tc main_v1) :=
  calc R5 m c (Proc.devRef .tc main_v1)
    _ = R4 m c (Proc.devRef .tc main_v1) := StableHlo.after_of_forall_not_mem (b := (Proc.devRef .tc main_v1)) _ _ (List.forall_iff_forall_mem.mp (by
          simp only [chunk4, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R3 m c (Proc.devRef .tc main_v1) := StableHlo.after_of_forall_not_mem (b := (Proc.devRef .tc main_v1)) _ _ (List.forall_iff_forall_mem.mp (by
          simp only [chunk3, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_v1_5_6 (c : Dev nD) : R6 m c (Proc.devRef .tc main_v1) = R5 m c (Proc.devRef .tc main_v1) :=
  calc R6 m c (Proc.devRef .tc main_v1)
    _ = R5 m c (Proc.devRef .tc main_v1) := StableHlo.after_of_forall_not_mem (b := (Proc.devRef .tc main_v1)) _ _ (List.forall_iff_forall_mem.mp (by
          simp only [chunk5, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_v1_6_7 (c : Dev nD) : R7 m c (Proc.devRef .tc main_v1) = R6 m c (Proc.devRef .tc main_v1) :=
  calc R7 m c (Proc.devRef .tc main_v1)
    _ = R6 m c (Proc.devRef .tc main_v1) := StableHlo.after_of_forall_not_mem (b := (Proc.devRef .tc main_v1)) _ _ (List.forall_iff_forall_mem.mp (by
          simp only [chunk6, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_v3_1_2 (c : Dev nD) : R2 m c (Proc.devRef .tc main_v3) = R1 m c (Proc.devRef .tc main_v3) :=
  calc R2 m c (Proc.devRef .tc main_v3)
    _ = R1 m c (Proc.devRef .tc main_v3) := StableHlo.after_of_forall_not_mem (b := (Proc.devRef .tc main_v3)) _ _ (List.forall_iff_forall_mem.mp (by
          simp only [chunk1, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_v3_2_3 (c : Dev nD) : R3 m c (Proc.devRef .tc main_v3) = R2 m c (Proc.devRef .tc main_v3) :=
  calc R3 m c (Proc.devRef .tc main_v3)
    _ = R2 m c (Proc.devRef .tc main_v3) := StableHlo.after_of_forall_not_mem (b := (Proc.devRef .tc main_v3)) _ _ (List.forall_iff_forall_mem.mp (by
          simp only [chunk2, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_v3_3_5 (c : Dev nD) : R5 m c (Proc.devRef .tc main_v3) = R3 m c (Proc.devRef .tc main_v3) :=
  calc R5 m c (Proc.devRef .tc main_v3)
    _ = R4 m c (Proc.devRef .tc main_v3) := StableHlo.after_of_forall_not_mem (b := (Proc.devRef .tc main_v3)) _ _ (List.forall_iff_forall_mem.mp (by
          simp only [chunk4, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R3 m c (Proc.devRef .tc main_v3) := StableHlo.after_of_forall_not_mem (b := (Proc.devRef .tc main_v3)) _ _ (List.forall_iff_forall_mem.mp (by
          simp only [chunk3, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_v3_5_6 (c : Dev nD) : R6 m c (Proc.devRef .tc main_v3) = R5 m c (Proc.devRef .tc main_v3) :=
  calc R6 m c (Proc.devRef .tc main_v3)
    _ = R5 m c (Proc.devRef .tc main_v3) := StableHlo.after_of_forall_not_mem (b := (Proc.devRef .tc main_v3)) _ _ (List.forall_iff_forall_mem.mp (by
          simp only [chunk5, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_v3_6_7 (c : Dev nD) : R7 m c (Proc.devRef .tc main_v3) = R6 m c (Proc.devRef .tc main_v3) :=
  calc R7 m c (Proc.devRef .tc main_v3)
    _ = R6 m c (Proc.devRef .tc main_v3) := StableHlo.after_of_forall_not_mem (b := (Proc.devRef .tc main_v3)) _ _ (List.forall_iff_forall_mem.mp (by
          simp only [chunk6, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_v57_3_8 (c : Dev nD) : R8 m c (Proc.devRef .tc main_v57) = R3 m c (Proc.devRef .tc main_v57) :=
  calc R8 m c (Proc.devRef .tc main_v57)
    _ = R7 m c (Proc.devRef .tc main_v57) := StableHlo.after_of_forall_not_mem (b := (Proc.devRef .tc main_v57)) _ _ (List.forall_iff_forall_mem.mp (by
          simp only [chunk7, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R6 m c (Proc.devRef .tc main_v57) := StableHlo.after_of_forall_not_mem (b := (Proc.devRef .tc main_v57)) _ _ (List.forall_iff_forall_mem.mp (by
          simp only [chunk6, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R5 m c (Proc.devRef .tc main_v57) := StableHlo.after_of_forall_not_mem (b := (Proc.devRef .tc main_v57)) _ _ (List.forall_iff_forall_mem.mp (by
          simp only [chunk5, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R4 m c (Proc.devRef .tc main_v57) := StableHlo.after_of_forall_not_mem (b := (Proc.devRef .tc main_v57)) _ _ (List.forall_iff_forall_mem.mp (by
          simp only [chunk4, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R3 m c (Proc.devRef .tc main_v57) := StableHlo.after_of_forall_not_mem (b := (Proc.devRef .tc main_v57)) _ _ (List.forall_iff_forall_mem.mp (by
          simp only [chunk3, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_v83_4_8 (c : Dev nD) : R8 m c (Proc.devRef .tc main_v83) = R4 m c (Proc.devRef .tc main_v83) :=
  calc R8 m c (Proc.devRef .tc main_v83)
    _ = R7 m c (Proc.devRef .tc main_v83) := StableHlo.after_of_forall_not_mem (b := (Proc.devRef .tc main_v83)) _ _ (List.forall_iff_forall_mem.mp (by
          simp only [chunk7, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R6 m c (Proc.devRef .tc main_v83) := StableHlo.after_of_forall_not_mem (b := (Proc.devRef .tc main_v83)) _ _ (List.forall_iff_forall_mem.mp (by
          simp only [chunk6, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R5 m c (Proc.devRef .tc main_v83) := StableHlo.after_of_forall_not_mem (b := (Proc.devRef .tc main_v83)) _ _ (List.forall_iff_forall_mem.mp (by
          simp only [chunk5, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R4 m c (Proc.devRef .tc main_v83) := StableHlo.after_of_forall_not_mem (b := (Proc.devRef .tc main_v83)) _ _ (List.forall_iff_forall_mem.mp (by
          simp only [chunk4, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_v84_4_8 (c : Dev nD) : R8 m c (Proc.devRef .tc main_v84) = R4 m c (Proc.devRef .tc main_v84) :=
  calc R8 m c (Proc.devRef .tc main_v84)
    _ = R7 m c (Proc.devRef .tc main_v84) := StableHlo.after_of_forall_not_mem (b := (Proc.devRef .tc main_v84)) _ _ (List.forall_iff_forall_mem.mp (by
          simp only [chunk7, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R6 m c (Proc.devRef .tc main_v84) := StableHlo.after_of_forall_not_mem (b := (Proc.devRef .tc main_v84)) _ _ (List.forall_iff_forall_mem.mp (by
          simp only [chunk6, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R5 m c (Proc.devRef .tc main_v84) := StableHlo.after_of_forall_not_mem (b := (Proc.devRef .tc main_v84)) _ _ (List.forall_iff_forall_mem.mp (by
          simp only [chunk5, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))
    _ = R4 m c (Proc.devRef .tc main_v84) := StableHlo.after_of_forall_not_mem (b := (Proc.devRef .tc main_v84)) _ _ (List.forall_iff_forall_mem.mp (by
          simp only [chunk4, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

theorem keep_v151_7_8 (c : Dev nD) : R8 m c (Proc.devRef .tc main_v151) = R7 m c (Proc.devRef .tc main_v151) :=
  calc R8 m c (Proc.devRef .tc main_v151)
    _ = R7 m c (Proc.devRef .tc main_v151) := StableHlo.after_of_forall_not_mem (b := (Proc.devRef .tc main_v151)) _ _ (List.forall_iff_forall_mem.mp (by
          simp only [chunk7, List.Forall, StableHlo.nullary_writes, StableHlo.unary_writes, StableHlo.binary_writes, StableHlo.ternary_writes, StableHlo.quaternary_writes, StableHlo.reshape_writes, Finset.mem_singleton]
          repeat' apply And.intro
          all_goals exact StableHlo.devRef_ne_of_ne (by decide)))

end Cert.ReferenceIdeal.RefRun

end
-- ==== Proof.RefRunH.lean ====
/-
  The reference program's run, read back stage by stage.

  Each stage's output is the stage's function of what it read; what it read is either an argument, still as launched,
  or the endpoint columns, or the previous stage's output. Composing, the six results are the compositions of the
  argument arrays that the two-hidden-layers-then-logits network spells out, on the input and on the perturbed input.
-/
import proofs.«146821_j20100446946148_1_alg».proof.Proof.RefChunkVals
import proofs.«146821_j20100446946148_1_alg».proof.Proof.RefKeepArgs
import proofs.«146821_j20100446946148_1_alg».proof.Proof.RefKeepVals
import proofs.«146821_j20100446946148_1_alg».proof.Proof.RefStages

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefVal

variable (m : (ℓ : Loc nD τ sig) → Buf (Elt Ideal) ℓ)

/-! ## The endpoint columns and the arguments at the boundaries where a stage reads them -/

theorem src_at1 (c : Dev nD) : R1 m c (Proc.devRef .tc main_v1) = srcR (R0 m c (Proc.devRef .tc main_arg1)) := c0_src m c
theorem dst_at1 (c : Dev nD) : R1 m c (Proc.devRef .tc main_v3) = dstR (R0 m c (Proc.devRef .tc main_arg1)) := c0_dst m c
theorem src_at2 (c : Dev nD) : R2 m c (Proc.devRef .tc main_v1) = srcR (R0 m c (Proc.devRef .tc main_arg1)) := (keep_v1_1_2 m c).trans (src_at1 m c)
theorem dst_at2 (c : Dev nD) : R2 m c (Proc.devRef .tc main_v3) = dstR (R0 m c (Proc.devRef .tc main_arg1)) := (keep_v3_1_2 m c).trans (dst_at1 m c)
theorem src_at3 (c : Dev nD) : R3 m c (Proc.devRef .tc main_v1) = srcR (R0 m c (Proc.devRef .tc main_arg1)) := (keep_v1_2_3 m c).trans (src_at2 m c)
theorem dst_at3 (c : Dev nD) : R3 m c (Proc.devRef .tc main_v3) = dstR (R0 m c (Proc.devRef .tc main_arg1)) := (keep_v3_2_3 m c).trans (dst_at2 m c)
theorem src_at5 (c : Dev nD) : R5 m c (Proc.devRef .tc main_v1) = srcR (R0 m c (Proc.devRef .tc main_arg1)) := (keep_v1_3_5 m c).trans (src_at3 m c)
theorem dst_at5 (c : Dev nD) : R5 m c (Proc.devRef .tc main_v3) = dstR (R0 m c (Proc.devRef .tc main_arg1)) := (keep_v3_3_5 m c).trans (dst_at3 m c)
theorem src_at6 (c : Dev nD) : R6 m c (Proc.devRef .tc main_v1) = srcR (R0 m c (Proc.devRef .tc main_arg1)) := (keep_v1_5_6 m c).trans (src_at5 m c)
theorem dst_at6 (c : Dev nD) : R6 m c (Proc.devRef .tc main_v3) = dstR (R0 m c (Proc.devRef .tc main_arg1)) := (keep_v3_5_6 m c).trans (dst_at5 m c)
theorem src_at7 (c : Dev nD) : R7 m c (Proc.devRef .tc main_v1) = srcR (R0 m c (Proc.devRef .tc main_arg1)) := (keep_v1_6_7 m c).trans (src_at6 m c)
theorem dst_at7 (c : Dev nD) : R7 m c (Proc.devRef .tc main_v3) = dstR (R0 m c (Proc.devRef .tc main_arg1)) := (keep_v3_6_7 m c).trans (dst_at6 m c)

theorem arg0_at1 (c : Dev nD) : R1 m c (Proc.devRef .tc main_arg0) = (R0 m c (Proc.devRef .tc main_arg0)) := keep_arg0_0_1 m c
theorem arg0_at4 (c : Dev nD) : R4 m c (Proc.devRef .tc main_arg0) = (R0 m c (Proc.devRef .tc main_arg0)) := (keep_arg0_1_4 m c).trans (keep_arg0_0_1 m c)
theorem arg2_at4 (c : Dev nD) : R4 m c (Proc.devRef .tc main_arg2) = (R0 m c (Proc.devRef .tc main_arg2)) := keep_arg2_0_4 m c
theorem arg3_at1 (c : Dev nD) : R1 m c (Proc.devRef .tc main_arg3) = (R0 m c (Proc.devRef .tc main_arg3)) := keep_arg3_0_1 m c
theorem arg3_at5 (c : Dev nD) : R5 m c (Proc.devRef .tc main_arg3) = (R0 m c (Proc.devRef .tc main_arg3)) := (keep_arg3_1_5 m c).trans (keep_arg3_0_1 m c)
theorem arg4_at1 (c : Dev nD) : R1 m c (Proc.devRef .tc main_arg4) = (R0 m c (Proc.devRef .tc main_arg4)) := keep_arg4_0_1 m c
theorem arg4_at5 (c : Dev nD) : R5 m c (Proc.devRef .tc main_arg4) = (R0 m c (Proc.devRef .tc main_arg4)) := (keep_arg4_1_5 m c).trans (keep_arg4_0_1 m c)
theorem arg5_at1 (c : Dev nD) : R1 m c (Proc.devRef .tc main_arg5) = (R0 m c (Proc.devRef .tc main_arg5)) := keep_arg5_0_1 m c
theorem arg5_at5 (c : Dev nD) : R5 m c (Proc.devRef .tc main_arg5) = (R0 m c (Proc.devRef .tc main_arg5)) := (keep_arg5_1_5 m c).trans (keep_arg5_0_1 m c)
theorem arg6_at2 (c : Dev nD) : R2 m c (Proc.devRef .tc main_arg6) = (R0 m c (Proc.devRef .tc main_arg6)) := keep_arg6_0_2 m c
theorem arg6_at6 (c : Dev nD) : R6 m c (Proc.devRef .tc main_arg6) = (R0 m c (Proc.devRef .tc main_arg6)) := (keep_arg6_2_6 m c).trans (keep_arg6_0_2 m c)
theorem arg7_at2 (c : Dev nD) : R2 m c (Proc.devRef .tc main_arg7) = (R0 m c (Proc.devRef .tc main_arg7)) := keep_arg7_0_2 m c
theorem arg7_at6 (c : Dev nD) : R6 m c (Proc.devRef .tc main_arg7) = (R0 m c (Proc.devRef .tc main_arg7)) := (keep_arg7_2_6 m c).trans (keep_arg7_0_2 m c)
theorem arg8_at2 (c : Dev nD) : R2 m c (Proc.devRef .tc main_arg8) = (R0 m c (Proc.devRef .tc main_arg8)) := keep_arg8_0_2 m c
theorem arg8_at6 (c : Dev nD) : R6 m c (Proc.devRef .tc main_arg8) = (R0 m c (Proc.devRef .tc main_arg8)) := (keep_arg8_2_6 m c).trans (keep_arg8_0_2 m c)
theorem arg9_at3 (c : Dev nD) : R3 m c (Proc.devRef .tc main_arg9) = (R0 m c (Proc.devRef .tc main_arg9)) := keep_arg9_0_3 m c
theorem arg9_at7 (c : Dev nD) : R7 m c (Proc.devRef .tc main_arg9) = (R0 m c (Proc.devRef .tc main_arg9)) := (keep_arg9_3_7 m c).trans (keep_arg9_0_3 m c)
theorem arg10_at3 (c : Dev nD) : R3 m c (Proc.devRef .tc main_arg10) = (R0 m c (Proc.devRef .tc main_arg10)) := keep_arg10_0_3 m c
theorem arg10_at7 (c : Dev nD) : R7 m c (Proc.devRef .tc main_arg10) = (R0 m c (Proc.devRef .tc main_arg10)) := (keep_arg10_3_7 m c).trans (keep_arg10_0_3 m c)
theorem arg11_at3 (c : Dev nD) : R3 m c (Proc.devRef .tc main_arg11) = (R0 m c (Proc.devRef .tc main_arg11)) := keep_arg11_0_3 m c
theorem arg11_at7 (c : Dev nD) : R7 m c (Proc.devRef .tc main_arg11) = (R0 m c (Proc.devRef .tc main_arg11)) := (keep_arg11_3_7 m c).trans (keep_arg11_0_3 m c)

/-! ## The arguments at the last boundary -/

theorem arg0_at8 (c : Dev nD) : R8 m c (Proc.devRef .tc main_arg0) = (R0 m c (Proc.devRef .tc main_arg0)) := (keep_arg0_4_8 m c).trans (arg0_at4 m c)
theorem arg1_at8 (c : Dev nD) : R8 m c (Proc.devRef .tc main_arg1) = (R0 m c (Proc.devRef .tc main_arg1)) := keep_arg1_0_8 m c
theorem arg2_at8 (c : Dev nD) : R8 m c (Proc.devRef .tc main_arg2) = (R0 m c (Proc.devRef .tc main_arg2)) := (keep_arg2_4_8 m c).trans (arg2_at4 m c)
theorem arg3_at8 (c : Dev nD) : R8 m c (Proc.devRef .tc main_arg3) = (R0 m c (Proc.devRef .tc main_arg3)) := (keep_arg3_5_8 m c).trans (arg3_at5 m c)
theorem arg4_at8 (c : Dev nD) : R8 m c (Proc.devRef .tc main_arg4) = (R0 m c (Proc.devRef .tc main_arg4)) := (keep_arg4_5_8 m c).trans (arg4_at5 m c)
theorem arg5_at8 (c : Dev nD) : R8 m c (Proc.devRef .tc main_arg5) = (R0 m c (Proc.devRef .tc main_arg5)) := (keep_arg5_5_8 m c).trans (arg5_at5 m c)
theorem arg6_at8 (c : Dev nD) : R8 m c (Proc.devRef .tc main_arg6) = (R0 m c (Proc.devRef .tc main_arg6)) := (keep_arg6_6_8 m c).trans (arg6_at6 m c)
theorem arg7_at8 (c : Dev nD) : R8 m c (Proc.devRef .tc main_arg7) = (R0 m c (Proc.devRef .tc main_arg7)) := (keep_arg7_6_8 m c).trans (arg7_at6 m c)
theorem arg8_at8 (c : Dev nD) : R8 m c (Proc.devRef .tc main_arg8) = (R0 m c (Proc.devRef .tc main_arg8)) := (keep_arg8_6_8 m c).trans (arg8_at6 m c)
theorem arg9_at8 (c : Dev nD) : R8 m c (Proc.devRef .tc main_arg9) = (R0 m c (Proc.devRef .tc main_arg9)) := (keep_arg9_7_8 m c).trans (arg9_at7 m c)
theorem arg10_at8 (c : Dev nD) : R8 m c (Proc.devRef .tc main_arg10) = (R0 m c (Proc.devRef .tc main_arg10)) := (keep_arg10_7_8 m c).trans (arg10_at7 m c)
theorem arg11_at8 (c : Dev nD) : R8 m c (Proc.devRef .tc main_arg11) = (R0 m c (Proc.devRef .tc main_arg11)) := (keep_arg11_7_8 m c).trans (arg11_at7 m c)

/-! ## The stages' outputs as compositions of the argument arrays -/

theorem s_h1 (c : Dev nD) : R2 m c (Proc.devRef .tc main_v30) = layerR (R0 m c (Proc.devRef .tc main_arg0)) (R0 m c (Proc.devRef .tc main_arg1)) (R0 m c (Proc.devRef .tc main_arg3)) (R0 m c (Proc.devRef .tc main_arg4)) (R0 m c (Proc.devRef .tc main_arg5)) := by
  rw [c1_h m c, arg0_at1 m c, src_at1 m c, dst_at1 m c, arg3_at1 m c, arg4_at1 m c, arg5_at1 m c]
  rfl

theorem s_h2 (c : Dev nD) : R3 m c (Proc.devRef .tc main_v57) = hid2R (R0 m c (Proc.devRef .tc main_arg0)) (R0 m c (Proc.devRef .tc main_arg1)) (R0 m c (Proc.devRef .tc main_arg3)) (R0 m c (Proc.devRef .tc main_arg4)) (R0 m c (Proc.devRef .tc main_arg5)) (R0 m c (Proc.devRef .tc main_arg6)) (R0 m c (Proc.devRef .tc main_arg7)) (R0 m c (Proc.devRef .tc main_arg8)) := by
  rw [c2_h m c, s_h1 m c, src_at2 m c, dst_at2 m c, arg6_at2 m c, arg7_at2 m c, arg8_at2 m c]
  rfl

theorem s_z (c : Dev nD) : R4 m c (Proc.devRef .tc main_v83) = zR (R0 m c (Proc.devRef .tc main_arg0)) (R0 m c (Proc.devRef .tc main_arg1)) (R0 m c (Proc.devRef .tc main_arg3)) (R0 m c (Proc.devRef .tc main_arg4)) (R0 m c (Proc.devRef .tc main_arg5)) (R0 m c (Proc.devRef .tc main_arg6)) (R0 m c (Proc.devRef .tc main_arg7)) (R0 m c (Proc.devRef .tc main_arg8)) (R0 m c (Proc.devRef .tc main_arg9)) (R0 m c (Proc.devRef .tc main_arg10)) (R0 m c (Proc.devRef .tc main_arg11)) := by
  rw [c3_z m c, s_h2 m c, src_at3 m c, dst_at3 m c, arg9_at3 m c, arg10_at3 m c, arg11_at3 m c]
  rfl

theorem s_y (c : Dev nD) : R4 m c (Proc.devRef .tc main_v84) = yR (R0 m c (Proc.devRef .tc main_arg0)) (R0 m c (Proc.devRef .tc main_arg1)) (R0 m c (Proc.devRef .tc main_arg3)) (R0 m c (Proc.devRef .tc main_arg4)) (R0 m c (Proc.devRef .tc main_arg5)) (R0 m c (Proc.devRef .tc main_arg6)) (R0 m c (Proc.devRef .tc main_arg7)) (R0 m c (Proc.devRef .tc main_arg8)) (R0 m c (Proc.devRef .tc main_arg9)) (R0 m c (Proc.devRef .tc main_arg10)) (R0 m c (Proc.devRef .tc main_arg11)) := by
  rw [c3_y m c, s_h2 m c, src_at3 m c, dst_at3 m c, arg9_at3 m c, arg10_at3 m c, arg11_at3 m c]
  rfl

theorem s_xn (c : Dev nD) : R5 m c (Proc.devRef .tc main_v97) = noiseR (R0 m c (Proc.devRef .tc main_arg0)) (R0 m c (Proc.devRef .tc main_arg2)) := by
  rw [c4_x m c, arg0_at4 m c, arg2_at4 m c]

theorem s_h1n (c : Dev nD) : R6 m c (Proc.devRef .tc main_v124) = layerR (noiseR (R0 m c (Proc.devRef .tc main_arg0)) (R0 m c (Proc.devRef .tc main_arg2))) (R0 m c (Proc.devRef .tc main_arg1)) (R0 m c (Proc.devRef .tc main_arg3)) (R0 m c (Proc.devRef .tc main_arg4)) (R0 m c (Proc.devRef .tc main_arg5)) := by
  rw [c5_h m c, s_xn m c, src_at5 m c, dst_at5 m c, arg3_at5 m c, arg4_at5 m c, arg5_at5 m c]
  rfl

theorem s_h2n (c : Dev nD) : R7 m c (Proc.devRef .tc main_v151) = hid2R (noiseR (R0 m c (Proc.devRef .tc main_arg0)) (R0 m c (Proc.devRef .tc main_arg2))) (R0 m c (Proc.devRef .tc main_arg1)) (R0 m c (Proc.devRef .tc main_arg3)) (R0 m c (Proc.devRef .tc main_arg4)) (R0 m c (Proc.devRef .tc main_arg5)) (R0 m c (Proc.devRef .tc main_arg6)) (R0 m c (Proc.devRef .tc main_arg7)) (R0 m c (Proc.devRef .tc main_arg8)) := by
  rw [c6_h m c, s_h1n m c, src_at6 m c, dst_at6 m c, arg6_at6 m c, arg7_at6 m c, arg8_at6 m c]
  rfl

theorem s_zn (c : Dev nD) : R8 m c (Proc.devRef .tc main_v177) = zR (noiseR (R0 m c (Proc.devRef .tc main_arg0)) (R0 m c (Proc.devRef .tc main_arg2))) (R0 m c (Proc.devRef .tc main_arg1)) (R0 m c (Proc.devRef .tc main_arg3)) (R0 m c (Proc.devRef .tc main_arg4)) (R0 m c (Proc.devRef .tc main_arg5)) (R0 m c (Proc.devRef .tc main_arg6)) (R0 m c (Proc.devRef .tc main_arg7)) (R0 m c (Proc.devRef .tc main_arg8)) (R0 m c (Proc.devRef .tc main_arg9)) (R0 m c (Proc.devRef .tc main_arg10)) (R0 m c (Proc.devRef .tc main_arg11)) := by
  rw [c7_z m c, s_h2n m c, src_at7 m c, dst_at7 m c, arg9_at7 m c, arg10_at7 m c, arg11_at7 m c]
  rfl

theorem s_yn (c : Dev nD) : R8 m c (Proc.devRef .tc main_v178) = yR (noiseR (R0 m c (Proc.devRef .tc main_arg0)) (R0 m c (Proc.devRef .tc main_arg2))) (R0 m c (Proc.devRef .tc main_arg1)) (R0 m c (Proc.devRef .tc main_arg3)) (R0 m c (Proc.devRef .tc main_arg4)) (R0 m c (Proc.devRef .tc main_arg5)) (R0 m c (Proc.devRef .tc main_arg6)) (R0 m c (Proc.devRef .tc main_arg7)) (R0 m c (Proc.devRef .tc main_arg8)) (R0 m c (Proc.devRef .tc main_arg9)) (R0 m c (Proc.devRef .tc main_arg10)) (R0 m c (Proc.devRef .tc main_arg11)) := by
  rw [c7_y m c, s_h2n m c, src_at7 m c, dst_at7 m c, arg9_at7 m c, arg10_at7 m c, arg11_at7 m c]
  rfl

/-! ## The reference's run -/

/-- Every weakly fair execution of the reference terminates, nothing faulting, with its six results at the stages'
    compositions of the argument arrays and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v57) = hid2R (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v84) = yR (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v83) = zR (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v151) = hid2R (noiseR (m ((c.tc : Thread nD τ).loc main_arg0)) (m ((c.tc : Thread nD τ).loc main_arg2))) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v178) = yR (noiseR (m ((c.tc : Thread nD τ).loc main_arg0)) (m ((c.tc : Thread nD τ).loc main_arg2))) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v177) = zR (noiseR (m ((c.tc : Thread nD τ).loc main_arg0)) (m ((c.tc : Thread nD τ).loc main_arg2))) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    ⟨(h c main_v57).trans ((congrFun (after_ops m c) _).trans ((keep_v57_3_8 m c).trans (s_h2 m c))),
     (h c main_v84).trans ((congrFun (after_ops m c) _).trans ((keep_v84_4_8 m c).trans (s_y m c))),
     (h c main_v83).trans ((congrFun (after_ops m c) _).trans ((keep_v83_4_8 m c).trans (s_z m c))),
     (h c main_v151).trans ((congrFun (after_ops m c) _).trans ((keep_v151_7_8 m c).trans (s_h2n m c))),
     (h c main_v178).trans ((congrFun (after_ops m c) _).trans (s_yn m c)),
     (h c main_v177).trans ((congrFun (after_ops m c) _).trans (s_zn m c)),
     (h c main_arg0).trans ((congrFun (after_ops m c) _).trans (arg0_at8 m c)),
     (h c main_arg1).trans ((congrFun (after_ops m c) _).trans (arg1_at8 m c)),
     (h c main_arg2).trans ((congrFun (after_ops m c) _).trans (arg2_at8 m c)),
     (h c main_arg3).trans ((congrFun (after_ops m c) _).trans (arg3_at8 m c)),
     (h c main_arg4).trans ((congrFun (after_ops m c) _).trans (arg4_at8 m c)),
     (h c main_arg5).trans ((congrFun (after_ops m c) _).trans (arg5_at8 m c)),
     (h c main_arg6).trans ((congrFun (after_ops m c) _).trans (arg6_at8 m c)),
     (h c main_arg7).trans ((congrFun (after_ops m c) _).trans (arg7_at8 m c)),
     (h c main_arg8).trans ((congrFun (after_ops m c) _).trans (arg8_at8 m c)),
     (h c main_arg9).trans ((congrFun (after_ops m c) _).trans (arg9_at8 m c)),
     (h c main_arg10).trans ((congrFun (after_ops m c) _).trans (arg10_at8 m c)),
     (h c main_arg11).trans ((congrFun (after_ops m c) _).trans (arg11_at8 m c))⟩)
    (run_seq Cert.ReferenceIdeal.OpsP.scopedRefs_eq Cert.ReferenceIdeal.OpsP.scopedSems_eq defs main
      (fun _ => Cert.ReferenceIdeal.OpsP.ops) Cert.ReferenceIdeal.OpsP.main_eq (fun _ => Cert.ReferenceIdeal.OpsP.ops_sub) m ρ)

end Cert.ReferenceIdeal.RefRun

end
-- ==== Proof.lean ====
/-
  The certificate: a three-layer neighbourhood-mean network on 50000 nodes, run on a clean and on a perturbed input,
  as seven kernel launches among host stretches, against its plain reference.

  The three frames: the two kernel programs terminate with their arguments unchanged (each launch's body, run over
  its grid of ten row blocks, faults nowhere); the reference's run is a straight line of host operations.
  The idealized kernel program differs from the word-level one at one site: the sign of the input, formed there from
  its sign bit, is restated as a comparison with zero; that restatement is the rule's own statement.
  The value claim: at the exact instance both programs compute, for each of the six results, the same composition of
  the same stages of the twelve argument arrays. The kernel program's results are read off the contents its run ends
  at, launch by launch and host stretch by host stretch; the reference's off its composed terms; the stages agree
  because the neighbourhood means agree (the edge counts are one sum of ones, shaped as a vector in one program and as
  a column in the other), the matrix products are the same sums of products, the bias is added in a different order
  (addition on the extended reals is commutative and associative), and the log-softmax and the perturbation are the
  same element-by-element expressions.
-/
import proofs.«146821_j20100446946148_1_alg».proof.Defs
import proofs.«146821_j20100446946148_1_alg».proof.Proof.Gen.Kernel
import proofs.«146821_j20100446946148_1_alg».proof.Proof.Gen.Kernel.Skeleton
import proofs.«146821_j20100446946148_1_alg».proof.Proof.Gen.Kernel.Launch
import proofs.«146821_j20100446946148_1_alg».proof.Proof.Gen.Kernel.Points
import proofs.«146821_j20100446946148_1_alg».proof.Proof.Gen.Kernel.Frame
import proofs.«146821_j20100446946148_1_alg».proof.Proof.Gen.KernelIdeal
import proofs.«146821_j20100446946148_1_alg».proof.Proof.Gen.KernelIdeal.Skeleton
import proofs.«146821_j20100446946148_1_alg».proof.Proof.Gen.KernelIdeal.Launch
import proofs.«146821_j20100446946148_1_alg».proof.Proof.Gen.KernelIdeal.Points
import proofs.«146821_j20100446946148_1_alg».proof.Proof.Gen.KernelIdeal.Frame
import proofs.«146821_j20100446946148_1_alg».proof.Proof.Gen.ReferenceIdeal
import proofs.«146821_j20100446946148_1_alg».proof.Proof.Gen.Pre_finite_inputs
import proofs.«146821_j20100446946148_1_alg».proof.Proof.KRun
import proofs.«146821_j20100446946148_1_alg».proof.Proof.KRes
import proofs.«146821_j20100446946148_1_alg».proof.Proof.RefRunH
import Idealize.ShloMosaic.Adequacy
import Idealize.ShloMosaic.Init

set_option maxRecDepth 65536

noncomputable section

namespace Cert.Proof

open Idealize.ShloMosaic Idealize.SL.Sem
open Cert.KernelIdeal.KFold Cert.ReferenceIdeal.RefVal

theorem frame_k : Cert.frame_Kernel := fun m ρ _ => Cert.Kernel.Gen.frame m ρ

theorem frame_ki : Cert.frame_KernelIdeal := fun m ρ _ => Cert.KernelIdeal.Gen.frame m ρ

/-- The reference's run with its six results dropped. -/
theorem frame_ri : Cert.frame_ReferenceIdeal := fun m ρ _ =>
  (θ_run Cert.ReferenceIdeal.defs _ _).mono (fun _ h c => (h c).2.2.2.2.2.2) (Cert.ReferenceIdeal.RefRun.run m ρ)

/-- The one rewritten site: the sign of the input, from its sign bit to a comparison. -/
theorem preserves : Cert.preserves_Kernel_KernelIdeal := IdealRules.sign_bit.statement Cert.KernelIdeal.S5000x128 .f32

/-- Both idealized programs end, from memories agreeing on the arguments, with the same six arrays. -/
theorem algebraic : Cert.algebraic_KernelIdeal_ReferenceIdeal := by
  intro m ρ m' ρ' _ hagree
  refine ⟨fun c => h2 m ρ c, fun c => yP m ρ c, fun c => zP m ρ c, fun c => h2N m ρ c, fun c => yN m ρ c, fun c => zN m ρ c, ?_, ?_⟩
  · refine (θ_run Cert.KernelIdeal.defs _ _).mono (fun r h c => ?_) (Cert.KernelIdeal.KRun.run_named (F := Ideal) m ρ)
    obtain ⟨e0, e1, e2, e3, e4, e5, hargs⟩ := h c
    exact ⟨e0.trans (fin_h2 m ρ c), e1.trans (fin_yP m ρ c), e2.trans (fin_zP m ρ c), e3.trans (fin_h2N m ρ c),
      e4.trans (fin_yN m ρ c), e5.trans (fin_zN m ρ c), hargs⟩
  · refine (θ_run Cert.ReferenceIdeal.defs _ _).mono (fun r h c => ?_) (Cert.ReferenceIdeal.RefRun.run m' ρ')
    obtain ⟨e0, e1, e2, e3, e4, e5, hargs⟩ := h c
    obtain ⟨g0, g1, g2, g3, g4, g5, g6, g7, g8, g9, g10, g11⟩ := hagree c
    refine ⟨e0.trans ?_, e1.trans ?_, e2.trans ?_, e3.trans ?_, e4.trans ?_, e5.trans ?_, hargs⟩
    · rw [g0, g1, g3, g4, g5, g6, g7, g8]; exact (k_h2 m ρ c).symm
    · rw [g0, g1, g3, g4, g5, g6, g7, g8, g9, g10, g11]; exact (k_yP m ρ c).symm
    · rw [g0, g1, g3, g4, g5, g6, g7, g8, g9, g10, g11]; exact (k_zP m ρ c).symm
    · rw [g0, g1, g2, g3, g4, g5, g6, g7, g8]; exact (k_h2N m ρ c).symm
    · rw [g0, g1, g2, g3, g4, g5, g6, g7, g8, g9, g10, g11]; exact (k_yN m ρ c).symm
    · rw [g0, g1, g2, g3, g4, g5, g6, g7, g8, g9, g10, g11]; exact (k_zN m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
